-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.sign_bit.Statement Cert.KernelIdeal.S2048x512 .f32
  ∧ IdealRules.sign_bit.Statement Cert.KernelIdeal.S2048x512 .f32
  ∧ IdealRules.sign_bit.Statement Cert.KernelIdeal.S2048x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S512 .f32) (main_arg12 : FVec F S512 .f32) (main_arg13 : FVec F S10x512 .f32) (main_arg14 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S10x512 .f32 := Host.absf main_arg13
  let main_cst_24 : FVec F S_ .f32 := constant S_ .f32 0x7F800000#32
  let main_v65 : FVec F S10x512 .f32 := broadcastInDim S10x512 ![] bcast_S_S10x512 main_cst_24
  let main_v66 : IVec S10x512 1 := cmpf .olt main_v64 main_v65
  let main_c_25 : IVec S_ 1 := constantI S_ 1 1#1
  let main_v67 : IVec S_ 1 := (fun x v => Host.reduce IntOp.andi x v reducesTo_S10x512_S_d0_1 h_S_) main_v66 main_c_25
  fn_part4 (F := F) main_arg14 main_v63 main_v67

def fn_part2 {F : FTy → Type} [FloatOps F] (main_arg7 : FVec F S512 .f32) (main_arg8 : FVec F S512 .f32) (main_arg9 : FVec F S512x512 .f32) (main_arg10 : FVec F S512 .f32) (main_arg11 : FVec F S512 .f32) (main_arg12 : FVec F S512 .f32) (main_arg13 : FVec F S10x512 .f32) (main_arg14 : FVec F S10 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512 .f32) (main_arg7 : FVec F S512 .f32) (main_arg8 : FVec F S512 .f32) (main_arg9 : FVec F S512x512 .f32) (main_arg10 : FVec F S512 .f32) (main_arg11 : FVec F S512 .f32) (main_arg12 : FVec F S512 .f32) (main_arg13 : FVec F S10x512 .f32) (main_arg14 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x784 .f32) (main_arg1 : FVec F S512x784 .f32) (main_arg2 : FVec F S512 .f32) (main_arg3 : FVec F S512 .f32) (main_arg4 : FVec F S512 .f32) (main_arg5 : FVec F S512x512 .f32) (main_arg6 : FVec F S512 .f32) (main_arg7 : FVec F S512 .f32) (main_arg8 : FVec F S512 .f32) (main_arg9 : FVec F S512x512 .f32) (main_arg10 : FVec F S512 .f32) (main_arg11 : FVec F S512 .f32) (main_arg12 : FVec F S512 .f32) (main_arg13 : FVec F S10x512 .f32) (main_arg14 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S784x512 : Shape := ⟨2, ![784, 512]⟩
abbrev S1x512 : Shape := ⟨2, ![1, 512]⟩
abbrev S65536x512 : Shape := ⟨2, ![65536, 512]⟩
abbrev S1024x784 : Shape := ⟨2, ![1024, 784]⟩
abbrev S1024x512 : Shape := ⟨2, ![1024, 512]⟩
abbrev S_ : Shape := ⟨0, ![]⟩
abbrev S2048x512 : Shape := ⟨2, ![2048, 512]⟩
abbrev S512x10 : Shape := ⟨2, ![512, 10]⟩
abbrev S1x10 : Shape := ⟨2, ![1, 10]⟩
abbrev S65536x10 : Shape := ⟨2, ![65536, 10]⟩
abbrev S2048x10 : Shape := ⟨2, ![2048, 10]⟩
abbrev S2048 : Shape := ⟨1, ![2048]⟩
abbrev S2048x1 : Shape := ⟨2, ![2048, 1]⟩

abbrev nBuf : Space → Nat
  | .hbm => 69
  | .vmem => 42
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S10x512, .f32⟩
  | .hbm, ⟨14, _⟩ => ⟨S10, .f32⟩
  | .hbm, ⟨15, _⟩ => ⟨S512x784, .f32⟩
  | .hbm, ⟨16, _⟩ => ⟨S784x512, .f32⟩
  | .hbm, ⟨17, _⟩ => ⟨S1x512, .f32⟩
  | .hbm, ⟨18, _⟩ => ⟨S65536x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S65536x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S512x512, .f32⟩
  | .hbm, ⟨47, _⟩ => ⟨S512x512, .f32⟩
  | .hbm, ⟨48, _⟩ => ⟨S512x512, .bf16⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S65536x512, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S_, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S512x10, .f32⟩
  | .hbm, ⟨64, _⟩ => ⟨S512x10, .bf16⟩
  | .hbm, ⟨65, _⟩ => ⟨S1x512, .f32⟩
  | .hbm, ⟨66, _⟩ => ⟨S1x512, .f32⟩
  | .hbm, ⟨67, _⟩ => ⟨S1x10, .f32⟩
  | .hbm, ⟨68, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S784x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S2048x512, .f32⟩
  | .local _ .vmem, ⟨17, _⟩ => ⟨S2048x512, .f32⟩
  | .local _ .vmem, ⟨18, _⟩ => ⟨S1x512, .f32⟩
  | .local _ .vmem, ⟨19, _⟩ => ⟨S1x512, .f32⟩
  | .local _ .vmem, ⟨20, _⟩ => ⟨S2048x512, .f32⟩
  | .local _ .vmem, ⟨21, _⟩ => ⟨S2048x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S512x512, .bf16⟩
  | .local _ .vmem, ⟨27, _⟩ => ⟨S1x512, .f32⟩
  | .local _ .vmem, ⟨28, _⟩ => ⟨S2048x512, .f32⟩
  | .local _ .vmem, ⟨29, _⟩ => ⟨S2048x512, .f32⟩
  | .local _ .vmem, ⟨30, _⟩ => ⟨S1x512, .f32⟩
  | .local _ .vmem, ⟨31, _⟩ => ⟨S1x512, .f32⟩
  | .local _ .vmem, ⟨32, _⟩ => ⟨S2048x512, .f32⟩
  | .local _ .vmem, ⟨33, _⟩ => ⟨S2048x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S512x10, .bf16⟩
  | .local _ .vmem, ⟨39, _⟩ => ⟨S1x10, .f32⟩
  | .local _ .vmem, ⟨40, _⟩ => ⟨S2048x10, .f32⟩
  | .local _ .vmem, ⟨41, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg9_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem9_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x10 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  transposes_S512x784_S784x512_1_0 : S512x784.Transposes [1, 0] S784x512
  shapeCasts_S512_S1x512 : S512.ShapeCasts S1x512
  inb_S1024x784_S1024x784_0_0 : ∀ a, (![0, 0] : Fin 2 → Nat) a + S1024x784.size a ≤ S1024x784.size a
  h_S1024x784 : 0 < S1024x784.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  bcast_S_S1x512 : S_.BroadcastsInDim S1x512 (![] : Fin 0 → Fin S1x512.rank)
  transposes_S512x512_S512x512_1_0 : S512x512.Transposes [1, 0] S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S512 : S2048x512.Reduces [0] S512
  transposes_S10x512_S512x10_1_0 : S10x512.Transposes [1, 0] S512x10
  shapeCasts_S10_S1x10 : S10.ShapeCasts S1x10
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S1024x784_S784x512_S1024x512_1_0_0_1_n_n_wf : DotDims.WF S1024x784 S784x512 S1024x512 [1] [0] [0] [1] [] []
  dot_S2048x512_S512x512_S2048x512_1_0_0_1_n_n_wf : DotDims.WF S2048x512 S512x512 S2048x512 [1] [0] [0] [1] [] []
  dot_S2048x512_S512x10_S2048x10_1_0_0_1_n_n_wf : DotDims.WF S2048x512 S512x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .f32 = 32 ∨ (Rect.block (s := S784x512) S784x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x512.size a ≤ S65536x512.size a
  hwx1_7 : ∀ i : grid1.Coords, EltTy.bits .f32 = 32 ∨ (Rect.block (s := S65536x512) S2048x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S65536x512.size a
  hwx2_0 : ∀ i : grid2.Coords, EltTy.bits .f32 = 32 ∨ (Rect.block (s := S65536x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .bf16 = 32 ∨ (Rect.block (s := S512x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x512.size a ≤ S65536x512.size a
  hwx2_7 : ∀ i : grid2.Coords, EltTy.bits .f32 = 32 ∨ (Rect.block (s := S65536x512) S2048x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x512.size a
  hwx2_9 : ∀ i : grid2.Coords, EltTy.bits .f32 = 32 ∨ (Rect.block (s := S1x512) S1x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S65536x512.size a
  hwx3_0 : ∀ i : grid3.Coords, EltTy.bits .f32 = 32 ∨ (Rect.block (s := S65536x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .bf16 = 32 ∨ (Rect.block (s := S512x10) S512x10.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x10.size a ≤ S65536x10.size a
  hwx3_7 : ∀ i : grid3.Coords, EltTy.bits .f32 = 32 ∨ (Rect.block (s := S65536x10) S2048x10.size (cc3_transform_7 i) (hinb3_7 i)).WholeWords (EltTy.packing .f32)

variable [Facts₀]

def dot_S1024x784_S784x512_S1024x512_1_0_0_1_n_n : DotDims S1024x784 S784x512 S1024x512 where
  lhsContracting := [1]
  rhsContracting := [0]
  lhsNonContracting := [0]
  rhsNonContracting := [1]
  lhsBatch := []
  rhsBatch := []
  wf := dot_S1024x784_S784x512_S1024x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16_0) S2048x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v16_1) S1x512.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16_2) S1x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v16_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_0) S2048x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_1) S1x512.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29_2) S1x512.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v29_0) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S512x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41) S2048x10.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S784x512 : Shape := ⟨2, ![784, 512]⟩
abbrev S65536x512 : Shape := ⟨2, ![65536, 512]⟩
abbrev S1x512 : Shape := ⟨2, ![1, 512]⟩
abbrev S_ : Shape := ⟨0, ![]⟩
abbrev S512x10 : Shape := ⟨2, ![512, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 194
  | .vmem => 0
  | .smem => 0
  | _ => 0

abbrev hbmTy0_0 (i : Nat) : BufTy := match i % 128 with
  | 0 => ⟨S65536x784, .f32⟩
  | 1 => ⟨S512x784, .f32⟩
  | 2 => ⟨S512, .f32⟩
  | 3 => ⟨S512, .f32⟩
  | 4 => ⟨S512, .f32⟩
  | 5 => ⟨S512x512, .f32⟩
  | 6 => ⟨S512, .f32⟩
  | 7 => ⟨S512, .f32⟩
  | 8 => ⟨S512, .f32⟩
  | 9 => ⟨S512x512, .f32⟩
  | 10 => ⟨S512, .f32⟩
  | 11 => ⟨S512, .f32⟩
  | 12 => ⟨S512, .f32⟩
  | 13 => ⟨S10x512, .f32⟩
  | 14 => ⟨S10, .f32⟩
  | 15 => ⟨S512x784, .f32⟩
  | 16 => ⟨S784x512, .f32⟩
  | 17 => ⟨S65536x512, .f32⟩
  | 18 => ⟨S1x512, .f32⟩
  | 19 => ⟨S65536x512, .f32⟩
  | 20 => ⟨S65536x512, .f32⟩
  | 21 => ⟨S_, .f32⟩
  | 22 => ⟨S512, .f32⟩
  | 23 => ⟨S_, .f32⟩
  | 24 => ⟨S512, .f32⟩
  | 25 => ⟨S512, .f32⟩
  | 26 => ⟨S_, .i32⟩
  | 27 => ⟨S_, .f32⟩
  | 28 => ⟨S512, .f32⟩
  | 29 => ⟨S1x512, .f32⟩
  | 30 => ⟨S_, .f32⟩
  | 31 => ⟨S1x512, .f32⟩
  | 32 => ⟨S1x512, .f32⟩
  | 33 => ⟨S65536x512, .f32⟩
  | 34 => ⟨S65536x512, .f32⟩
  | 35 => ⟨S65536x512, .f32⟩
  | 36 => ⟨S_, .f32⟩
  | 37 => ⟨S_, .f32⟩
  | 38 => ⟨S_, .f32⟩
  | 39 => ⟨S_, .f32⟩
  | 40 => ⟨S512, .f32⟩
  | 41 => ⟨S512, .f32⟩
  | 42 => ⟨S512, .f32⟩
  | 43 => ⟨S_, .f32⟩
  | 44 => ⟨S_, .i1⟩
  | 45 => ⟨S_, .f32⟩
  | 46 => ⟨S_, .f32⟩
  | 47 => ⟨S512, .f32⟩
  | 48 => ⟨S512, .f32⟩
  | 49 => ⟨S1x512, .f32⟩
  | 50 => ⟨S65536x512, .f32⟩
  | 51 => ⟨S65536x512, .f32⟩
  | 52 => ⟨S_, .f32⟩
  | 53 => ⟨S512, .f32⟩
  | 54 => ⟨S512, .f32⟩
  | 55 => ⟨S512, .f32⟩
  | 56 => ⟨S1x512, .f32⟩
  | 57 => ⟨S65536x512, .f32⟩
  | 58 => ⟨S65536x512, .f32⟩
  | 59 => ⟨S1x512, .f32⟩
  | 60 => ⟨S65536x512, .f32⟩
  | 61 => ⟨S65536x512, .f32⟩
  | 62 => ⟨S1x512, .f32⟩
  | 63 => ⟨S65536x512, .f32⟩
  | 64 => ⟨S65536x512, .f32⟩
  | 65 => ⟨S65536x512, .f32⟩
  | 66 => ⟨S65536x512, .f32⟩
  | 67 => ⟨S65536x512, .f32⟩
  | 68 => ⟨S512x512, .f32⟩
  | 69 => ⟨S512x512, .f32⟩
  | 70 => ⟨S65536x512, .f32⟩
  | 71 => ⟨S1x512, .f32⟩
  | 72 => ⟨S65536x512, .f32⟩
  | 73 => ⟨S65536x512, .f32⟩
  | 74 => ⟨S_, .f32⟩
  | 75 => ⟨S512, .f32⟩
  | 76 => ⟨S_, .f32⟩
  | 77 => ⟨S512, .f32⟩
  | 78 => ⟨S512, .f32⟩
  | 79 => ⟨S_, .i32⟩
  | 80 => ⟨S_, .f32⟩
  | 81 => ⟨S512, .f32⟩
  | 82 => ⟨S1x512, .f32⟩
  | 83 => ⟨S_, .f32⟩
  | 84 => ⟨S1x512, .f32⟩
  | 85 => ⟨S1x512, .f32⟩
  | 86 => ⟨S65536x512, .f32⟩
  | 87 => ⟨S65536x512, .f32⟩
  | 88 => ⟨S65536x512, .f32⟩
  | 89 => ⟨S_, .f32⟩
  | 90 => ⟨S_, .f32⟩
  | 91 => ⟨S_, .f32⟩
  | 92 => ⟨S_, .f32⟩
  | 93 => ⟨S512, .f32⟩
  | 94 => ⟨S512, .f32⟩
  | 95 => ⟨S512, .f32⟩
  | 96 => ⟨S_, .f32⟩
  | 97 => ⟨S_, .i1⟩
  | 98 => ⟨S_, .f32⟩
  | 99 => ⟨S_, .f32⟩
  | 100 => ⟨S512, .f32⟩
  | 101 => ⟨S512, .f32⟩
  | 102 => ⟨S1x512, .f32⟩
  | 103 => ⟨S65536x512, .f32⟩
  | 104 => ⟨S65536x512, .f32⟩
  | 105 => ⟨S_, .f32⟩
  | 106 => ⟨S512, .f32⟩
  | 107 => ⟨S512, .f32⟩
  | 108 => ⟨S512, .f32⟩
  | 109 => ⟨S1x512, .f32⟩
  | 110 => ⟨S65536x512, .f32⟩
  | 111 => ⟨S65536x512, .f32⟩
  | 112 => ⟨S1x512, .f32⟩
  | 113 => ⟨S65536x512, .f32⟩
  | 114 => ⟨S65536x512, .f32⟩
  | 115 => ⟨S1x512, .f32⟩
  | 116 => ⟨S65536x512, .f32⟩
  | 117 => ⟨S65536x512, .f32⟩
  | 118 => ⟨S65536x512, .f32⟩
  | 119 => ⟨S65536x512, .f32⟩
  | 120 => ⟨S65536x512, .f32⟩
  | 121 => ⟨S512x512, .f32⟩
  | 122 => ⟨S512x512, .f32⟩
  | 123 => ⟨S65536x512, .f32⟩
  | 124 => ⟨S1x512, .f32⟩
  | 125 => ⟨S65536x512, .f32⟩
  | 126 => ⟨S65536x512, .f32⟩
  | 127 => ⟨S_, .f32⟩
  | _ => ⟨S65536x784, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S_, .i32⟩
  | 5 => ⟨S_, .f32⟩
  | 6 => ⟨S512, .f32⟩
  | 7 => ⟨S1x512, .f32⟩
  | 8 => ⟨S_, .f32⟩
  | 9 => ⟨S1x512, .f32⟩
  | 10 => ⟨S1x512, .f32⟩
  | 11 => ⟨S65536x512, .f32⟩
  | 12 => ⟨S65536x512, .f32⟩
  | 13 => ⟨S65536x512, .f32⟩
  | 14 => ⟨S_, .f32⟩
  | 15 => ⟨S_, .f32⟩
  | 16 => ⟨S_, .f32⟩
  | 17 => ⟨S_, .f32⟩
  | 18 => ⟨S512, .f32⟩
  | 19 => ⟨S512, .f32⟩
  | 20 => ⟨S512, .f32⟩
  | 21 => ⟨S_, .f32⟩
  | 22 => ⟨S_, .i1⟩
  | 23 => ⟨S_, .f32⟩
  | 24 => ⟨S_, .f32⟩
  | 25 => ⟨S512, .f32⟩
  | 26 => ⟨S512, .f32⟩
  | 27 => ⟨S1x512, .f32⟩
  | 28 => ⟨S65536x512, .f32⟩
  | 29 => ⟨S65536x512, .f32⟩
  | 30 => ⟨S_, .f32⟩
  | 31 => ⟨S512, .f32⟩
  | 32 => ⟨S512, .f32⟩
  | 33 => ⟨S512, .f32⟩
  | 34 => ⟨S1x512, .f32⟩
  | 35 => ⟨S65536x512, .f32⟩
  | 36 => ⟨S65536x512, .f32⟩
  | 37 => ⟨S1x512, .f32⟩
  | 38 => ⟨S65536x512, .f32⟩
  | 39 => ⟨S65536x512, .f32⟩
  | 40 => ⟨S1x512, .f32⟩
  | 41 => ⟨S65536x512, .f32⟩
  | 42 => ⟨S65536x512, .f32⟩
  | 43 => ⟨S65536x512, .f32⟩
  | 44 => ⟨S65536x512, .f32⟩
  | 45 => ⟨S65536x512, .f32⟩
  | 46 => ⟨S512x10, .f32⟩
  | 47 => ⟨S65536x10, .f32⟩
  | 48 => ⟨S1x10, .f32⟩
  | 49 => ⟨S65536x10, .f32⟩
  | 50 => ⟨S65536x10, .f32⟩
  | 51 => ⟨S_, .f32⟩
  | 52 => ⟨S65536, .f32⟩
  | 53 => ⟨S_, .f32⟩
  | 54 => ⟨S65536, .f32⟩
  | 55 => ⟨S65536, .f32⟩
  | 56 => ⟨S65536x1, .f32⟩
  | 57 => ⟨S65536x10, .f32⟩
  | 58 => ⟨S65536x10, .f32⟩
  | 59 => ⟨S65536x10, .f32⟩
  | 60 => ⟨S_, .f32⟩
  | 61 => ⟨S65536, .f32⟩
  | 62 => ⟨S65536x1, .f32⟩
  | 63 => ⟨S65536x1, .f32⟩
  | 64 => ⟨S65536x10, .f32⟩
  | 65 => ⟨S65536x10, .f32⟩
  | _ => ⟨S65536x784, .f32⟩

abbrev hbmTy (i : Nat) : BufTy := match i / 128 with
  | 0 => hbmTy0_0 i
  | 1 => hbmTy0_1 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_2 : Ref sig .tc := ⟨.hbm, 74, rfl⟩
abbrev main_v34 : Ref sig .tc := ⟨.hbm, 75, rfl⟩
abbrev main_cst_3 : Ref sig .tc := ⟨.hbm, 76, rfl⟩
abbrev main_v35 : Ref sig .tc := ⟨.hbm, 77, rfl⟩
abbrev main_v36 : Ref sig .tc := ⟨.hbm, 78, rfl⟩
abbrev main_c_4 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_5 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_6 : Ref sig .tc := ⟨.hbm, 127, rfl⟩
abbrev main_v62 : Ref sig .tc := ⟨.hbm, 128, rfl⟩
abbrev main_cst_7 : Ref sig .tc := ⟨.hbm, 129, rfl⟩
abbrev main_v63 : Ref sig .tc := ⟨.hbm, 130, rfl⟩
abbrev main_v64 : Ref sig .tc := ⟨.hbm, 131, rfl⟩
abbrev main_c_8 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_cst_2 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_cst_3 : Ref sig .tc := ⟨.hbm, 149, rfl⟩
abbrev main_call2_v12 : Ref sig .tc := ⟨.hbm, 150, rfl⟩
abbrev main_call2_cst_4 : Ref sig .tc := ⟨.hbm, 151, rfl⟩
abbrev main_call2_call0_v0 : Ref sig .tc := ⟨.hbm, 152, rfl⟩
abbrev main_call2_call0_v1 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_cst_9 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_call3_cst : Ref sig .tc := ⟨.hbm, 179, rfl⟩
abbrev main_call3_v0 : Ref sig .tc := ⟨.hbm, 180, rfl⟩
abbrev main_call3_cst_0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_v5 : Ref sig .tc := ⟨.hbm, 186, rfl⟩
abbrev main_call3_v6 : Ref sig .tc := ⟨.hbm, 187, rfl⟩
abbrev main_call3_cst_1 : Ref sig .tc := ⟨.hbm, 188, rfl⟩
abbrev main_call3_v7 : Ref sig .tc := ⟨.hbm, 189, rfl⟩
abbrev main_call3_v8 : Ref sig .tc := ⟨.hbm, 190, rfl⟩
abbrev main_call3_v9 : Ref sig .tc := ⟨.hbm, 191, rfl⟩
abbrev main_call3_v10 : Ref sig .tc := ⟨.hbm, 192, rfl⟩
abbrev main_v89 : Ref sig .tc := ⟨.hbm, 193, rfl⟩

abbrev nD : Nat := 1
abbrev τ : Topo := Topo.v7x

variable {F : FTy → Type} [FloatOps F]

class Facts₀ : Prop where
  transposes_S512x784_S784x512_1_0 : S512x784.Transposes [1, 0] S784x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S512_d0 : S65536x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x512_S65536x512_1_0_0_1_n_n_wf : DotDims.WF S65536x784 S784x512 S65536x512 [1] [0] [0] [1] [] []
  dot_S65536x512_S512x512_S65536x512_1_0_0_1_n_n_wf : DotDims.WF S65536x512 S512x512 S65536x512 [1] [0] [0] [1] [] []
  dot_S65536x512_S512x10_S65536x10_1_0_0_1_n_n_wf : DotDims.WF S65536x512 S512x10 S65536x10 [1] [0] [0] [1] [] []

variable [Facts₀]

def dot_S65536x784_S784x512_S65536x512_1_0_0_1_n_n : DotDims S65536x784 S784x512 S65536x512 where
  lhsContracting := [1]
  rhsContracting := [0]
  lhsNonContracting := [0]
  rhsNonContracting := [1]
  lhsBatch := []
  rhsBatch := []
  wf := dot_S65536x784_S784x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf

class Facts : Prop extends Facts₀ where

variable [Facts]
-- ==== Proof.RefOps.lean ====
/-
  The reference program as one straight line of its 179 array operations, the outlined functions' operations
  written in place at their calls, cut into twelve consecutive stretches that follow the network's stages (a linear
  layer; the batch statistics; the normalisation and activation; …; the head's linear layer; the log-softmax). For each
  stretch: the buffers it writes, that every other buffer keeps its contents through it, and that it touches
  TensorCore buffers only. The program is the stretches run in order.
-/
import proofs.«107829_j6700148982619_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev opsA1 : List (HloOp τ sig (Elt F)) :=
  [ StableHlo.unary main_arg1 main_v0 (Host.sign : (⟨S512x784, .f32⟩ : BufTy).Contents (Elt F) → (⟨S512x784, .f32⟩ : BufTy).Contents (Elt F)),
    StableHlo.unary main_v0 main_v1 ((transpose S784x512 [1, 0] · transposes_S512x784_S784x512_1_0) : (⟨S512x784, .f32⟩ : BufTy).Contents (Elt F) → (⟨S784x512, .f32⟩ : BufTy).Contents (Elt F)),
    StableHlo.binary main_arg0 main_v1 main_v2 ((fun l r => Host.dotGeneral dot_S65536x784_S784x512_S65536x512_1_0_0_1_n_n none l r) : (⟨S65536x784, .f32⟩ : BufTy).Contents (Elt F) → (⟨S784x512, .f32⟩ : BufTy).Contents (Elt F) → (⟨S65536x512, .f32⟩ : BufTy).Contents (Elt F)),
    StableHlo.unary main_arg2 main_v3 (broadcastInDim S1x512 ![1] bcast_S512_S1x512_1 : (⟨S512, .f32⟩ : BufTy).Contents (Elt F) → (⟨S1x512, .f32⟩ : BufTy).Contents (Elt F)),
    StableHlo.unary main_v3 main_v4 (broadcastInDim S65536x512 ![0, 1] bcast_S1x512_S65536x512_0_1 : (⟨S1x512, .f32⟩ : BufTy).Contents (Elt F) → (⟨S65536x512, .f32⟩ : BufTy).Contents (Elt F)),
    StableHlo.binary main_v2 main_v4 main_v5 (addf : (⟨S65536x512, .f32⟩ : BufTy).Contents (Elt F) → (⟨S65536x512, .f32⟩ : BufTy).Contents (Elt F) → (⟨S65536x512, .f32⟩ : BufTy).Contents (Elt F)) ]

abbrev opsA2 : List (HloOp τ sig (Elt F)) :=
  [ StableHlo.nullary main_cst (constant S_ .f32 0x00000000#32),
    StableHlo.binary main_v5 main_cst main_v6 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    StableHlo.nullary main_cst_0 (constant S_ .f32 0x47800000#32),
    StableHlo.unary main_cst_0 main_v7 (broadcastInDim S512 ![] bcast_S_S512 : (⟨S_, .f32⟩ : BufTy).Contents (Elt F) → (⟨S512, .f32⟩ : BufTy).Contents (Elt F)),
    StableHlo.binary main_v6 main_v7 main_v8 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    TRef.nullary main_call0.cst (constant S_ .f32 0x00000000#32),
    TRef.binary (.of main_v5 : TRef sig ⟨S65536x512, .f32⟩) main_call0.cst main_call0.v0 (fun x v => Host.reduceAdd x v reducesTo_S65536x512_S512_d0 h_S_),
    TRef.unary main_call0.v0 main_call0.v1 (broadcastInDim S1x512 ![1] bcast_S512_S1x512_1),
    TRef.nullary main_call0.cst_0 (constant S_ .f32 0x47800000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S65536x512 ![0, 1] bcast_S1x512_S65536x512_0_1),
    TRef.binary (.of main_v5 : TRef sig ⟨S65536x512, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b) ]

abbrev opsA3 : List (HloOp τ sig (Elt F)) :=
  [ StableHlo.unary main_v8 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S65536x512 ![0, 1] bcast_S1x512_S65536x512_0_1 : (⟨S1x512, .f32⟩ : BufTy).Contents (Elt F) → (⟨S65536x512, .f32⟩ : BufTy).Contents (Elt F)),
    StableHlo.binary main_v5 main_v11 main_v12 (subf : (⟨S65536x512, .f32⟩ : BufTy).Contents (Elt F) → (⟨S65536x512, .f32⟩ : BufTy).Contents (Elt F) → (⟨S65536x512, .f32⟩ : BufTy).Contents (Elt F)),
    StableHlo.nullary main_cst_1 (constant S_ .f32 0x3727C5AC#32),
    StableHlo.unary main_cst_1 main_v13 (broadcastInDim S512 ![] bcast_S_S512 : (⟨S_, .f32⟩ : BufTy).Contents (Elt F) → (⟨S512, .f32⟩ : BufTy).Contents (Elt F)),
    StableHlo.binary main_v9 main_v13 main_v14 (addf : (⟨S512, .f32⟩ : BufTy).Contents (Elt F) → (⟨S512, .f32⟩ : BufTy).Contents (Elt F) → (⟨S512, .f32⟩ : BufTy).Contents (Elt F)),
    StableHlo.unary main_v14 main_v15 (Host.rsqrt : (⟨S512, .f32⟩ : BufTy).Contents (Elt F) → (⟨S512, .f32⟩ : BufTy).Contents (Elt F)),
    StableHlo.unary main_v15 main_v16 (broadcastInDim S1x512 ![1] bcast_S512_S1x512_1 : (⟨S512, .f32⟩ : BufTy).Contents (Elt F) → (⟨S1x512, .f32⟩ : BufTy).Contents (Elt F)),
    StableHlo.unary main_v16 main_v17 (broadcastInDim S65536x512 ![0, 1] bcast_S1x512_S65536x512_0_1 : (⟨S1x512, .f32⟩ : BufTy).Contents (Elt F) → (⟨S65536x512, .f32⟩ : BufTy).Contents (Elt F)),
    StableHlo.binary main_v12 main_v17 main_v18 (mulf : (⟨S65536x512, .f32⟩ : BufTy).Contents (Elt F) → (⟨S65536x512, .f32⟩ : BufTy).Contents (Elt F) → (⟨S65536x512, .f32⟩ : BufTy).Contents (Elt F)),
    StableHlo.unary main_arg3 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S65536x512 ![0, 1] bcast_S1x512_S65536x512_0_1 : (⟨S1x512, .f32⟩ : BufTy).Contents (Elt F) → (⟨S65536x512, .f32⟩ : BufTy).Contents (Elt F)),
    StableHlo.binary main_v18 main_v20 main_v21 (mulf : (⟨S65536x512, .f32⟩ : BufTy).Contents (Elt F) → (⟨S65536x512, .f32⟩ : BufTy).Contents (Elt F) → (⟨S65536x512, .f32⟩ : BufTy).Contents (Elt F)),
    StableHlo.unary main_arg4 main_v22 (broadcastInDim S1x512 ![1] bcast_S512_S1x512_1 : (⟨S512, .f32⟩ : BufTy).Contents (Elt F) → (⟨S1x512, .f32⟩ : BufTy).Contents (Elt F)),
    StableHlo.unary main_v22 main_v23 (broadcastInDim S65536x512 ![0, 1] bcast_S1x512_S65536x512_0_1 : (⟨S1x512, .f32⟩ : BufTy).Contents (Elt F) → (⟨S65536x512, .f32⟩ : BufTy).Contents (Elt F)),
    StableHlo.binary main_v21 main_v23 main_v24 (addf : (⟨S65536x512, .f32⟩ : BufTy).Contents (Elt F) → (⟨S65536x512, .f32⟩ : BufTy).Contents (Elt F) → (⟨S65536x512, .f32⟩ : BufTy).Contents (Elt F)),
    StableHlo.unary main_v24 main_v25 (Host.sign : (⟨S65536x512, .f32⟩ : BufTy).Contents (Elt F) → (⟨S65536x512, .f32⟩ : BufTy).Contents (Elt F)),
    StableHlo.binary main_v25 main_v24 main_v26 (subf : (⟨S65536x512, .f32⟩ : BufTy).Contents (Elt F) → (⟨S65536x512, .f32⟩ : BufTy).Contents (Elt F) → (⟨S65536x512, .f32⟩ : BufTy).Contents (Elt F)),
    StableHlo.binary main_v24 main_v26 main_v27 (addf : (⟨S65536x512, .f32⟩ : BufTy).Contents (Elt F) → (⟨S65536x512, .f32⟩ : BufTy).Contents (Elt F) → (⟨S65536x512, .f32⟩ : BufTy).Contents (Elt F)) ]

abbrev opsB1 : List (HloOp τ sig (Elt F)) :=
  [ StableHlo.unary main_arg5 main_v28 (Host.sign : (⟨S512x512, .f32⟩ : BufTy).Contents (Elt F) → (⟨S512x512, .f32⟩ : BufTy).Contents (Elt F)),
    StableHlo.unary main_v28 main_v29 ((transpose S512x512 [1, 0] · transposes_S512x512_S512x512_1_0) : (⟨S512x512, .f32⟩ : BufTy).Contents (Elt F) → (⟨S512x512, .f32⟩ : BufTy).Contents (Elt F)),
    StableHlo.binary main_v27 main_v29 main_v30 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg6 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S65536x512 ![0, 1] bcast_S1x512_S65536x512_0_1 : (⟨S1x512, .f32⟩ : BufTy).Contents (Elt F) → (⟨S65536x512, .f32⟩ : BufTy).Contents (Elt F)),
    StableHlo.binary main_v30 main_v32 main_v33 (addf : (⟨S65536x512, .f32⟩ : BufTy).Contents (Elt F) → (⟨S65536x512, .f32⟩ : BufTy).Contents (Elt F) → (⟨S65536x512, .f32⟩ : BufTy).Contents (Elt F)) ]

abbrev opsB2 : List (HloOp τ sig (Elt F)) :=
  [ StableHlo.nullary main_cst_2 (constant S_ .f32 0x00000000#32),
    StableHlo.binary main_v33 main_cst_2 main_v34 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    StableHlo.nullary main_cst_3 (constant S_ .f32 0x47800000#32),
    StableHlo.unary main_cst_3 main_v35 (broadcastInDim S512 ![] bcast_S_S512 : (⟨S_, .f32⟩ : BufTy).Contents (Elt F) → (⟨S512, .f32⟩ : BufTy).Contents (Elt F)),
    StableHlo.binary main_v34 main_v35 main_v36 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    TRef.nullary main_call1.cst (constant S_ .f32 0x00000000#32),
    TRef.binary (.of main_v33 : TRef sig ⟨S65536x512, .f32⟩) main_call1.cst main_call1.v0 (fun x v => Host.reduceAdd x v reducesTo_S65536x512_S512_d0 h_S_),
    TRef.unary main_call1.v0 main_call1.v1 (broadcastInDim S1x512 ![1] bcast_S512_S1x512_1),
    TRef.nullary main_call1.cst_0 (constant S_ .f32 0x47800000#32),
    TRef.unary main_call1.cst_0 main_call1.v2 (broadcastInDim S1x512 ![] bcast_S_S1x512),
    TRef.binary main_call1.v1 main_call1.v2 main_call1.v3 Host.divf,
    TRef.unary main_call1.v3 main_call1.v4 (broadcastInDim S65536x512 ![0, 1] bcast_S1x512_S65536x512_0_1),
    TRef.binary (.of main_v33 : TRef sig ⟨S65536x512, .f32⟩) main_call1.v4 main_call1.v5 subf,
    TRef.binary main_call1.v5 main_call1.v5 main_call1.v6 mulf,
    TRef.unary (.of main_c_4 : TRef sig ⟨S_, .i32⟩) main_call1.v7 (sitofp .f32),
    TRef.nullary main_call1.cst_1 (constant S_ .f32 0x47800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S65536x512_S512_d0 h_S_),
    TRef.unary main_call1.v8 main_call1.v10 (broadcastInDim S512 ![] bcast_S_S512),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S512 ![] bcast_S_S512),
    TRef.ternary main_call1.v12 main_call1.v11 main_call1.call0.v1 main_call1.call0.v2 (fun p a b => select (broadcastInDim S512 ![] bcast_S_S512 p) a b) ]

abbrev opsB3a : List (HloOp τ sig (Elt F)) :=
  [ StableHlo.unary main_v36 main_v38 (broadcastInDim S1x512 ![1] bcast_S512_S1x512_1 : (⟨S512, .f32⟩ : BufTy).Contents (Elt F) → (⟨S1x512, .f32⟩ : BufTy).Contents (Elt F)),
    StableHlo.unary main_v38 main_v39 (broadcastInDim S65536x512 ![0, 1] bcast_S1x512_S65536x512_0_1 : (⟨S1x512, .f32⟩ : BufTy).Contents (Elt F) → (⟨S65536x512, .f32⟩ : BufTy).Contents (Elt F)),
    StableHlo.binary main_v33 main_v39 main_v40 (subf : (⟨S65536x512, .f32⟩ : BufTy).Contents (Elt F) → (⟨S65536x512, .f32⟩ : BufTy).Contents (Elt F) → (⟨S65536x512, .f32⟩ : BufTy).Contents (Elt F)),
    StableHlo.nullary main_cst_5 (constant S_ .f32 0x3727C5AC#32),
    StableHlo.unary main_cst_5 main_v41 (broadcastInDim S512 ![] bcast_S_S512 : (⟨S_, .f32⟩ : BufTy).Contents (Elt F) → (⟨S512, .f32⟩ : BufTy).Contents (Elt F)),
    StableHlo.binary main_v37 main_v41 main_v42 (addf : (⟨S512, .f32⟩ : BufTy).Contents (Elt F) → (⟨S512, .f32⟩ : BufTy).Contents (Elt F) → (⟨S512, .f32⟩ : BufTy).Contents (Elt F)),
    StableHlo.unary main_v42 main_v43 (Host.rsqrt : (⟨S512, .f32⟩ : BufTy).Contents (Elt F) → (⟨S512, .f32⟩ : BufTy).Contents (Elt F)),
    StableHlo.unary main_v43 main_v44 (broadcastInDim S1x512 ![1] bcast_S512_S1x512_1 : (⟨S512, .f32⟩ : BufTy).Contents (Elt F) → (⟨S1x512, .f32⟩ : BufTy).Contents (Elt F)),
    StableHlo.unary main_v44 main_v45 (broadcastInDim S65536x512 ![0, 1] bcast_S1x512_S65536x512_0_1 : (⟨S1x512, .f32⟩ : BufTy).Contents (Elt F) → (⟨S65536x512, .f32⟩ : BufTy).Contents (Elt F)),
    StableHlo.binary main_v40 main_v45 main_v46 (mulf : (⟨S65536x512, .f32⟩ : BufTy).Contents (Elt F) → (⟨S65536x512, .f32⟩ : BufTy).Contents (Elt F) → (⟨S65536x512, .f32⟩ : BufTy).Contents (Elt F)),
    StableHlo.unary main_arg7 main_v47 (broadcastInDim S1x512 ![1] bcast_S512_S1x512_1 : (⟨S512, .f32⟩ : BufTy).Contents (Elt F) → (⟨S1x512, .f32⟩ : BufTy).Contents (Elt F)),
    StableHlo.unary main_v47 main_v48 (broadcastInDim S65536x512 ![0, 1] bcast_S1x512_S65536x512_0_1 : (⟨S1x512, .f32⟩ : BufTy).Contents (Elt F) → (⟨S65536x512, .f32⟩ : BufTy).Contents (Elt F)),
    StableHlo.binary main_v46 main_v48 main_v49 (mulf : (⟨S65536x512, .f32⟩ : BufTy).Contents (Elt F) → (⟨S65536x512, .f32⟩ : BufTy).Contents (Elt F) → (⟨S65536x512, .f32⟩ : BufTy).Contents (Elt F)),
    StableHlo.unary main_arg8 main_v50 (broadcastInDim S1x512 ![1] bcast_S512_S1x512_1 : (⟨S512, .f32⟩ : BufTy).Contents (Elt F) → (⟨S1x512, .f32⟩ : BufTy).Contents (Elt F)),
    StableHlo.unary main_v50 main_v51 (broadcastInDim S65536x512 ![0, 1] bcast_S1x512_S65536x512_0_1 : (⟨S1x512, .f32⟩ : BufTy).Contents (Elt F) → (⟨S65536x512, .f32⟩ : BufTy).Contents (Elt F)) ]

abbrev opsB3b : List (HloOp τ sig (Elt F)) :=
  [ StableHlo.binary main_v49 main_v51 main_v52 (addf : (⟨S65536x512, .f32⟩ : BufTy).Contents (Elt F) → (⟨S65536x512, .f32⟩ : BufTy).Contents (Elt F) → (⟨S65536x512, .f32⟩ : BufTy).Contents (Elt F)),
    StableHlo.unary main_v52 main_v53 (Host.sign : (⟨S65536x512, .f32⟩ : BufTy).Contents (Elt F) → (⟨S65536x512, .f32⟩ : BufTy).Contents (Elt F)),
    StableHlo.binary main_v53 main_v52 main_v54 (subf : (⟨S65536x512, .f32⟩ : BufTy).Contents (Elt F) → (⟨S65536x512, .f32⟩ : BufTy).Contents (Elt F) → (⟨S65536x512, .f32⟩ : BufTy).Contents (Elt F)),
    StableHlo.binary main_v52 main_v54 main_v55 (addf : (⟨S65536x512, .f32⟩ : BufTy).Contents (Elt F) → (⟨S65536x512, .f32⟩ : BufTy).Contents (Elt F) → (⟨S65536x512, .f32⟩ : BufTy).Contents (Elt F)) ]

abbrev opsC1 : List (HloOp τ sig (Elt F)) :=
  [ StableHlo.unary main_arg9 main_v56 (Host.sign : (⟨S512x512, .f32⟩ : BufTy).Contents (Elt F) → (⟨S512x512, .f32⟩ : BufTy).Contents (Elt F)),
    StableHlo.unary main_v56 main_v57 ((transpose S512x512 [1, 0] · transposes_S512x512_S512x512_1_0) : (⟨S512x512, .f32⟩ : BufTy).Contents (Elt F) → (⟨S512x512, .f32⟩ : BufTy).Contents (Elt F)),
    StableHlo.binary main_v55 main_v57 main_v58 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    StableHlo.unary main_arg10 main_v59 (broadcastInDim S1x512 ![1] bcast_S512_S1x512_1 : (⟨S512, .f32⟩ : BufTy).Contents (Elt F) → (⟨S1x512, .f32⟩ : BufTy).Contents (Elt F)),
    StableHlo.unary main_v59 main_v60 (broadcastInDim S65536x512 ![0, 1] bcast_S1x512_S65536x512_0_1 : (⟨S1x512, .f32⟩ : BufTy).Contents (Elt F) → (⟨S65536x512, .f32⟩ : BufTy).Contents (Elt F)),
    StableHlo.binary main_v58 main_v60 main_v61 (addf : (⟨S65536x512, .f32⟩ : BufTy).Contents (Elt F) → (⟨S65536x512, .f32⟩ : BufTy).Contents (Elt F) → (⟨S65536x512, .f32⟩ : BufTy).Contents (Elt F)) ]

abbrev opsC2 : List (HloOp τ sig (Elt F)) :=
  [ StableHlo.nullary main_cst_6 (constant S_ .f32 0x00000000#32),
    StableHlo.binary main_v61 main_cst_6 main_v62 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    StableHlo.nullary main_cst_7 (constant S_ .f32 0x47800000#32),
    StableHlo.unary main_cst_7 main_v63 (broadcastInDim S512 ![] bcast_S_S512 : (⟨S_, .f32⟩ : BufTy).Contents (Elt F) → (⟨S512, .f32⟩ : BufTy).Contents (Elt F)),
    StableHlo.binary main_v62 main_v63 main_v64 (Host.divf : (⟨S512, .f32⟩ : BufTy).Contents (Elt F) → (⟨S512, .f32⟩ : BufTy).Contents (Elt F) → (⟨S512, .f32⟩ : BufTy).Contents (Elt F)),
    StableHlo.nullary main_c_8 (constantI S_ 32 0#32),
    TRef.nullary main_call2.cst (constant S_ .f32 0x00000000#32),
    TRef.binary (.of main_v61 : TRef sig ⟨S65536x512, .f32⟩) main_call2.cst main_call2.v0 (fun x v => Host.reduceAdd x v reducesTo_S65536x512_S512_d0 h_S_),
    TRef.unary main_call2.v0 main_call2.v1 (broadcastInDim S1x512 ![1] bcast_S512_S1x512_1),
    TRef.nullary main_call2.cst_0 (constant S_ .f32 0x47800000#32),
    TRef.unary main_call2.cst_0 main_call2.v2 (broadcastInDim S1x512 ![] bcast_S_S1x512),
    TRef.binary main_call2.v1 main_call2.v2 main_call2.v3 Host.divf,
    TRef.unary main_call2.v3 main_call2.v4 (broadcastInDim S65536x512 ![0, 1] bcast_S1x512_S65536x512_0_1),
    TRef.binary (.of main_v61 : TRef sig ⟨S65536x512, .f32⟩) main_call2.v4 main_call2.v5 subf,
    TRef.binary main_call2.v5 main_call2.v5 main_call2.v6 mulf,
    TRef.unary (.of main_c_8 : TRef sig ⟨S_, .i32⟩) main_call2.v7 (sitofp .f32),
    TRef.nullary main_call2.cst_1 (constant S_ .f32 0x47800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S65536x512_S512_d0 h_S_),
    TRef.unary main_call2.v8 main_call2.v10 (broadcastInDim S512 ![] bcast_S_S512),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S512 ![] bcast_S_S512),
    TRef.ternary main_call2.v12 main_call2.v11 main_call2.call0.v1 main_call2.call0.v2 (fun p a b => select (broadcastInDim S512 ![] bcast_S_S512 p) a b) ]

abbrev opsC3 : List (HloOp τ sig (Elt F)) :=
  [ StableHlo.unary main_v64 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S65536x512 ![0, 1] bcast_S1x512_S65536x512_0_1 : (⟨S1x512, .f32⟩ : BufTy).Contents (Elt F) → (⟨S65536x512, .f32⟩ : BufTy).Contents (Elt F)),
    StableHlo.binary main_v61 main_v67 main_v68 (subf : (⟨S65536x512, .f32⟩ : BufTy).Contents (Elt F) → (⟨S65536x512, .f32⟩ : BufTy).Contents (Elt F) → (⟨S65536x512, .f32⟩ : BufTy).Contents (Elt F)),
    StableHlo.nullary main_cst_9 (constant S_ .f32 0x3727C5AC#32),
    StableHlo.unary main_cst_9 main_v69 (broadcastInDim S512 ![] bcast_S_S512 : (⟨S_, .f32⟩ : BufTy).Contents (Elt F) → (⟨S512, .f32⟩ : BufTy).Contents (Elt F)),
    StableHlo.binary main_v65 main_v69 main_v70 (addf : (⟨S512, .f32⟩ : BufTy).Contents (Elt F) → (⟨S512, .f32⟩ : BufTy).Contents (Elt F) → (⟨S512, .f32⟩ : BufTy).Contents (Elt F)),
    StableHlo.unary main_v70 main_v71 (Host.rsqrt : (⟨S512, .f32⟩ : BufTy).Contents (Elt F) → (⟨S512, .f32⟩ : BufTy).Contents (Elt F)),
    StableHlo.unary main_v71 main_v72 (broadcastInDim S1x512 ![1] bcast_S512_S1x512_1 : (⟨S512, .f32⟩ : BufTy).Contents (Elt F) → (⟨S1x512, .f32⟩ : BufTy).Contents (Elt F)),
    StableHlo.unary main_v72 main_v73 (broadcastInDim S65536x512 ![0, 1] bcast_S1x512_S65536x512_0_1 : (⟨S1x512, .f32⟩ : BufTy).Contents (Elt F) → (⟨S65536x512, .f32⟩ : BufTy).Contents (Elt F)),
    StableHlo.binary main_v68 main_v73 main_v74 (mulf : (⟨S65536x512, .f32⟩ : BufTy).Contents (Elt F) → (⟨S65536x512, .f32⟩ : BufTy).Contents (Elt F) → (⟨S65536x512, .f32⟩ : BufTy).Contents (Elt F)),
    StableHlo.unary main_arg11 main_v75 (broadcastInDim S1x512 ![1] bcast_S512_S1x512_1 : (⟨S512, .f32⟩ : BufTy).Contents (Elt F) → (⟨S1x512, .f32⟩ : BufTy).Contents (Elt F)),
    StableHlo.unary main_v75 main_v76 (broadcastInDim S65536x512 ![0, 1] bcast_S1x512_S65536x512_0_1 : (⟨S1x512, .f32⟩ : BufTy).Contents (Elt F) → (⟨S65536x512, .f32⟩ : BufTy).Contents (Elt F)),
    StableHlo.binary main_v74 main_v76 main_v77 (mulf : (⟨S65536x512, .f32⟩ : BufTy).Contents (Elt F) → (⟨S65536x512, .f32⟩ : BufTy).Contents (Elt F) → (⟨S65536x512, .f32⟩ : BufTy).Contents (Elt F)),
    StableHlo.unary main_arg12 main_v78 (broadcastInDim S1x512 ![1] bcast_S512_S1x512_1 : (⟨S512, .f32⟩ : BufTy).Contents (Elt F) → (⟨S1x512, .f32⟩ : BufTy).Contents (Elt F)),
    StableHlo.unary main_v78 main_v79 (broadcastInDim S65536x512 ![0, 1] bcast_S1x512_S65536x512_0_1 : (⟨S1x512, .f32⟩ : BufTy).Contents (Elt F) → (⟨S65536x512, .f32⟩ : BufTy).Contents (Elt F)),
    StableHlo.binary main_v77 main_v79 main_v80 (addf : (⟨S65536x512, .f32⟩ : BufTy).Contents (Elt F) → (⟨S65536x512, .f32⟩ : BufTy).Contents (Elt F) → (⟨S65536x512, .f32⟩ : BufTy).Contents (Elt F)),
    StableHlo.unary main_v80 main_v81 (Host.sign : (⟨S65536x512, .f32⟩ : BufTy).Contents (Elt F) → (⟨S65536x512, .f32⟩ : BufTy).Contents (Elt F)),
    StableHlo.binary main_v81 main_v80 main_v82 (subf : (⟨S65536x512, .f32⟩ : BufTy).Contents (Elt F) → (⟨S65536x512, .f32⟩ : BufTy).Contents (Elt F) → (⟨S65536x512, .f32⟩ : BufTy).Contents (Elt F)),
    StableHlo.binary main_v80 main_v82 main_v83 (addf : (⟨S65536x512, .f32⟩ : BufTy).Contents (Elt F) → (⟨S65536x512, .f32⟩ : BufTy).Contents (Elt F) → (⟨S65536x512, .f32⟩ : BufTy).Contents (Elt F)) ]

abbrev opsD1 : List (HloOp τ sig (Elt F)) :=
  [ StableHlo.unary main_arg13 main_v84 ((transpose S512x10 [1, 0] · transposes_S10x512_S512x10_1_0) : (⟨S10x512, .f32⟩ : BufTy).Contents (Elt F) → (⟨S512x10, .f32⟩ : BufTy).Contents (Elt F)),
    StableHlo.binary main_v83 main_v84 main_v85 ((fun l r => Host.dotGeneral dot_S65536x512_S512x10_S65536x10_1_0_0_1_n_n none l r) : (⟨S65536x512, .f32⟩ : BufTy).Contents (Elt F) → (⟨S512x10, .f32⟩ : BufTy).Contents (Elt F) → (⟨S65536x10, .f32⟩ : BufTy).Contents (Elt F)),
    StableHlo.unary main_arg14 main_v86 (broadcastInDim S1x10 ![1] bcast_S10_S1x10_1 : (⟨S10, .f32⟩ : BufTy).Contents (Elt F) → (⟨S1x10, .f32⟩ : BufTy).Contents (Elt F)),
    StableHlo.unary main_v86 main_v87 (broadcastInDim S65536x10 ![0, 1] bcast_S1x10_S65536x10_0_1 : (⟨S1x10, .f32⟩ : BufTy).Contents (Elt F) → (⟨S65536x10, .f32⟩ : BufTy).Contents (Elt F)),
    StableHlo.binary main_v85 main_v87 main_v88 (addf : (⟨S65536x10, .f32⟩ : BufTy).Contents (Elt F) → (⟨S65536x10, .f32⟩ : BufTy).Contents (Elt F) → (⟨S65536x10, .f32⟩ : BufTy).Contents (Elt F)) ]

abbrev opsD2 : List (HloOp τ sig (Elt F)) :=
  [ TRef.nullary main_call3.cst (constant S_ .f32 0xFF800000#32),
    TRef.binary (.of main_v88 : TRef sig ⟨S65536x10, .f32⟩) main_call3.cst main_call3.v0 (fun x v => Host.reduce FloatOps.maximumf x v reducesTo_S65536x10_S65536_d1 h_S_),
    TRef.nullary main_call3.cst_0 (constant S_ .f32 0xFF800000#32),
    TRef.unary main_call3.cst_0 main_call3.v1 (broadcastInDim S65536 ![] bcast_S_S65536),
    TRef.binary main_call3.v1 main_call3.v0 main_call3.v2 maximumf,
    TRef.unary main_call3.v2 main_call3.v3 (broadcastInDim S65536x1 ![0] bcast_S65536_S65536x1_0),
    TRef.unary main_call3.v3 main_call3.v4 (broadcastInDim S65536x10 ![0, 1] bcast_S65536x1_S65536x10_0_1),
    TRef.binary (.of main_v88 : TRef sig ⟨S65536x10, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S65536x10_S65536_d1 h_S_),
    TRef.unary main_call3.v7 main_call3.v8 (broadcastInDim S65536x1 ![0] bcast_S65536_S65536x1_0),
    TRef.unary main_call3.v8 main_call3.v9 Host.log,
    TRef.unary main_call3.v9 main_call3.v10 (broadcastInDim S65536x10 ![0, 1] bcast_S65536x1_S65536x10_0_1),
    TRef.binary main_call3.v5 main_call3.v10 main_call3.v11 subf ]

/-- The first window of the program: its first 102 operations. -/
abbrev ops0 : List (HloOp τ sig (Elt F)) := opsA1 ++ (opsA2 ++ (opsA3 ++ (opsB1 ++ (opsB2 ++ opsB3a))))
/-- The second window: the remaining 77. -/
abbrev ops1 : List (HloOp τ sig (Elt F)) := opsB3b ++ (opsC1 ++ (opsC2 ++ (opsC3 ++ (opsD1 ++ opsD2))))
/-- All 179 operations, in order. -/
abbrev ops : List (HloOp τ sig (Elt F)) := ops0 ++ ops1

set_option maxRecDepth 8192 in
set_option maxHeartbeats 4000000 in
/-- The first window is its operations in order: the calls unfold to their bodies and sequencing reassociates, by computation. -/
theorem main_part0_eq (c : Dev nD) : main_part0 (F := F) c = seq ops0 := rfl

set_option maxRecDepth 8192 in
set_option maxHeartbeats 4000000 in
theorem main_part1_eq (c : Dev nD) : main_part1 (F := F) c = seq ops1 := rfl

/-- The program is the two windows one after the other. -/
theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- The buffers that `opsA1` writes, in order. -/
abbrev A1_W : List (Ref sig .tc) := [main_v0, main_v1, main_v2, main_v3, main_v4, main_v5]

theorem A1_writes : (opsA1 : List (HloOp τ sig (Elt F))).Forall fun op => op.writes ⊆ (A1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsA1` does not write keeps its contents through it. -/
theorem A1_keep (V : Valuation τ sig (Elt F)) (r : Ref sig .tc) (h : r ∉ A1_W) :
    after opsA1 V (no_index (Proc.devRef .tc r)) = V (Proc.devRef .tc r) :=
  after_of_writes_sub opsA1 V A1_writes h

theorem A1_sub : (opsA1 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The buffers that `opsA2` writes, in order. -/
abbrev A2_W : List (Ref sig .tc) := [main_cst, main_v6, main_cst_0, main_v7, main_v8, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

theorem A2_writes : (opsA2 : List (HloOp τ sig (Elt F))).Forall fun op => op.writes ⊆ (A2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsA2` does not write keeps its contents through it. -/
theorem A2_keep (V : Valuation τ sig (Elt F)) (r : Ref sig .tc) (h : r ∉ A2_W) :
    after opsA2 V (no_index (Proc.devRef .tc r)) = V (Proc.devRef .tc r) :=
  after_of_writes_sub opsA2 V A2_writes h

theorem A2_sub : (opsA2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers that `opsA3` writes, in order. -/
abbrev A3_W : List (Ref sig .tc) := [main_v10, main_v11, main_v12, main_cst_1, main_v13, main_v14, main_v15, main_v16, main_v17, main_v18, main_v19, main_v20, main_v21, main_v22, main_v23, main_v24, main_v25, main_v26, main_v27]

theorem A3_writes : (opsA3 : List (HloOp τ sig (Elt F))).Forall fun op => op.writes ⊆ (A3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsA3` does not write keeps its contents through it. -/
theorem A3_keep (V : Valuation τ sig (Elt F)) (r : Ref sig .tc) (h : r ∉ A3_W) :
    after opsA3 V (no_index (Proc.devRef .tc r)) = V (Proc.devRef .tc r) :=
  after_of_writes_sub opsA3 V A3_writes h

theorem A3_sub : (opsA3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- The buffers that `opsB1` writes, in order. -/
abbrev B1_W : List (Ref sig .tc) := [main_v28, main_v29, main_v30, main_v31, main_v32, main_v33]

theorem B1_writes : (opsB1 : List (HloOp τ sig (Elt F))).Forall fun op => op.writes ⊆ (B1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsB1` does not write keeps its contents through it. -/
theorem B1_keep (V : Valuation τ sig (Elt F)) (r : Ref sig .tc) (h : r ∉ B1_W) :
    after opsB1 V (no_index (Proc.devRef .tc r)) = V (Proc.devRef .tc r) :=
  after_of_writes_sub opsB1 V B1_writes h

theorem B1_sub : (opsB1 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The buffers that `opsB2` writes, in order. -/
abbrev B2_W : List (Ref sig .tc) := [main_cst_2, main_v34, main_cst_3, main_v35, main_v36, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]

theorem B2_writes : (opsB2 : List (HloOp τ sig (Elt F))).Forall fun op => op.writes ⊆ (B2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsB2` does not write keeps its contents through it. -/
theorem B2_keep (V : Valuation τ sig (Elt F)) (r : Ref sig .tc) (h : r ∉ B2_W) :
    after opsB2 V (no_index (Proc.devRef .tc r)) = V (Proc.devRef .tc r) :=
  after_of_writes_sub opsB2 V B2_writes h

theorem B2_sub : (opsB2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers that `opsB3a` writes, in order. -/
abbrev B3a_W : List (Ref sig .tc) := [main_v38, main_v39, main_v40, main_cst_5, main_v41, main_v42, main_v43, main_v44, main_v45, main_v46, main_v47, main_v48, main_v49, main_v50, main_v51]

theorem B3a_writes : (opsB3a : List (HloOp τ sig (Elt F))).Forall fun op => op.writes ⊆ (B3a_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsB3a` does not write keeps its contents through it. -/
theorem B3a_keep (V : Valuation τ sig (Elt F)) (r : Ref sig .tc) (h : r ∉ B3a_W) :
    after opsB3a V (no_index (Proc.devRef .tc r)) = V (Proc.devRef .tc r) :=
  after_of_writes_sub opsB3a V B3a_writes h

theorem B3a_sub : (opsB3a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

/-- The buffers that `opsB3b` writes, in order. -/
abbrev B3b_W : List (Ref sig .tc) := [main_v52, main_v53, main_v54, main_v55]

theorem B3b_writes : (opsB3b : List (HloOp τ sig (Elt F))).Forall fun op => op.writes ⊆ (B3b_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsB3b` does not write keeps its contents through it. -/
theorem B3b_keep (V : Valuation τ sig (Elt F)) (r : Ref sig .tc) (h : r ∉ B3b_W) :
    after opsB3b V (no_index (Proc.devRef .tc r)) = V (Proc.devRef .tc r) :=
  after_of_writes_sub opsB3b V B3b_writes h

theorem B3b_sub : (opsB3b : List (HloOp τ sig (Elt F))).Forall fun op => op.bufs ⊆ tcRefs τ sig :=
  ⟨binary_bufs_sub .., unary_bufs_sub .., binary_bufs_sub .., binary_bufs_sub ..⟩

/-- The buffers that `opsC1` writes, in order. -/
abbrev C1_W : List (Ref sig .tc) := [main_v56, main_v57, main_v58, main_v59, main_v60, main_v61]

theorem C1_writes : (opsC1 : List (HloOp τ sig (Elt F))).Forall fun op => op.writes ⊆ (C1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsC1` does not write keeps its contents through it. -/
theorem C1_keep (V : Valuation τ sig (Elt F)) (r : Ref sig .tc) (h : r ∉ C1_W) :
    after opsC1 V (no_index (Proc.devRef .tc r)) = V (Proc.devRef .tc r) :=
  after_of_writes_sub opsC1 V C1_writes h

theorem C1_sub : (opsC1 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The buffers that `opsC2` writes, in order. -/
abbrev C2_W : List (Ref sig .tc) := [main_cst_6, main_v62, main_cst_7, main_v63, main_v64, main_c_8, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]

theorem C2_writes : (opsC2 : List (HloOp τ sig (Elt F))).Forall fun op => op.writes ⊆ (C2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsC2` does not write keeps its contents through it. -/
theorem C2_keep (V : Valuation τ sig (Elt F)) (r : Ref sig .tc) (h : r ∉ C2_W) :
    after opsC2 V (no_index (Proc.devRef .tc r)) = V (Proc.devRef .tc r) :=
  after_of_writes_sub opsC2 V C2_writes h

theorem C2_sub : (opsC2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers that `opsC3` writes, in order. -/
abbrev C3_W : List (Ref sig .tc) := [main_v66, main_v67, main_v68, main_cst_9, main_v69, main_v70, main_v71, main_v72, main_v73, main_v74, main_v75, main_v76, main_v77, main_v78, main_v79, main_v80, main_v81, main_v82, main_v83]

theorem C3_writes : (opsC3 : List (HloOp τ sig (Elt F))).Forall fun op => op.writes ⊆ (C3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsC3` does not write keeps its contents through it. -/
theorem C3_keep (V : Valuation τ sig (Elt F)) (r : Ref sig .tc) (h : r ∉ C3_W) :
    after opsC3 V (no_index (Proc.devRef .tc r)) = V (Proc.devRef .tc r) :=
  after_of_writes_sub opsC3 V C3_writes h

theorem C3_sub : (opsC3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- The buffers that `opsD1` writes, in order. -/
abbrev D1_W : List (Ref sig .tc) := [main_v84, main_v85, main_v86, main_v87, main_v88]

theorem D1_writes : (opsD1 : List (HloOp τ sig (Elt F))).Forall fun op => op.writes ⊆ (D1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsD1` does not write keeps its contents through it. -/
theorem D1_keep (V : Valuation τ sig (Elt F)) (r : Ref sig .tc) (h : r ∉ D1_W) :
    after opsD1 V (no_index (Proc.devRef .tc r)) = V (Proc.devRef .tc r) :=
  after_of_writes_sub opsD1 V D1_writes h

theorem D1_sub : (opsD1 : List (HloOp τ sig (Elt F))).Forall fun op => op.bufs ⊆ tcRefs τ sig :=
  ⟨unary_bufs_sub .., binary_bufs_sub .., unary_bufs_sub .., unary_bufs_sub .., binary_bufs_sub ..⟩

/-- The buffers that `opsD2` writes, in order. -/
abbrev D2_W : List (Ref sig .tc) := [main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref]

theorem D2_writes : (opsD2 : List (HloOp τ sig (Elt F))).Forall fun op => op.writes ⊆ (D2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that `opsD2` does not write keeps its contents through it. -/
theorem D2_keep (V : Valuation τ sig (Elt F)) (r : Ref sig .tc) (h : r ∉ D2_W) :
    after opsD2 V (no_index (Proc.devRef .tc r)) = V (Proc.devRef .tc r) :=
  after_of_writes_sub opsD2 V D2_writes h

theorem D2_sub : (opsD2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h) | (h | h | h | h | h | h)
    exacts [List.forall_iff_forall_mem.mp A1_sub op h, List.forall_iff_forall_mem.mp A2_sub op h, List.forall_iff_forall_mem.mp A3_sub op h, List.forall_iff_forall_mem.mp B1_sub op h, List.forall_iff_forall_mem.mp B2_sub op h, List.forall_iff_forall_mem.mp B3a_sub op h, List.forall_iff_forall_mem.mp B3b_sub op h, List.forall_iff_forall_mem.mp C1_sub op h, List.forall_iff_forall_mem.mp C2_sub op h, List.forall_iff_forall_mem.mp C3_sub op h, List.forall_iff_forall_mem.mp D1_sub op h, List.forall_iff_forall_mem.mp D2_sub op h]

end Cert.ReferenceIdeal.RefValue

end
-- ==== Proof.RefTerm.lean ====
/-
  The reference network as a pure term of its fifteen parameter arrays, built layer by layer.

  A hidden layer is a product of the activations with the transposed signs of the weights plus a bias, then a batch
  normalisation over the 65536 rows (the column mean; the column variance as the mean of the squared deviations
  from that mean, guarded by the test that the divisor is positive), then the sign taken as the identity plus the
  difference between the sign and the identity. The head is a product with the transposed weights plus a bias, then
  the row-wise shifted log-softmax. Every definition below is one such stage, stated with exactly the array
  operations the program applies, in its order.
-/
import proofs.«107829_j6700148982619_2_alg».proof.Proof.Gen.ReferenceIdeal

noncomputable section

namespace Cert.ReferenceIdeal.RefValue

open Cert.ReferenceIdeal Cert.ReferenceIdeal.Gen Idealize.ShloMosaic

variable {F : FTy → Type} [FloatOps F]

/-- A vector of 512 column values laid as a row and repeated down the 65536 rows. -/
def rowsOf (v : FVec F S512 .f32) : FVec F S65536x512 .f32 :=
  broadcastInDim S65536x512 ![0, 1] bcast_S1x512_S65536x512_0_1 (broadcastInDim S1x512 ![1] bcast_S512_S1x512_1 v)

/-- The first linear layer: `x · sign(W)ᵀ + b` on a 784-wide input. -/
def lin1 (x : FVec F S65536x784 .f32) (w : FVec F S512x784 .f32) (b : FVec F S512 .f32) : FVec F S65536x512 .f32 :=
  addf (Host.dotGeneral dot_S65536x784_S784x512_S65536x512_1_0_0_1_n_n none x
      (transpose S784x512 [1, 0] (Host.sign w) transposes_S512x784_S784x512_1_0))
    (rowsOf b)

/-- A later linear layer: `a · sign(W)ᵀ + b` on a 512-wide input. -/
def lin2 (a : FVec F S65536x512 .f32) (w : FVec F S512x512 .f32) (b : FVec F S512 .f32) : FVec F S65536x512 .f32 :=
  addf (Host.dotGeneral dot_S65536x512_S512x512_S65536x512_1_0_0_1_n_n none a
      (transpose S512x512 [1, 0] (Host.sign w) transposes_S512x512_S512x512_1_0))
    (rowsOf b)

/-- The head's linear layer: `a · Wᵀ + b`, the weights as they are. -/
def lin4 (a : FVec F S65536x512 .f32) (w : FVec F S10x512 .f32) (b : FVec F S10 .f32) : FVec F S65536x10 .f32 :=
  addf (Host.dotGeneral dot_S65536x512_S512x10_S65536x10_1_0_0_1_n_n none a
      (transpose S512x10 [1, 0] w transposes_S10x512_S512x10_1_0))
    (broadcastInDim S65536x10 ![0, 1] bcast_S1x10_S65536x10_0_1 (broadcastInDim S1x10 ![1] bcast_S10_S1x10_1 b))

/-- The column sums over the 65536 rows, from zero. -/
def colSums (h : FVec F S65536x512 .f32) : FVec F S512 .f32 :=
  Host.reduceAdd h (constant S_ .f32 0x00000000#32) reducesTo_S65536x512_S512_d0 h_S_

/-- The column means: the column sums divided by 65536. -/
def meanOf (h : FVec F S65536x512 .f32) : FVec F S512 .f32 :=
  Host.divf (colSums h) (broadcastInDim S512 ![] bcast_S_S512 (constant S_ .f32 0x47800000#32))

/-- The deviations from the column means, the means recomputed as a row before they are repeated down the rows. -/
def devOf (h : FVec F S65536x512 .f32) : FVec F S65536x512 .f32 :=
  subf h (broadcastInDim S65536x512 ![0, 1] bcast_S1x512_S65536x512_0_1
    (Host.divf (broadcastInDim S1x512 ![1] bcast_S512_S1x512_1 (colSums h))
      (broadcastInDim S1x512 ![] bcast_S_S1x512 (constant S_ .f32 0x47800000#32))))

/-- The variance's divisor: 65536 less the degrees of freedom given up, an integer zero converted. -/
def cntOf : FVec F S_ .f32 :=
  subf (constant S_ .f32 0x47800000#32) (sitofp .f32 (constantI S_ 32 0#32))

/-- The column variances: the sums of the squared deviations over the divisor where the divisor is positive,
    the not-a-number literal otherwise. -/
def varOf (h : FVec F S65536x512 .f32) : FVec F S512 .f32 :=
  select (broadcastInDim S512 ![] bcast_S_S512 (cmpf .ogt (cntOf (F := F)) (constant S_ .f32 0x00000000#32)))
    (Host.divf (colSums (mulf (devOf h) (devOf h))) (broadcastInDim S512 ![] bcast_S_S512 (cntOf (F := F))))
    (broadcastInDim S512 ![] bcast_S_S512 (id (constant S_ .f32 0x7FC00000#32)))

/-- The batch normalisation `(h - μ) · (σ² + ε)^(-1/2) · g + be`, the column vectors repeated down the rows. -/
def normedOf (h : FVec F S65536x512 .f32) (mu var g be : FVec F S512 .f32) : FVec F S65536x512 .f32 :=
  addf (mulf (mulf (subf h (rowsOf mu))
      (rowsOf (Host.rsqrt (addf var (broadcastInDim S512 ![] bcast_S_S512 (constant S_ .f32 0x3727C5AC#32))))))
      (rowsOf g))
    (rowsOf be)

/-- The sign as the identity plus the difference between the sign and the identity. -/
def actOf (v : FVec F S65536x512 .f32) : FVec F S65536x512 .f32 :=
  addf v (subf (Host.sign v) v)

/-- One hidden layer's activation from its pre-activation. -/
def hiddenOf (h : FVec F S65536x512 .f32) (g be : FVec F S512 .f32) : FVec F S65536x512 .f32 :=
  actOf (normedOf h (meanOf h) (varOf h) g be)

/-- The row maxima of the logits: the fold of the maximum from `-∞` along each row, then once more against `-∞`. -/
def rowMaxOf (l : FVec F S65536x10 .f32) : FVec F S65536 .f32 :=
  maximumf (broadcastInDim S65536 ![] bcast_S_S65536 (constant S_ .f32 0xFF800000#32))
    (Host.reduce FloatOps.maximumf l (constant S_ .f32 0xFF800000#32) reducesTo_S65536x10_S65536_d1 h_S_)

/-- The logits less their row maximum. -/
def shiftedOf (l : FVec F S65536x10 .f32) : FVec F S65536x10 .f32 :=
  subf l (broadcastInDim S65536x10 ![0, 1] bcast_S65536x1_S65536x10_0_1
    (broadcastInDim S65536x1 ![0] bcast_S65536_S65536x1_0 (rowMaxOf l)))

/-- The log-softmax of each row: the shifted logits less the logarithm of the row sum of their exponentials. -/
def logSoftmaxOf (l : FVec F S65536x10 .f32) : FVec F S65536x10 .f32 :=
  subf (shiftedOf l) (broadcastInDim S65536x10 ![0, 1] bcast_S65536x1_S65536x10_0_1
    (Host.log (broadcastInDim S65536x1 ![0] bcast_S65536_S65536x1_0
      (Host.reduceAdd (Host.exp (shiftedOf l)) (constant S_ .f32 0x00000000#32) reducesTo_S65536x10_S65536_d1 h_S_))))

/-- The reference's result as a term of its fifteen argument arrays. -/
def refOut (a0 : FVec F S65536x784 .f32) (a1 : FVec F S512x784 .f32) (a2 a3 a4 : FVec F S512 .f32)
    (a5 : FVec F S512x512 .f32) (a6 a7 a8 : FVec F S512 .f32)
    (a9 : FVec F S512x512 .f32) (a10 a11 a12 : FVec F S512 .f32)
    (a13 : FVec F S10x512 .f32) (a14 : FVec F S10 .f32) : FVec F S65536x10 .f32 :=
  logSoftmaxOf (lin4 (hiddenOf (lin2 (hiddenOf (lin2 (hiddenOf (lin1 a0 a1 a2) a3 a4) a5 a6) a7 a8) a9 a10) a11 a12) a13 a14)

end Cert.ReferenceIdeal.RefValue

end
-- ==== Proof.RefRun.lean ====
/-
  The run of the reference program: from any memory with zero counters every weakly fair execution terminates with the
  result buffer at the network term `refOut` of the fifteen argument arrays' launch contents, and the arguments
  unchanged.

  The 179 operations run as twelve stretches (the operations' lists and that the program is their concatenation are in
  the imported module). What a stretch leaves in the buffers later stretches read is one stage of the network applied to
  what the stretch found in the buffers it reads — each a computation over the stretch's operations from arbitrary
  contents, so no stretch's statement mentions another's —; every other buffer it leaves alone. Reading the result buffer
  after the last stretch and following each operand back through the stretches gives the stages composed, which is
  `refOut`; an argument buffer is written by no stretch.
-/
import proofs.«107829_j6700148982619_2_alg».proof.Proof.RefOps
import proofs.«107829_j6700148982619_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other leave what the second leaves from what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers' contents after stretch `opsA1`, from contents `V`. -/
def stA1 (V : Valuation τ sig (Elt F)) : Valuation τ sig (Elt F) := after opsA1 V
theorem stA1_keep (V : Valuation τ sig (Elt F)) (r : Ref sig .tc) (h : r ∉ A1_W) :
    stA1 V (no_index (Proc.devRef .tc r)) = V (Proc.devRef .tc r) := A1_keep V r h

/-- The buffers' contents after stretch `opsA2`, from contents `V`. -/
def stA2 (V : Valuation τ sig (Elt F)) : Valuation τ sig (Elt F) := after opsA2 V
theorem stA2_keep (V : Valuation τ sig (Elt F)) (r : Ref sig .tc) (h : r ∉ A2_W) :
    stA2 V (no_index (Proc.devRef .tc r)) = V (Proc.devRef .tc r) := A2_keep V r h

/-- The buffers' contents after stretch `opsA3`, from contents `V`. -/
def stA3 (V : Valuation τ sig (Elt F)) : Valuation τ sig (Elt F) := after opsA3 V
theorem stA3_keep (V : Valuation τ sig (Elt F)) (r : Ref sig .tc) (h : r ∉ A3_W) :
    stA3 V (no_index (Proc.devRef .tc r)) = V (Proc.devRef .tc r) := A3_keep V r h

/-- The buffers' contents after stretch `opsB1`, from contents `V`. -/
def stB1 (V : Valuation τ sig (Elt F)) : Valuation τ sig (Elt F) := after opsB1 V
theorem stB1_keep (V : Valuation τ sig (Elt F)) (r : Ref sig .tc) (h : r ∉ B1_W) :
    stB1 V (no_index (Proc.devRef .tc r)) = V (Proc.devRef .tc r) := B1_keep V r h

/-- The buffers' contents after stretch `opsB2`, from contents `V`. -/
def stB2 (V : Valuation τ sig (Elt F)) : Valuation τ sig (Elt F) := after opsB2 V
theorem stB2_keep (V : Valuation τ sig (Elt F)) (r : Ref sig .tc) (h : r ∉ B2_W) :
    stB2 V (no_index (Proc.devRef .tc r)) = V (Proc.devRef .tc r) := B2_keep V r h

/-- The buffers' contents after stretch `opsB3a`, from contents `V`. -/
def stB3a (V : Valuation τ sig (Elt F)) : Valuation τ sig (Elt F) := after opsB3a V
theorem stB3a_keep (V : Valuation τ sig (Elt F)) (r : Ref sig .tc) (h : r ∉ B3a_W) :
    stB3a V (no_index (Proc.devRef .tc r)) = V (Proc.devRef .tc r) := B3a_keep V r h

/-- The buffers' contents after stretch `opsB3b`, from contents `V`. -/
def stB3b (V : Valuation τ sig (Elt F)) : Valuation τ sig (Elt F) := after opsB3b V
theorem stB3b_keep (V : Valuation τ sig (Elt F)) (r : Ref sig .tc) (h : r ∉ B3b_W) :
    stB3b V (no_index (Proc.devRef .tc r)) = V (Proc.devRef .tc r) := B3b_keep V r h

/-- The buffers' contents after stretch `opsC1`, from contents `V`. -/
def stC1 (V : Valuation τ sig (Elt F)) : Valuation τ sig (Elt F) := after opsC1 V
theorem stC1_keep (V : Valuation τ sig (Elt F)) (r : Ref sig .tc) (h : r ∉ C1_W) :
    stC1 V (no_index (Proc.devRef .tc r)) = V (Proc.devRef .tc r) := C1_keep V r h

/-- The buffers' contents after stretch `opsC2`, from contents `V`. -/
def stC2 (V : Valuation τ sig (Elt F)) : Valuation τ sig (Elt F) := after opsC2 V
theorem stC2_keep (V : Valuation τ sig (Elt F)) (r : Ref sig .tc) (h : r ∉ C2_W) :
    stC2 V (no_index (Proc.devRef .tc r)) = V (Proc.devRef .tc r) := C2_keep V r h

/-- The buffers' contents after stretch `opsC3`, from contents `V`. -/
def stC3 (V : Valuation τ sig (Elt F)) : Valuation τ sig (Elt F) := after opsC3 V
theorem stC3_keep (V : Valuation τ sig (Elt F)) (r : Ref sig .tc) (h : r ∉ C3_W) :
    stC3 V (no_index (Proc.devRef .tc r)) = V (Proc.devRef .tc r) := C3_keep V r h

/-- The buffers' contents after stretch `opsD1`, from contents `V`. -/
def stD1 (V : Valuation τ sig (Elt F)) : Valuation τ sig (Elt F) := after opsD1 V
theorem stD1_keep (V : Valuation τ sig (Elt F)) (r : Ref sig .tc) (h : r ∉ D1_W) :
    stD1 V (no_index (Proc.devRef .tc r)) = V (Proc.devRef .tc r) := D1_keep V r h

/-- The buffers' contents after stretch `opsD2`, from contents `V`. -/
def stD2 (V : Valuation τ sig (Elt F)) : Valuation τ sig (Elt F) := after opsD2 V
theorem stD2_keep (V : Valuation τ sig (Elt F)) (r : Ref sig .tc) (h : r ∉ D2_W) :
    stD2 V (no_index (Proc.devRef .tc r)) = V (Proc.devRef .tc r) := D2_keep V r h

set_option maxHeartbeats 2000000 in
theorem stA1_main_v5 (V : Valuation τ sig (Elt F)) :
    stA1 V (no_index (Proc.devRef .tc main_v5)) = lin1 (V (Proc.devRef .tc main_arg0)) (V (Proc.devRef .tc main_arg1)) (V (Proc.devRef .tc main_arg2)) := by
  unfold stA1
  simp only [opsA1]
  after_results_simp
  try simp only [TRef.ofBuf, TRef.toBuf, cast_cast, cast_eq]
  rfl

set_option maxHeartbeats 2000000 in
theorem stA2_main_v8 (V : Valuation τ sig (Elt F)) :
    stA2 V (no_index (Proc.devRef .tc main_v8)) = meanOf (V (Proc.devRef .tc main_v5)) := by
  unfold stA2
  simp only [opsA2]
  after_results_simp
  try simp only [TRef.ofBuf, TRef.toBuf, cast_cast, cast_eq]
  rfl

set_option maxHeartbeats 2000000 in
theorem stA2_main_v9 (V : Valuation τ sig (Elt F)) :
    stA2 V (no_index (Proc.devRef .tc main_v9)) = varOf (V (Proc.devRef .tc main_v5)) := by
  unfold stA2
  simp only [opsA2]
  after_results_simp
  try simp only [TRef.ofBuf, TRef.toBuf, cast_cast, cast_eq]
  rfl

set_option maxHeartbeats 2000000 in
theorem stA3_main_v27 (V : Valuation τ sig (Elt F)) :
    stA3 V (no_index (Proc.devRef .tc main_v27)) = actOf (normedOf (V (Proc.devRef .tc main_v5)) (V (Proc.devRef .tc main_v8)) (V (Proc.devRef .tc main_v9)) (V (Proc.devRef .tc main_arg3)) (V (Proc.devRef .tc main_arg4))) := by
  unfold stA3
  simp only [opsA3]
  after_results_simp
  try simp only [TRef.ofBuf, TRef.toBuf, cast_cast, cast_eq]
  rfl

set_option maxHeartbeats 2000000 in
theorem stB1_main_v33 (V : Valuation τ sig (Elt F)) :
    stB1 V (no_index (Proc.devRef .tc main_v33)) = lin2 (V (Proc.devRef .tc main_v27)) (V (Proc.devRef .tc main_arg5)) (V (Proc.devRef .tc main_arg6)) := by
  unfold stB1
  simp only [opsB1]
  after_results_simp
  try simp only [TRef.ofBuf, TRef.toBuf, cast_cast, cast_eq]
  rfl

set_option maxHeartbeats 2000000 in
theorem stB2_main_v36 (V : Valuation τ sig (Elt F)) :
    stB2 V (no_index (Proc.devRef .tc main_v36)) = meanOf (V (Proc.devRef .tc main_v33)) := by
  unfold stB2
  simp only [opsB2]
  after_results_simp
  try simp only [TRef.ofBuf, TRef.toBuf, cast_cast, cast_eq]
  rfl

set_option maxHeartbeats 2000000 in
theorem stB2_main_v37 (V : Valuation τ sig (Elt F)) :
    stB2 V (no_index (Proc.devRef .tc main_v37)) = varOf (V (Proc.devRef .tc main_v33)) := by
  unfold stB2
  simp only [opsB2]
  after_results_simp
  try simp only [TRef.ofBuf, TRef.toBuf, cast_cast, cast_eq]
  rfl

set_option maxHeartbeats 2000000 in
theorem stB3a_main_v49 (V : Valuation τ sig (Elt F)) :
    stB3a V (no_index (Proc.devRef .tc main_v49)) = mulf (mulf (subf (V (Proc.devRef .tc main_v33)) (rowsOf (V (Proc.devRef .tc main_v36)))) (rowsOf (Host.rsqrt (addf (V (Proc.devRef .tc main_v37)) (broadcastInDim S512 ![] bcast_S_S512 (constant S_ .f32 0x3727C5AC#32)))))) (rowsOf (V (Proc.devRef .tc main_arg7))) := by
  unfold stB3a
  simp only [opsB3a]
  after_results_simp
  try simp only [TRef.ofBuf, TRef.toBuf, cast_cast, cast_eq]
  rfl

set_option maxHeartbeats 2000000 in
theorem stB3a_main_v51 (V : Valuation τ sig (Elt F)) :
    stB3a V (no_index (Proc.devRef .tc main_v51)) = rowsOf (V (Proc.devRef .tc main_arg8)) := by
  unfold stB3a
  simp only [opsB3a]
  after_results_simp
  try simp only [TRef.ofBuf, TRef.toBuf, cast_cast, cast_eq]
  rfl

set_option maxHeartbeats 2000000 in
theorem stB3b_main_v55 (V : Valuation τ sig (Elt F)) :
    stB3b V (no_index (Proc.devRef .tc main_v55)) = actOf (addf (V (Proc.devRef .tc main_v49)) (V (Proc.devRef .tc main_v51))) := by
  unfold stB3b
  simp only [opsB3b]
  after_results_simp
  try simp only [TRef.ofBuf, TRef.toBuf, cast_cast, cast_eq]
  rfl

set_option maxHeartbeats 2000000 in
theorem stC1_main_v61 (V : Valuation τ sig (Elt F)) :
    stC1 V (no_index (Proc.devRef .tc main_v61)) = lin2 (V (Proc.devRef .tc main_v55)) (V (Proc.devRef .tc main_arg9)) (V (Proc.devRef .tc main_arg10)) := by
  unfold stC1
  simp only [opsC1]
  after_results_simp
  try simp only [TRef.ofBuf, TRef.toBuf, cast_cast, cast_eq]
  rfl

set_option maxHeartbeats 2000000 in
theorem stC2_main_v64 (V : Valuation τ sig (Elt F)) :
    stC2 V (no_index (Proc.devRef .tc main_v64)) = meanOf (V (Proc.devRef .tc main_v61)) := by
  unfold stC2
  simp only [opsC2]
  after_results_simp
  try simp only [TRef.ofBuf, TRef.toBuf, cast_cast, cast_eq]
  rfl

set_option maxHeartbeats 2000000 in
theorem stC2_main_v65 (V : Valuation τ sig (Elt F)) :
    stC2 V (no_index (Proc.devRef .tc main_v65)) = varOf (V (Proc.devRef .tc main_v61)) := by
  unfold stC2
  simp only [opsC2]
  after_results_simp
  try simp only [TRef.ofBuf, TRef.toBuf, cast_cast, cast_eq]
  rfl

set_option maxHeartbeats 2000000 in
theorem stC3_main_v83 (V : Valuation τ sig (Elt F)) :
    stC3 V (no_index (Proc.devRef .tc main_v83)) = actOf (normedOf (V (Proc.devRef .tc main_v61)) (V (Proc.devRef .tc main_v64)) (V (Proc.devRef .tc main_v65)) (V (Proc.devRef .tc main_arg11)) (V (Proc.devRef .tc main_arg12))) := by
  unfold stC3
  simp only [opsC3]
  after_results_simp
  try simp only [TRef.ofBuf, TRef.toBuf, cast_cast, cast_eq]
  rfl

set_option maxHeartbeats 2000000 in
theorem stD1_main_v88 (V : Valuation τ sig (Elt F)) :
    stD1 V (no_index (Proc.devRef .tc main_v88)) = lin4 (V (Proc.devRef .tc main_v83)) (V (Proc.devRef .tc main_arg13)) (V (Proc.devRef .tc main_arg14)) := by
  unfold stD1
  simp only [opsD1]
  after_results_simp
  try simp only [TRef.ofBuf, TRef.toBuf, cast_cast, cast_eq]
  rfl

set_option maxHeartbeats 2000000 in
theorem stD2_main_v89 (V : Valuation τ sig (Elt F)) :
    stD2 V (no_index (Proc.devRef .tc main_v89)) = logSoftmaxOf (V (Proc.devRef .tc main_v88)) := by
  unfold stD2
  simp only [opsD2]
  after_results_simp
  try simp only [TRef.ofBuf, TRef.toBuf, cast_cast, cast_eq]
  rfl

/-- The whole line is the twelve stretches in order. -/
theorem after_ops (V : Valuation τ sig (Elt F)) : after ops V = stD2 (stD1 (stC3 (stC2 (stC1 (stB3b (stB3a (stB2 (stB1 (stA3 (stA2 (stA1 (V)))))))))))) := by
  simp only [ops, ops0, ops1, after_app]
  rfl

set_option maxHeartbeats 2000000 in
/-- The result buffer after the whole line: the stages composed. -/
theorem ops_main_v89 (V : Valuation τ sig (Elt F)) :
    after ops V (Proc.devRef .tc main_v89) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops]
  simp (disch := decide) only [stA1_main_v5, stA2_main_v8, stA2_main_v9, stA3_main_v27, stB1_main_v33, stB2_main_v36, stB2_main_v37, stB3a_main_v49, stB3a_main_v51, stB3b_main_v55, stC1_main_v61, stC2_main_v64, stC2_main_v65, stC3_main_v83, stD1_main_v88, stD2_main_v89,
    stA1_keep, stA2_keep, stA3_keep, stB1_keep, stB2_keep, stB3a_keep, stB3b_keep, stC1_keep, stC2_keep, stC3_keep, stD1_keep, stD2_keep]
  rfl

theorem ops_main_arg0 (V : Valuation τ sig (Elt F)) : after ops V (Proc.devRef .tc main_arg0) = V (Proc.devRef .tc main_arg0) := by
  rw [after_ops]
  simp (disch := decide) only [stA1_keep, stA2_keep, stA3_keep, stB1_keep, stB2_keep, stB3a_keep, stB3b_keep, stC1_keep, stC2_keep, stC3_keep, stD1_keep, stD2_keep]

theorem ops_main_arg1 (V : Valuation τ sig (Elt F)) : after ops V (Proc.devRef .tc main_arg1) = V (Proc.devRef .tc main_arg1) := by
  rw [after_ops]
  simp (disch := decide) only [stA1_keep, stA2_keep, stA3_keep, stB1_keep, stB2_keep, stB3a_keep, stB3b_keep, stC1_keep, stC2_keep, stC3_keep, stD1_keep, stD2_keep]

theorem ops_main_arg2 (V : Valuation τ sig (Elt F)) : after ops V (Proc.devRef .tc main_arg2) = V (Proc.devRef .tc main_arg2) := by
  rw [after_ops]
  simp (disch := decide) only [stA1_keep, stA2_keep, stA3_keep, stB1_keep, stB2_keep, stB3a_keep, stB3b_keep, stC1_keep, stC2_keep, stC3_keep, stD1_keep, stD2_keep]

theorem ops_main_arg3 (V : Valuation τ sig (Elt F)) : after ops V (Proc.devRef .tc main_arg3) = V (Proc.devRef .tc main_arg3) := by
  rw [after_ops]
  simp (disch := decide) only [stA1_keep, stA2_keep, stA3_keep, stB1_keep, stB2_keep, stB3a_keep, stB3b_keep, stC1_keep, stC2_keep, stC3_keep, stD1_keep, stD2_keep]

theorem ops_main_arg4 (V : Valuation τ sig (Elt F)) : after ops V (Proc.devRef .tc main_arg4) = V (Proc.devRef .tc main_arg4) := by
  rw [after_ops]
  simp (disch := decide) only [stA1_keep, stA2_keep, stA3_keep, stB1_keep, stB2_keep, stB3a_keep, stB3b_keep, stC1_keep, stC2_keep, stC3_keep, stD1_keep, stD2_keep]

theorem ops_main_arg5 (V : Valuation τ sig (Elt F)) : after ops V (Proc.devRef .tc main_arg5) = V (Proc.devRef .tc main_arg5) := by
  rw [after_ops]
  simp (disch := decide) only [stA1_keep, stA2_keep, stA3_keep, stB1_keep, stB2_keep, stB3a_keep, stB3b_keep, stC1_keep, stC2_keep, stC3_keep, stD1_keep, stD2_keep]

theorem ops_main_arg6 (V : Valuation τ sig (Elt F)) : after ops V (Proc.devRef .tc main_arg6) = V (Proc.devRef .tc main_arg6) := by
  rw [after_ops]
  simp (disch := decide) only [stA1_keep, stA2_keep, stA3_keep, stB1_keep, stB2_keep, stB3a_keep, stB3b_keep, stC1_keep, stC2_keep, stC3_keep, stD1_keep, stD2_keep]

theorem ops_main_arg7 (V : Valuation τ sig (Elt F)) : after ops V (Proc.devRef .tc main_arg7) = V (Proc.devRef .tc main_arg7) := by
  rw [after_ops]
  simp (disch := decide) only [stA1_keep, stA2_keep, stA3_keep, stB1_keep, stB2_keep, stB3a_keep, stB3b_keep, stC1_keep, stC2_keep, stC3_keep, stD1_keep, stD2_keep]

theorem ops_main_arg8 (V : Valuation τ sig (Elt F)) : after ops V (Proc.devRef .tc main_arg8) = V (Proc.devRef .tc main_arg8) := by
  rw [after_ops]
  simp (disch := decide) only [stA1_keep, stA2_keep, stA3_keep, stB1_keep, stB2_keep, stB3a_keep, stB3b_keep, stC1_keep, stC2_keep, stC3_keep, stD1_keep, stD2_keep]

theorem ops_main_arg9 (V : Valuation τ sig (Elt F)) : after ops V (Proc.devRef .tc main_arg9) = V (Proc.devRef .tc main_arg9) := by
  rw [after_ops]
  simp (disch := decide) only [stA1_keep, stA2_keep, stA3_keep, stB1_keep, stB2_keep, stB3a_keep, stB3b_keep, stC1_keep, stC2_keep, stC3_keep, stD1_keep, stD2_keep]

theorem ops_main_arg10 (V : Valuation τ sig (Elt F)) : after ops V (Proc.devRef .tc main_arg10) = V (Proc.devRef .tc main_arg10) := by
  rw [after_ops]
  simp (disch := decide) only [stA1_keep, stA2_keep, stA3_keep, stB1_keep, stB2_keep, stB3a_keep, stB3b_keep, stC1_keep, stC2_keep, stC3_keep, stD1_keep, stD2_keep]

theorem ops_main_arg11 (V : Valuation τ sig (Elt F)) : after ops V (Proc.devRef .tc main_arg11) = V (Proc.devRef .tc main_arg11) := by
  rw [after_ops]
  simp (disch := decide) only [stA1_keep, stA2_keep, stA3_keep, stB1_keep, stB2_keep, stB3a_keep, stB3b_keep, stC1_keep, stC2_keep, stC3_keep, stD1_keep, stD2_keep]

theorem ops_main_arg12 (V : Valuation τ sig (Elt F)) : after ops V (Proc.devRef .tc main_arg12) = V (Proc.devRef .tc main_arg12) := by
  rw [after_ops]
  simp (disch := decide) only [stA1_keep, stA2_keep, stA3_keep, stB1_keep, stB2_keep, stB3a_keep, stB3b_keep, stC1_keep, stC2_keep, stC3_keep, stD1_keep, stD2_keep]

theorem ops_main_arg13 (V : Valuation τ sig (Elt F)) : after ops V (Proc.devRef .tc main_arg13) = V (Proc.devRef .tc main_arg13) := by
  rw [after_ops]
  simp (disch := decide) only [stA1_keep, stA2_keep, stA3_keep, stB1_keep, stB2_keep, stB3a_keep, stB3b_keep, stC1_keep, stC2_keep, stC3_keep, stD1_keep, stD2_keep]

theorem ops_main_arg14 (V : Valuation τ sig (Elt F)) : after ops V (Proc.devRef .tc main_arg14) = V (Proc.devRef .tc main_arg14) := by
  rw [after_ops]
  simp (disch := decide) only [stA1_keep, stA2_keep, stA3_keep, stB1_keep, stB2_keep, stB3a_keep, stB3b_keep, stC1_keep, stC2_keep, stC3_keep, stD1_keep, stD2_keep]

/-- On every device, for any float values, from any memory with zero counters: every weakly fair execution of the
    program terminates with the result at `refOut` of the arguments' launch contents and the arguments unchanged. -/
theorem run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v89) = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run defs _ _).mono (fun _ h c => ⟨(h c main_v89).trans (ops_main_v89 (launchContents m c)),
      (h c main_arg0).trans (ops_main_arg0 (launchContents m c)),
      (h c main_arg1).trans (ops_main_arg1 (launchContents m c)),
      (h c main_arg2).trans (ops_main_arg2 (launchContents m c)),
      (h c main_arg3).trans (ops_main_arg3 (launchContents m c)),
      (h c main_arg4).trans (ops_main_arg4 (launchContents m c)),
      (h c main_arg5).trans (ops_main_arg5 (launchContents m c)),
      (h c main_arg6).trans (ops_main_arg6 (launchContents m c)),
      (h c main_arg7).trans (ops_main_arg7 (launchContents m c)),
      (h c main_arg8).trans (ops_main_arg8 (launchContents m c)),
      (h c main_arg9).trans (ops_main_arg9 (launchContents m c)),
      (h c main_arg10).trans (ops_main_arg10 (launchContents m c)),
      (h c main_arg11).trans (ops_main_arg11 (launchContents m c)),
      (h c main_arg12).trans (ops_main_arg12 (launchContents m c)),
      (h c main_arg13).trans (ops_main_arg13 (launchContents m c)),
      (h c main_arg14).trans (ops_main_arg14 (launchContents m c))⟩)
    (run_seq scopedRefs_eq scopedSems_eq defs main (fun _ => ops) main_eq (fun _ => ops_sub) m ρ)

end Cert.ReferenceIdeal.RefValue

end
-- ==== Proof.Network.lean ====
/-
  A binarised perceptron with three batch-normalised hidden layers and a log-softmax head, written twice as a function
  of its parameter arrays on the extended reals.

  A hidden layer is `h = a · sign(W)ᵀ + b`; its activation is the sign of the batch-normalised `h`, where the
  normalisation subtracts the column mean over the `n` rows of the batch, scales by the reciprocal square root of the
  column variance plus a small constant, scales by `g` and shifts by `be`. The two arrangements differ in two places
  only. The first takes the variance as the mean of the squares minus the square of the mean, the second as the mean
  of the squared deviations from the mean. The first takes the activation as `sign v`, the second as
  `v + (sign v - v)`. On finite entries both pairs agree; at an infinity neither law holds, which is why the equality
  of the two networks is stated for finite parameters.

  The head is `logits = a · Wᵀ + b` with the weights as they are, then `l - max l - log Σ exp (l - max l)` along
  each row.
-/
import Idealize.ShloMosaic.PureOps.Ideal

noncomputable section

namespace Cert.Network

open Idealize.ShloMosaic

variable {n K M Q : ℕ}

/-- A linear layer with a bias: row `r` of `a` against row `j` of `w`, plus `b j`. -/
def lin (a : Fin n → Fin K → EReal) (w : Fin M → Fin K → EReal) (b : Fin M → EReal) (r : Fin n) (j : Fin M) : EReal :=
  (∑ k : Fin K, a r k * w j k) + b j

/-- The signs of a weight matrix, entry by entry. -/
def sgn (W : Fin M → Fin K → EReal) (j : Fin M) (k : Fin K) : EReal := Ideal.sign (W j k)

/-- The sum of column `j` over the rows of the batch. -/
def colSum (h : Fin n → Fin M → EReal) (j : Fin M) : EReal := ∑ r : Fin n, h r j

/-- The column mean: the column sum divided by the number of rows `cnt` (given as an extended real). -/
def mean (cnt : EReal) (h : Fin n → Fin M → EReal) (j : Fin M) : EReal := Ideal.div (colSum h j) cnt

/-- The column variance as the mean of the squares minus the square of the mean. -/
def varOfSquares (cnt : EReal) (h : Fin n → Fin M → EReal) (j : Fin M) : EReal :=
  Ideal.div (colSum (fun r j => h r j * h r j) j) cnt - mean cnt h j * mean cnt h j

/-- The column variance as the mean of the squared deviations from the column mean. -/
def varOfDeviations (cnt : EReal) (h : Fin n → Fin M → EReal) (j : Fin M) : EReal :=
  Ideal.div (colSum (fun r j => (h r j - mean cnt h j) * (h r j - mean cnt h j)) j) cnt

/-- Batch normalisation of one entry given the column's mean and variance:
    `(h - μ) · (σ² + ε)^(-1/2) · g + be`, associated to the left as both programs compute it. -/
def normed (eps : EReal) (h : Fin n → Fin M → EReal) (mu var g be : Fin M → EReal) (r : Fin n) (j : Fin M) : EReal :=
  (h r j - mu j) * Ideal.rsqrt (var j + eps) * g j + be j

/-- The sign activation, directly. -/
def actSign (v : Fin n → Fin M → EReal) (r : Fin n) (j : Fin M) : EReal := Ideal.sign (v r j)

/-- The sign activation written as the identity plus the difference between the sign and the identity. -/
def actThrough (v : Fin n → Fin M → EReal) (r : Fin n) (j : Fin M) : EReal := v r j + (Ideal.sign (v r j) - v r j)

/-- The largest entry of row `r`, as a fold of `max` from `-∞`. -/
def rowMax (l : Fin n → Fin Q → EReal) (r : Fin n) : EReal := (Finset.univ : Finset (Fin Q)).fold max ⊥ (l r)

/-- The log-softmax of each row, shifted by the row's largest entry. -/
def logSoftmax (l : Fin n → Fin Q → EReal) (r : Fin n) (q : Fin Q) : EReal :=
  (l r q - rowMax l r) - Ideal.log (∑ q' : Fin Q, Ideal.exp (l r q' - rowMax l r))

/-- One hidden layer's activation from the layer's pre-activation `h`: variance from the squares, sign directly. -/
def hiddenA (cnt eps : EReal) (h : Fin n → Fin M → EReal) (g be : Fin M → EReal) : Fin n → Fin M → EReal :=
  actSign (normed eps h (mean cnt h) (varOfSquares cnt h) g be)

/-- One hidden layer's activation from `h`: variance from the deviations, sign through the identity. -/
def hiddenB (cnt eps : EReal) (h : Fin n → Fin M → EReal) (g be : Fin M → EReal) : Fin n → Fin M → EReal :=
  actThrough (normed eps h (mean cnt h) (varOfDeviations cnt h) g be)

/-- The whole network in the first arrangement. -/
def netA (cnt eps : EReal) (x : Fin n → Fin K → EReal)
    (W1 : Fin M → Fin K → EReal) (b1 g1 be1 : Fin M → EReal)
    (W2 : Fin M → Fin M → EReal) (b2 g2 be2 : Fin M → EReal)
    (W3 : Fin M → Fin M → EReal) (b3 g3 be3 : Fin M → EReal)
    (W4 : Fin Q → Fin M → EReal) (b4 : Fin Q → EReal) : Fin n → Fin Q → EReal :=
  logSoftmax (lin (hiddenA cnt eps (lin (hiddenA cnt eps (lin (hiddenA cnt eps (lin x (sgn W1) b1) g1 be1)
    (sgn W2) b2) g2 be2) (sgn W3) b3) g3 be3) W4 b4)

/-- The whole network in the second arrangement. -/
def netB (cnt eps : EReal) (x : Fin n → Fin K → EReal)
    (W1 : Fin M → Fin K → EReal) (b1 g1 be1 : Fin M → EReal)
    (W2 : Fin M → Fin M → EReal) (b2 g2 be2 : Fin M → EReal)
    (W3 : Fin M → Fin M → EReal) (b3 g3 be3 : Fin M → EReal)
    (W4 : Fin Q → Fin M → EReal) (b4 : Fin Q → EReal) : Fin n → Fin Q → EReal :=
  logSoftmax (lin (hiddenB cnt eps (lin (hiddenB cnt eps (lin (hiddenB cnt eps (lin x (sgn W1) b1) g1 be1)
    (sgn W2) b2) g2 be2) (sgn W3) b3) g3 be3) W4 b4)

end Cert.Network

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.LibRowReduce.lean ====
/-
  Reductions along the lanes of a matrix, read at one row, at the exact values.

  A kernel's `vector.multi_reduction` over axis 1 of an [n, m] vector and the host's one-operand `stablehlo.reduce` over
  axis 1 of an [n, m] tensor each give, at row r, a quantity of that row's m entries alone: their sum (an `add` body) or
  the fold of max from the initial value (a `maximum` body). Also: an [a, 1] column cast to a length-a vector reads the
  column's entry, and a one-element vector's extracted scalar is its entry.
-/
import Idealize.ShloMosaic.PureOps.Ideal.Laws
import Idealize.ShloMosaic.Lib.Pipeline.Value
import Idealize.ShloMosaic.Lib.ValueIdx

noncomputable section

namespace Idealize.ShloMosaic.ValueIdx

variable {φ : FTy}

/-- Row r's index with the lane coordinate k put back is (r, k). -/
theorem lift_row {n m : ℕ} (h : Shape.Reduces ⟨2, ![n, m]⟩ [(1 : Fin 2)] ⟨1, ![n]⟩) (r : Fin n) (k : Fin m) :
    h.lift (ix1 r) k = ix2 r k :=
  funext fun c => Fin.ext (by
    match c with
    | ⟨0, _⟩ => rfl
    | ⟨1, _⟩ => rfl)

/-- A kernel's lane sum at row r is the sum of the row's entries. -/
theorem multiReduction_add_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.add.neutral φ hφ) (r : Fin n) :
    multiReduction .add [(1 : Fin 2)] ⟨1, ![n]⟩ src acc h hφ hacc (ix1 r) = ∑ k : Fin m, src (ix2 r k) :=
  (Ideal.multiReduction_add_single src acc h hφ hacc (ix1 r)).trans
    (Finset.sum_congr rfl fun k _ => congrArg src (lift_row h r k))

/-- A kernel's lane maximum at row r is the fold of max, from the accumulator's value, over the row's entries. -/
theorem multiReduction_max_row {n m : ℕ} (src : FVec Ideal ⟨2, ![n, m]⟩ φ) (acc : BitVec φ.bits)
    (h : Shape.Reduces ⟨2, ![n, m]⟩ [(1 : Fin 2)] ⟨1, ![n]⟩) (hφ : FKind.Formats φ) (hacc : acc = FKind.maximumf.neutral φ hφ) (r : Fin n) :
    multiReduction .maximumf [(1 : Fin 2)] ⟨1, ![n]⟩ src acc h hφ hacc (ix1 r)
      = (Finset.univ : Finset (Fin m)).fold max (Ideal.ofBits φ acc) (fun k => src (ix2 r k)) :=
  (Ideal.multiReduction_maximumf_single src acc h hφ hacc (ix1 r)).trans
    (congrArg (fun f : Fin m → EReal => (Finset.univ : Finset (Fin m)).fold max (Ideal.ofBits φ acc) f)
      (funext fun k => congrArg src (lift_row h r k)))

/-- The host's reduce with an add body over axis 1, at row r: the initial value plus the sum of the row's entries. -/
theorem hostReduceAdd_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduceAdd x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_row h r k)))

/-- The host's reduce with a maximum body over axis 1, at row r: the fold of max, from the initial value, over the row's
    entries. -/
theorem hostReduce_max_row {n m : ℕ} (x : FVec Ideal ⟨2, ![n, m]⟩ φ) (init : (⟨0, ![]⟩ : Shape).Idx → Ideal φ)
    (h' : Shape.ReducesTo ⟨2, ![n, m]⟩ [(1 : Fin 2)] ⟨1, ![n]⟩) (h : Shape.Reduces ⟨2, ![n, m]⟩ [(1 : Fin 2)] ⟨1, ![n]⟩)
    (hu : 0 < (⟨0, ![]⟩ : Shape).numel) (r : Fin n) :
    Host.reduce (FloatOps.maximumf (F := Ideal) (φ := φ)) x init h' hu (ix1 r)
      = (Finset.univ : Finset (Fin m)).fold max (init ix0) (fun k => x (ix2 r k)) := by
  have e0 : Shape.Idx.first hu = ix0 := funext fun a => a.elim0
  refine (Host.reduce_eq_fold_single (FloatOps.maximumf (F := Ideal) (φ := φ)) x init h' h hu (ix1 r)).trans ?_
  rw [e0]
  exact congrArg (fun f : Fin m → EReal => (Finset.univ : Finset (Fin m)).fold max (init ix0) f)
    (funext fun k => congrArg x (lift_row h r k))

variable {α : Type}

/-- An [a, 1] column cast to a length-a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The scalar extracted at position 0 of a one-element vector is its entry. -/
theorem extractAt_one (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => Fin.ext (by
    match a with
    | ⟨0, _⟩ => rfl))

end Idealize.ShloMosaic.ValueIdx

end
-- ==== Proof.RefRead.lean ====
/-
  The reference network's term read at one entry: it is the second arrangement of the network over the parameter
  arrays' entries.

  Each stage of the term is read at an index through the operations that make it: a matrix product at (r, j) is the sum
  over the contracted coordinate; a transposed matrix at (k, j) is the matrix at (j, k); a repeated row or column reads
  its one entry; a column sum from zero is the sum down the rows; a row maximum is the fold of max from the initial
  value; the elementwise operations act entry by entry. Three values of literals enter: the divisor 65536 is a
  positive real, so the guard of the variance picks the quotient; the zero literal is 0; the initial value of the
  maximum is the least element, so taking the maximum with it again changes nothing.
-/
import proofs.«107829_j6700148982619_2_alg».proof.Proof.RefTerm
import proofs.«107829_j6700148982619_2_alg».proof.Proof.Network
import proofs.«107829_j6700148982619_2_alg».proof.Proof.LibPlainDot
import proofs.«107829_j6700148982619_2_alg».proof.Proof.LibBroadcastInDim
import proofs.«107829_j6700148982619_2_alg».proof.Proof.LibRowReduce
import Idealize.ShloMosaic.Lib.ValueLayout

noncomputable section

namespace Cert.ReferenceIdeal.RefValue

open Cert.ReferenceIdeal Cert.ReferenceIdeal.Gen Idealize.ShloMosaic Idealize.ShloMosaic.ValueIdx

/-- The number of rows of the batch, as the program's literal denotes it. -/
abbrev cnt : EReal := Ideal.ofBits .f32 0x47800000#32
/-- The small constant added to the variance, as the program's literal denotes it. -/
abbrev eps : EReal := Ideal.ofBits .f32 0x3727C5AC#32

/-! ## The host's elementwise functions at an index -/

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-! ## The literals -/

/-- The divisor's literal is the real number 65536. -/
theorem cnt_eq : cnt = ((65536 : ℝ) : EReal) := by
  simp [Ideal.ofBits, Ideal.ieee, -EReal.coe_mul]; norm_num

theorem cnt_pos : 0 < cnt := by
  rw [cnt_eq]; exact_mod_cast (by norm_num : (0 : ℝ) < 65536)

/-- The initial value of the row maximum is the least extended real. -/
theorem negInf_eq : Ideal.ofBits .f32 0xFF800000#32 = ⊥ := by
  simp [Ideal.ofBits, Ideal.ieee]

/-! ## Layout: a column vector repeated down the rows -/

theorem rowsOf_apply (v : FVec Ideal S512 .f32) (r : Fin 65536) (j : Fin 512) : rowsOf v (ix2 r j) = v (ix1 j) :=
  (broadcastInDim_1b_ab_apply _ bcast_S1x512_S65536x512_0_1 r j).trans
    (broadcastInDim_b_1b_apply v bcast_S512_S1x512_1 (0 : Fin 1) j)

/-! ## The linear layers -/

theorem lin1_apply (x : FVec Ideal S65536x784 .f32) (w : FVec Ideal S512x784 .f32) (b : FVec Ideal S512 .f32)
    (r : Fin 65536) (j : Fin 512) :
    lin1 x w b (ix2 r j)
      = Cert.Network.lin (fun r k => x (ix2 r k)) (Cert.Network.sgn fun j k => w (ix2 j k)) (fun j => b (ix1 j)) r j := by
  unfold lin1 Cert.Network.lin Cert.Network.sgn
  rw [addf_apply, rowsOf_apply, dotGeneral_plain_apply dot_S65536x784_S784x512_S65536x512_1_0_0_1_n_n rfl none x _ r j]
  refine congrArg (· + b (ix1 j)) (Finset.sum_congr rfl fun k _ => congrArg (x (ix2 r k) * ·) ?_)
  exact transpose_ix2_apply (Host.sign w) transposes_S512x784_S784x512_1_0 k j

theorem lin2_apply (a : FVec Ideal S65536x512 .f32) (w : FVec Ideal S512x512 .f32) (b : FVec Ideal S512 .f32)
    (r : Fin 65536) (j : Fin 512) :
    lin2 a w b (ix2 r j)
      = Cert.Network.lin (fun r k => a (ix2 r k)) (Cert.Network.sgn fun j k => w (ix2 j k)) (fun j => b (ix1 j)) r j := by
  unfold lin2 Cert.Network.lin Cert.Network.sgn
  rw [addf_apply, rowsOf_apply, dotGeneral_plain_apply dot_S65536x512_S512x512_S65536x512_1_0_0_1_n_n rfl none a _ r j]
  refine congrArg (· + b (ix1 j)) (Finset.sum_congr rfl fun k _ => congrArg (a (ix2 r k) * ·) ?_)
  exact transpose_ix2_apply (Host.sign w) transposes_S512x512_S512x512_1_0 k j

theorem lin4_apply (a : FVec Ideal S65536x512 .f32) (w : FVec Ideal S10x512 .f32) (b : FVec Ideal S10 .f32)
    (r : Fin 65536) (q : Fin 10) :
    lin4 a w b (ix2 r q)
      = Cert.Network.lin (fun r k => a (ix2 r k)) (fun j k => w (ix2 j k)) (fun j => b (ix1 j)) r q := by
  unfold lin4 Cert.Network.lin
  rw [addf_apply, dotGeneral_plain_apply dot_S65536x512_S512x10_S65536x10_1_0_0_1_n_n rfl none a _ r q]
  refine congr (congrArg (· + ·) (Finset.sum_congr rfl fun k _ => congrArg (a (ix2 r k) * ·) ?_)) ?_
  · exact transpose_ix2_apply w transposes_S10x512_S512x10_1_0 k q
  · exact (broadcastInDim_1b_ab_apply _ bcast_S1x10_S65536x10_0_1 r q).trans
      (broadcastInDim_b_1b_apply b bcast_S10_S1x10_1 (0 : Fin 1) q)

/-! ## The batch statistics -/

/-- Column j's index with the row coordinate r put back is (r, j). -/
theorem lift_col {n m : ℕ} (h : Shape.Reduces ⟨2, ![n, m]⟩ [(0 : Fin 2)] ⟨1, ![m]⟩) (j : Fin m) (r : Fin n) :
    h.lift (ix1 j) r = ix2 r j :=
  funext fun c => Fin.ext (by
    match c with
    | ⟨0, _⟩ => rfl
    | ⟨1, _⟩ => rfl)

/-- The host's reduce with an add body over axis 0, at column j: the initial value plus the sum down the rows. -/
theorem hostReduceAdd_col {n m : ℕ} (x : FVec Ideal ⟨2, ![n, m]⟩ .f32) (init : (⟨0, ![]⟩ : Shape).Idx → Ideal .f32)
    (h' : Shape.ReducesTo ⟨2, ![n, m]⟩ [(0 : Fin 2)] ⟨1, ![m]⟩) (h : Shape.Reduces ⟨2, ![n, m]⟩ [(0 : Fin 2)] ⟨1, ![m]⟩)
    (hu : 0 < (⟨0, ![]⟩ : Shape).numel) (j : Fin m) :
    Host.reduceAdd x init h' hu (ix1 j) = init ix0 + ∑ r : Fin n, x (ix2 r j) := by
  have e0 : Shape.Idx.first hu = ix0 := funext fun a => a.elim0
  show Ideal.hostReduceAdd h' x (init (Shape.Idx.first hu)) (ix1 j) = _
  rw [e0]
  exact (Ideal.hostReduceAdd_single h' h x (init ix0) (ix1 j)).trans
    (congrArg (init ix0 + ·) (Finset.sum_congr rfl fun r _ => congrArg x (lift_col h j r)))

theorem reduces_col : Shape.Reduces S65536x512 [(0 : Fin 2)] S512 := by decide

theorem colSums_apply (h : FVec Ideal S65536x512 .f32) (j : Fin 512) :
    colSums h (ix1 j) = ∑ r : Fin 65536, h (ix2 r j) := by
  unfold colSums
  refine (hostReduceAdd_col h _ reducesTo_S65536x512_S512_d0 reduces_col h_S_ j).trans ?_
  rw [constant_apply, Ideal.ofBits_zero_f32, zero_add]

theorem meanOf_apply (h : FVec Ideal S65536x512 .f32) (j : Fin 512) :
    meanOf h (ix1 j) = Cert.Network.mean cnt (fun r j => h (ix2 r j)) j := by
  unfold meanOf Cert.Network.mean Cert.Network.colSum
  show Ideal.div (colSums h (ix1 j)) (broadcastInDim S512 ![] bcast_S_S512 (constant (F := Ideal) S_ .f32 0x47800000#32) (ix1 j)) = _
  rw [colSums_apply, broadcastInDim_scalar_apply]
  rfl

theorem devOf_apply (h : FVec Ideal S65536x512 .f32) (r : Fin 65536) (j : Fin 512) :
    devOf h (ix2 r j) = h (ix2 r j) - Cert.Network.mean cnt (fun r j => h (ix2 r j)) j := by
  unfold devOf Cert.Network.mean Cert.Network.colSum
  rw [subf_apply, broadcastInDim_1b_ab_apply _ bcast_S1x512_S65536x512_0_1 r j]
  refine congrArg (h (ix2 r j) - ·) ?_
  show Ideal.div (broadcastInDim S1x512 ![1] bcast_S512_S1x512_1 (colSums h) (ix2 (0 : Fin 1) j))
      (broadcastInDim S1x512 ![] bcast_S_S1x512 (constant (F := Ideal) S_ .f32 0x47800000#32) (ix2 (0 : Fin 1) j)) = _
  rw [broadcastInDim_b_1b_apply (colSums h) bcast_S512_S1x512_1 (0 : Fin 1) j, colSums_apply, broadcastInDim_scalar_apply]
  rfl

/-- The variance's divisor is 65536: the integer zero converts to the real 0. -/
theorem cntOf_apply : cntOf (F := Ideal) ix0 = cnt := by
  unfold cntOf
  rw [subf_apply, constant_apply]
  show cnt - (((0#32 : BitVec 32).toInt : ℝ) : EReal) = cnt
  have : ((0#32 : BitVec 32).toInt : ℝ) = 0 := by norm_num
  rw [this, EReal.coe_zero, sub_zero]

theorem varOf_apply (h : FVec Ideal S65536x512 .f32) (j : Fin 512) :
    varOf h (ix1 j) = Cert.Network.varOfDeviations cnt (fun r j => h (ix2 r j)) j := by
  unfold varOf Cert.Network.varOfDeviations Cert.Network.colSum
  rw [select_apply, broadcastInDim_scalar_apply, cmpf_apply, cntOf_apply, constant_apply, Ideal.ofBits_zero_f32]
  have hc : FloatOps.cmpf (F := Ideal) (φ := .f32) .ogt cnt 0 = 1#1 := by
    show BitVec.ofBool (decide ((0 : EReal) < cnt)) = 1#1
    rw [decide_eq_true cnt_pos]; rfl
  rw [hc, select_one]
  show Ideal.div (colSums (mulf (devOf h) (devOf h)) (ix1 j)) (broadcastInDim S512 ![] bcast_S_S512 (cntOf (F := Ideal)) (ix1 j)) = _
  rw [colSums_apply, broadcastInDim_scalar_apply, cntOf_apply]
  refine congrArg (Ideal.div · cnt) (Finset.sum_congr rfl fun r _ => ?_)
  rw [mulf_apply, devOf_apply]

/-! ## Normalisation and activation -/

theorem normedOf_apply (h : FVec Ideal S65536x512 .f32) (mu var g be : FVec Ideal S512 .f32) (r : Fin 65536) (j : Fin 512) :
    normedOf h mu var g be (ix2 r j)
      = Cert.Network.normed eps (fun r j => h (ix2 r j)) (fun j => mu (ix1 j)) (fun j => var (ix1 j))
          (fun j => g (ix1 j)) (fun j => be (ix1 j)) r j := by
  unfold normedOf Cert.Network.normed
  rw [addf_apply, mulf_apply, mulf_apply, subf_apply, rowsOf_apply, rowsOf_apply, rowsOf_apply, rowsOf_apply]
  show (h (ix2 r j) - mu (ix1 j))
      * Ideal.rsqrt (var (ix1 j) + broadcastInDim S512 ![] bcast_S_S512 (constant (F := Ideal) S_ .f32 0x3727C5AC#32) (ix1 j))
      * g (ix1 j) + be (ix1 j) = _
  rw [broadcastInDim_scalar_apply]
  rfl

theorem actOf_apply (v : FVec Ideal S65536x512 .f32) (r : Fin 65536) (j : Fin 512) :
    actOf v (ix2 r j) = Cert.Network.actThrough (fun r j => v (ix2 r j)) r j := rfl

theorem hiddenOf_apply (h : FVec Ideal S65536x512 .f32) (g be : FVec Ideal S512 .f32) (r : Fin 65536) (j : Fin 512) :
    hiddenOf h g be (ix2 r j)
      = Cert.Network.hiddenB cnt eps (fun r j => h (ix2 r j)) (fun j => g (ix1 j)) (fun j => be (ix1 j)) r j := by
  unfold hiddenOf Cert.Network.hiddenB
  rw [actOf_apply]
  refine congrArg (fun v : Fin 65536 → Fin 512 → EReal => Cert.Network.actThrough v r j) ?_
  funext r' j'
  rw [normedOf_apply]
  rw [show (fun j => meanOf h (ix1 j)) = Cert.Network.mean cnt (fun r j => h (ix2 r j)) from funext (meanOf_apply h),
    show (fun j => varOf h (ix1 j)) = Cert.Network.varOfDeviations cnt (fun r j => h (ix2 r j)) from funext (varOf_apply h)]

/-! ## The log-softmax -/

theorem reduces_row : Shape.Reduces S65536x10 [(1 : Fin 2)] S65536 := by decide

theorem rowMaxOf_apply (l : FVec Ideal S65536x10 .f32) (r : Fin 65536) :
    rowMaxOf l (ix1 r) = Cert.Network.rowMax (fun r q => l (ix2 r q)) r := by
  unfold rowMaxOf Cert.Network.rowMax
  rw [maximumf_apply, broadcastInDim_scalar_apply, constant_apply, negInf_eq, max_eq_right bot_le]
  refine (hostReduce_max_row l _ reducesTo_S65536x10_S65536_d1 reduces_row h_S_ r).trans ?_
  rw [constant_apply, negInf_eq]

theorem shiftedOf_apply (l : FVec Ideal S65536x10 .f32) (r : Fin 65536) (q : Fin 10) :
    shiftedOf l (ix2 r q) = l (ix2 r q) - Cert.Network.rowMax (fun r q => l (ix2 r q)) r := by
  unfold shiftedOf
  rw [subf_apply, broadcastInDim_a1_ab_apply _ bcast_S65536x1_S65536x10_0_1 r q,
    broadcastInDim_a_a1_apply (rowMaxOf l) bcast_S65536_S65536x1_0 r (0 : Fin 1), rowMaxOf_apply]

theorem logSoftmaxOf_apply (l : FVec Ideal S65536x10 .f32) (r : Fin 65536) (q : Fin 10) :
    logSoftmaxOf l (ix2 r q) = Cert.Network.logSoftmax (fun r q => l (ix2 r q)) r q := by
  unfold logSoftmaxOf Cert.Network.logSoftmax
  rw [subf_apply, shiftedOf_apply, broadcastInDim_a1_ab_apply _ bcast_S65536x1_S65536x10_0_1 r q, hostLog_apply,
    broadcastInDim_a_a1_apply _ bcast_S65536_S65536x1_0 r (0 : Fin 1),
    hostReduceAdd_row _ _ reducesTo_S65536x10_S65536_d1 reduces_row h_S_ r, constant_apply, Ideal.ofBits_zero_f32, zero_add]
  refine congrArg (fun s => l (ix2 r q) - Cert.Network.rowMax (fun r q => l (ix2 r q)) r - Ideal.log s)
    (Finset.sum_congr rfl fun q' _ => ?_)
  rw [hostExp_apply, shiftedOf_apply]

/-! ## The whole network -/

theorem refOut_eq (a0 : FVec Ideal S65536x784 .f32) (a1 : FVec Ideal S512x784 .f32) (a2 a3 a4 : FVec Ideal S512 .f32)
    (a5 : FVec Ideal S512x512 .f32) (a6 a7 a8 : FVec Ideal S512 .f32)
    (a9 : FVec Ideal S512x512 .f32) (a10 a11 a12 : FVec Ideal S512 .f32)
    (a13 : FVec Ideal S10x512 .f32) (a14 : FVec Ideal S10 .f32) (r : Fin 65536) (q : Fin 10) :
    refOut a0 a1 a2 a3 a4 a5 a6 a7 a8 a9 a10 a11 a12 a13 a14 (ix2 r q)
      = Cert.Network.netB (Ideal.ofBits .f32 0x47800000#32) (Ideal.ofBits .f32 0x3727C5AC#32)
          (fun r k => a0 (ix2 r k)) (fun j k => a1 (ix2 j k)) (fun j => a2 (ix1 j)) (fun j => a3 (ix1 j)) (fun j => a4 (ix1 j))
          (fun j k => a5 (ix2 j k)) (fun j => a6 (ix1 j)) (fun j => a7 (ix1 j)) (fun j => a8 (ix1 j))
          (fun j k => a9 (ix2 j k)) (fun j => a10 (ix1 j)) (fun j => a11 (ix1 j)) (fun j => a12 (ix1 j))
          (fun j k => a13 (ix2 j k)) (fun j => a14 (ix1 j)) r q := by
  unfold refOut Cert.Network.netB
  rw [logSoftmaxOf_apply]
  simp only [funext₂ (lin4_apply _ _ _), funext₂ (hiddenOf_apply _ _ _), funext₂ (lin2_apply _ _ _), funext₂ (lin1_apply _ _ _)]

end Cert.ReferenceIdeal.RefValue

end
-- ==== Proof.LibBatchMoments.lean ====
/-
  Batch moments on the extended reals, for entries that are reals.

  On `EReal` the distributive law and cancellation fail at the infinities, so the identities between the two usual
  ways of writing a variance are proved for real entries and carried across the coercion `ℝ → EReal`:
  the coercion commutes with finite sums, division by a nonzero real count is the real quotient, the mean of the
  squares minus the squared mean is the mean of the squared deviations and is nonnegative, the reciprocal square root
  of a positive real is a real, and `t + (sign t - t) = sign t` for a real `t`.
-/
import Idealize.ShloMosaic.PureOps.Ideal

noncomputable section

namespace Cert.BatchMoments

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by a nonzero real count, on the extended reals, is the real product with the reciprocal. -/
theorem div_coe_coe (x c : ℝ) (hc : c ≠ 0) :
    Ideal.div (x : EReal) (c : EReal) = ((x * (1 / c) : ℝ) : EReal) := by
  rw [Ideal.div_coe hc, EReal.coe_mul]

/-- The mean of the squares minus the square of the mean is the mean of the squared deviations from the mean,
    for `c` the (positive) number of entries. -/
theorem meanSq_sub_sqMean {ι : Type*} [Fintype ι] (f : ι → ℝ) (c : ℝ) (hc : c = (Fintype.card ι : ℝ)) (hpos : 0 < c) :
    (∑ i, f i * f i) * (1 / c) - ((∑ i, f i) * (1 / c)) * ((∑ i, f i) * (1 / c))
      = (∑ i, (f i - (∑ i, f i) * (1 / c)) * (f i - (∑ i, f i) * (1 / c))) * (1 / c) := by
  set S : ℝ := ∑ i, f i with hS
  set μ : ℝ := S * (1 / c) with hμ
  have hdev : (∑ i, (f i - μ) * (f i - μ)) = (∑ i, f i * f i) - 2 * μ * S + c * (μ * μ) := by
    have : ∀ i, (f i - μ) * (f i - μ) = f i * f i - 2 * μ * f i + μ * μ := fun i => by ring
    simp only [this]
    rw [Finset.sum_add_distrib, Finset.sum_sub_distrib, ← Finset.mul_sum, Finset.sum_const, Finset.card_univ,
      nsmul_eq_mul, ← hc]
  rw [hdev, hμ]
  have hc0 : c ≠ 0 := ne_of_gt hpos
  field_simp
  ring

/-- The mean of the squared deviations is nonnegative. -/
theorem meanSqDev_nonneg {ι : Type*} [Fintype ι] (f : ι → ℝ) (μ c : ℝ) (hpos : 0 < c) :
    0 ≤ (∑ i, (f i - μ) * (f i - μ)) * (1 / c) :=
  mul_nonneg (Finset.sum_nonneg fun i _ => mul_self_nonneg _) (by positivity)

/-- The reciprocal square root of a nonnegative real plus a positive real is the real `(√(w + e))⁻¹`. -/
theorem rsqrt_coe_add_coe (w e : ℝ) (hw : 0 ≤ w) (he : 0 < e) :
    Ideal.rsqrt ((w : EReal) + (e : EReal)) = (((Real.sqrt (w + e))⁻¹ : ℝ) : EReal) := by
  have hpos : 0 < w + e := by linarith
  rw [← EReal.coe_add, Ideal.rsqrt_coe, if_neg (not_lt.mpr hpos.le), if_neg (ne_of_gt hpos)]

/-- For a real `t`, the identity plus the difference between the sign and the identity is the sign. -/
theorem add_sign_sub_self (t : ℝ) : (t : EReal) + (Ideal.sign (t : EReal) - (t : EReal)) = Ideal.sign (t : EReal) := by
  rw [Ideal.sign_coe, ← EReal.coe_sub, ← EReal.coe_add]
  congr 1
  ring

/-- The sign of any extended real is a real (one of `-1`, `0`, `1`). -/
theorem sign_real (x : EReal) : ∃ v : ℝ, Ideal.sign x = (v : EReal) := by
  induction x using EReal.rec with
  | bot => exact ⟨-1, by rw [Ideal.sign_bot]; norm_num⟩
  | coe r => exact ⟨_, Ideal.sign_coe r⟩
  | top => exact ⟨1, by rw [Ideal.sign_top]; norm_num⟩

end Cert.BatchMoments

end
-- ==== Proof.NetworkEq.lean ====
/-
  The two arrangements of the binarised perceptron agree on finite parameters.

  For a pre-activation all of whose entries are reals, the column sums, the column mean and both forms of the column
  variance are reals, and the two forms of the variance are equal (the mean of the squares minus the squared mean is
  the mean of the squared deviations). That common variance is nonnegative, so the variance plus a positive constant
  is a positive real, its reciprocal square root is a real, and the normalised entry `v` is a real; for a real `v`,
  `v + (sign v - v) = sign v`. Hence both arrangements of a hidden layer give the same activation. A sign is always a
  real, and a linear layer of real entries against real weights plus a real bias has real entries, so the same step
  applies to each of the three hidden layers in turn, and the heads are applied to equal arguments.
-/
import proofs.«107829_j6700148982619_2_alg».proof.Proof.Network
import proofs.«107829_j6700148982619_2_alg».proof.Proof.LibBatchMoments

noncomputable section

namespace Cert.Network

open Idealize.ShloMosaic Cert.BatchMoments

variable {n K M Q : ℕ}

/-- The column sum of real entries is the real column sum. -/
theorem colSum_coe (h' : Fin n → Fin M → ℝ) (j : Fin M) :
    colSum (fun r j => (h' r j : EReal)) j = ((∑ r, h' r j : ℝ) : EReal) := by
  unfold colSum
  exact (coe_sum _ _).symm

/-- The column mean of real entries over a nonzero real count is the real column mean. -/
theorem mean_coe (hn0 : (n : ℝ) ≠ 0) (h' : Fin n → Fin M → ℝ) (j : Fin M) :
    mean ((n : ℝ) : EReal) (fun r j => (h' r j : EReal)) j = (((∑ r, h' r j) * (1 / (n : ℝ)) : ℝ) : EReal) := by
  rw [mean, colSum_coe, div_coe_coe _ _ hn0]

/-- The variance from the squares, of real entries, is the real expression of the same form. -/
theorem varOfSquares_coe (hn0 : (n : ℝ) ≠ 0) (h' : Fin n → Fin M → ℝ) (j : Fin M) :
    varOfSquares ((n : ℝ) : EReal) (fun r j => (h' r j : EReal)) j
      = (((∑ r, h' r j * h' r j) * (1 / (n : ℝ))
          - ((∑ r, h' r j) * (1 / (n : ℝ))) * ((∑ r, h' r j) * (1 / (n : ℝ))) : ℝ) : EReal) := by
  simp only [varOfSquares, mean_coe hn0, ← EReal.coe_mul, colSum_coe, div_coe_coe _ _ hn0, ← EReal.coe_sub]

/-- The variance from the deviations, of real entries, is the real expression of the same form. -/
theorem varOfDeviations_coe (hn0 : (n : ℝ) ≠ 0) (h' : Fin n → Fin M → ℝ) (j : Fin M) :
    varOfDeviations ((n : ℝ) : EReal) (fun r j => (h' r j : EReal)) j
      = (((∑ r, (h' r j - (∑ r, h' r j) * (1 / (n : ℝ))) * (h' r j - (∑ r, h' r j) * (1 / (n : ℝ))))
          * (1 / (n : ℝ)) : ℝ) : EReal) := by
  simp only [varOfDeviations, mean_coe hn0, ← EReal.coe_sub, ← EReal.coe_mul, colSum_coe, div_coe_coe _ _ hn0]

/-- One hidden layer: on a pre-activation, scale and shift with real entries, and a positive number of rows, the two
    arrangements give the same activation. -/
theorem hiddenA_eq_hiddenB (hn : 0 < n) (cnt eps : EReal) (hcnt : cnt = ((n : ℝ) : EReal))
    (heps : ∃ e : ℝ, 0 < e ∧ eps = (e : EReal))
    (h : Fin n → Fin M → EReal) (g be : Fin M → EReal)
    (hh : ∀ r j, ∃ v : ℝ, h r j = (v : EReal)) (hg : ∀ j, ∃ v : ℝ, g j = (v : EReal))
    (hbe : ∀ j, ∃ v : ℝ, be j = (v : EReal)) :
    hiddenA cnt eps h g be = hiddenB cnt eps h g be := by
  obtain ⟨e, he, rfl⟩ := heps
  subst hcnt
  choose h' hh' using hh
  choose g' hg' using hg
  choose be' hbe' using hbe
  obtain rfl : h = fun r j => (h' r j : EReal) := funext fun r => funext fun j => hh' r j
  obtain rfl : g = fun j => (g' j : EReal) := funext hg'
  obtain rfl : be = fun j => (be' j : EReal) := funext hbe'
  have hnpos : (0 : ℝ) < n := Nat.cast_pos.mpr hn
  have hn0 : (n : ℝ) ≠ 0 := ne_of_gt hnpos
  have hvar : varOfSquares ((n : ℝ) : EReal) (fun r j => (h' r j : EReal))
      = varOfDeviations ((n : ℝ) : EReal) (fun r j => (h' r j : EReal)) := by
    funext j
    rw [varOfSquares_coe hn0, varOfDeviations_coe hn0,
      meanSq_sub_sqMean (fun r => h' r j) n (by rw [Fintype.card_fin]) hnpos]
  funext r j
  unfold hiddenA hiddenB actSign actThrough
  rw [hvar]
  obtain ⟨t, ht⟩ : ∃ t : ℝ, normed (e : EReal) (fun r j => (h' r j : EReal))
      (mean ((n : ℝ) : EReal) (fun r j => (h' r j : EReal)))
      (varOfDeviations ((n : ℝ) : EReal) (fun r j => (h' r j : EReal)))
      (fun j => (g' j : EReal)) (fun j => (be' j : EReal)) r j = (t : EReal) := by
    rw [normed, mean_coe hn0, varOfDeviations_coe hn0,
      rsqrt_coe_add_coe _ _ (meanSqDev_nonneg _ _ _ hnpos) he, ← EReal.coe_sub, ← EReal.coe_mul, ← EReal.coe_mul,
      ← EReal.coe_add]
    exact ⟨_, rfl⟩
  rw [ht]
  exact (add_sign_sub_self t).symm

/-- The activation of the first arrangement has real entries, whatever the pre-activation. -/
theorem hiddenA_real (cnt eps : EReal) (h : Fin n → Fin M → EReal) (g be : Fin M → EReal) (r : Fin n) (j : Fin M) :
    ∃ v : ℝ, hiddenA cnt eps h g be r j = (v : EReal) :=
  sign_real _

/-- The signs of a weight matrix are reals. -/
theorem sgn_real (W : Fin M → Fin K → EReal) (j : Fin M) (k : Fin K) : ∃ v : ℝ, sgn W j k = (v : EReal) :=
  sign_real _

/-- A linear layer of real entries against real weights plus a real bias has real entries. -/
theorem lin_real (a : Fin n → Fin K → EReal) (w : Fin M → Fin K → EReal) (b : Fin M → EReal)
    (ha : ∀ r k, ∃ v : ℝ, a r k = (v : EReal)) (hw : ∀ j k, ∃ v : ℝ, w j k = (v : EReal))
    (hb : ∀ j, ∃ v : ℝ, b j = (v : EReal)) (r : Fin n) (j : Fin M) : ∃ v : ℝ, lin a w b r j = (v : EReal) := by
  choose a' ha' using ha
  choose w' hw' using hw
  choose b' hb' using hb
  refine ⟨(∑ k, a' r k * w' j k) + b' j, ?_⟩
  simp only [lin, ha', hw', hb', ← EReal.coe_mul, ← coe_sum, ← EReal.coe_add]

/-- The two arrangements of the whole network agree when every parameter array has real entries, the count is the
    (positive) number of rows and the added constant is a positive real. -/
theorem netA_eq_netB (hn : 0 < n) (cnt eps : EReal) (hcnt : cnt = ((n : ℝ) : EReal))
    (heps : ∃ e : ℝ, 0 < e ∧ eps = (e : EReal))
    (x : Fin n → Fin K → EReal)
    (W1 : Fin M → Fin K → EReal) (b1 g1 be1 : Fin M → EReal)
    (W2 : Fin M → Fin M → EReal) (b2 g2 be2 : Fin M → EReal)
    (W3 : Fin M → Fin M → EReal) (b3 g3 be3 : Fin M → EReal)
    (W4 : Fin Q → Fin M → EReal) (b4 : Fin Q → EReal)
    (hx : ∀ r k, ∃ v : ℝ, x r k = (v : EReal))
    (hW1 : ∀ j k, ∃ v : ℝ, W1 j k = (v : EReal)) (hb1 : ∀ j, ∃ v : ℝ, b1 j = (v : EReal))
    (hg1 : ∀ j, ∃ v : ℝ, g1 j = (v : EReal)) (hbe1 : ∀ j, ∃ v : ℝ, be1 j = (v : EReal))
    (hW2 : ∀ j k, ∃ v : ℝ, W2 j k = (v : EReal)) (hb2 : ∀ j, ∃ v : ℝ, b2 j = (v : EReal))
    (hg2 : ∀ j, ∃ v : ℝ, g2 j = (v : EReal)) (hbe2 : ∀ j, ∃ v : ℝ, be2 j = (v : EReal))
    (hW3 : ∀ j k, ∃ v : ℝ, W3 j k = (v : EReal)) (hb3 : ∀ j, ∃ v : ℝ, b3 j = (v : EReal))
    (hg3 : ∀ j, ∃ v : ℝ, g3 j = (v : EReal)) (hbe3 : ∀ j, ∃ v : ℝ, be3 j = (v : EReal))
    (hW4 : ∀ j k, ∃ v : ℝ, W4 j k = (v : EReal)) (hb4 : ∀ j, ∃ v : ℝ, b4 j = (v : EReal)) :
    netA cnt eps x W1 b1 g1 be1 W2 b2 g2 be2 W3 b3 g3 be3 W4 b4
      = netB cnt eps x W1 b1 g1 be1 W2 b2 g2 be2 W3 b3 g3 be3 W4 b4 := by
  unfold netA netB
  have e1 := hiddenA_eq_hiddenB hn cnt eps hcnt heps (lin x (sgn W1) b1) g1 be1
    (lin_real x (sgn W1) b1 hx (sgn_real W1) hb1) hg1 hbe1
  rw [← e1]
  have e2 := hiddenA_eq_hiddenB hn cnt eps hcnt heps
    (lin (hiddenA cnt eps (lin x (sgn W1) b1) g1 be1) (sgn W2) b2) g2 be2
    (lin_real _ (sgn W2) b2 (hiddenA_real _ _ _ _ _) (sgn_real W2) hb2) hg2 hbe2
  rw [← e2]
  have e3 := hiddenA_eq_hiddenB hn cnt eps hcnt heps
    (lin (hiddenA cnt eps (lin (hiddenA cnt eps (lin x (sgn W1) b1) g1 be1) (sgn W2) b2) g2 be2) (sgn W3) b3) g3 be3
    (lin_real _ (sgn W3) b3 (hiddenA_real _ _ _ _ _) (sgn_real W3) hb3) hg3 hbe3
  rw [← e3]

end Cert.Network

end
-- ==== Proof.LibLiterals.lean ====
/-
  Three float literals as the extended reals their IEEE binary32 patterns denote.
-/
import Idealize.ShloMosaic.PureOps.Ideal

noncomputable section

namespace Cert.Literals

open Idealize.ShloMosaic

/-- The pattern with exponent field 143 and zero fraction is `2^23 · 2^(143 - 127 - 23) = 2^16 = 65536`. -/
theorem ofBits_65536 : Ideal.ofBits .f32 0x47800000#32 = ((65536 : ℝ) : EReal) := by
  simp [Ideal.ofBits, Ideal.ieee, -EReal.coe_mul]; norm_num

/-- The pattern `0x3727C5AC` has a zero sign bit and an exponent field strictly between 0 and 255, so it denotes a
    positive real (about `1.0e-5`). -/
theorem ofBits_eps_pos : ∃ e : ℝ, 0 < e ∧ Ideal.ofBits .f32 0x3727C5AC#32 = (e : EReal) := by
  refine ⟨_, ?_, by simp [Ideal.ofBits, Ideal.ieee, -EReal.coe_mul]; rfl⟩
  positivity

/-- The pattern with the sign bit set, an all-ones exponent and zero fraction is `-∞`. -/
theorem ofBits_neg_inf : Ideal.ofBits .f32 0xFF800000#32 = ⊥ := by
  simp [Ideal.ofBits, Ideal.ieee]

end Cert.Literals

end
-- ==== Proof.LibFiniteElement.lean ====
/-
  "Every entry is finite", read back from the way it is computed.

  The test `all (|x| < +∞)` is a reduction by `and`, over every axis, of the entrywise comparison of `max x (-x)` with the
  binary32 pattern of `+∞` broadcast from a scalar. If the reduction is 1 then every comparison is 1, and an extended
  real whose absolute value is strictly below `+∞` is neither infinity: it is a real.
-/
import Idealize.ShloMosaic.Lib.ReduceAll
import Idealize.ShloMosaic.Lib.ValueIdx
import Idealize.ShloMosaic.Lib.Pipeline.Value

noncomputable section

namespace Cert.FiniteElement

open Idealize.ShloMosaic

/-- An extended real whose absolute value `max x (-x)` compares strictly below the pattern of `+∞` is a real:
    at either infinity the absolute value is `+∞`, which is not below itself. -/
theorem real_of_abs_lt_inf (x : EReal)
    (h : Ideal.cmp .olt (max x (-x)) (Ideal.ofBits .f32 0x7F800000#32) = 1#1) : ∃ v : ℝ, x = (v : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- If the reduction by `and` over all axes of `|x| < +∞` is 1, every entry of `x` is a real. -/
theorem real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf x) (broadcastInDim s ![] hb (constant (F := Ideal) (⟨0, ![]⟩ : Shape) .f32 0x7F800000#32)))
          init hr hu j = 1#1)
    (i : s.Idx) : ∃ v : ℝ, x i = (v : EReal) := by
  haveI : Subsingleton (⟨0, ![]⟩ : Shape).Idx := ⟨fun a b => funext fun d => d.elim0⟩
  exact real_of_abs_lt_inf (x i) (Host.reduce_andi_all _ init hr hu j e i)

end Cert.FiniteElement

end
-- ==== Proof.FiniteDecode.lean ====
/-
  The precondition "every float input is finite" gives real entries.

  The printed test is the conjunction, associated to the left, of fifteen "all entries finite" tests, one per argument
  array; when it is 1 each conjunct is 1, and each conjunct gives real entries for its array.
-/
import proofs.«107829_j6700148982619_2_alg».proof.Pre_finite_inputs
import proofs.«107829_j6700148982619_2_alg».proof.Proof.LibFiniteElement

noncomputable section

namespace Cert.FiniteDecode

open Idealize.ShloMosaic Cert.Pre_finite_inputs Cert.FiniteElement

variable [Facts]

/-- The entrywise `and` of two arrays of bits, read at an index. -/
theorem andi_at {s : Shape} {w : ℕ} (x y : IVec s w) (i : s.Idx) : andi x y i = IntOp.andi (x i) (y i) := rfl

/-- If the finiteness test of the fifteen argument arrays is 1, every entry of every array is a real. -/
theorem real_of_finite_inputs (a0 : FVec Ideal S65536x784 .f32) (a1 : FVec Ideal S512x784 .f32) (a2 : FVec Ideal S512 .f32) (a3 : FVec Ideal S512 .f32) (a4 : FVec Ideal S512 .f32) (a5 : FVec Ideal S512x512 .f32) (a6 : FVec Ideal S512 .f32) (a7 : FVec Ideal S512 .f32) (a8 : FVec Ideal S512 .f32) (a9 : FVec Ideal S512x512 .f32) (a10 : FVec Ideal S512 .f32) (a11 : FVec Ideal S512 .f32) (a12 : FVec Ideal S512 .f32) (a13 : FVec Ideal S10x512 .f32) (a14 : FVec Ideal S10 .f32)
    (h : fn (F := Ideal) a0 a1 a2 a3 a4 a5 a6 a7 a8 a9 a10 a11 a12 a13 a14 = fun _ => 1#1) :
    (∀ i, ∃ v : ℝ, a0 i = (v : EReal))
      ∧ (∀ i, ∃ v : ℝ, a1 i = (v : EReal))
      ∧ (∀ i, ∃ v : ℝ, a2 i = (v : EReal))
      ∧ (∀ i, ∃ v : ℝ, a3 i = (v : EReal))
      ∧ (∀ i, ∃ v : ℝ, a4 i = (v : EReal))
      ∧ (∀ i, ∃ v : ℝ, a5 i = (v : EReal))
      ∧ (∀ i, ∃ v : ℝ, a6 i = (v : EReal))
      ∧ (∀ i, ∃ v : ℝ, a7 i = (v : EReal))
      ∧ (∀ i, ∃ v : ℝ, a8 i = (v : EReal))
      ∧ (∀ i, ∃ v : ℝ, a9 i = (v : EReal))
      ∧ (∀ i, ∃ v : ℝ, a10 i = (v : EReal))
      ∧ (∀ i, ∃ v : ℝ, a11 i = (v : EReal))
      ∧ (∀ i, ∃ v : ℝ, a12 i = (v : EReal))
      ∧ (∀ i, ∃ v : ℝ, a13 i = (v : EReal))
      ∧ (∀ i, ∃ v : ℝ, a14 i = (v : EReal)) := by
  have e := congrFun h ValueIdx.ix0
  simp only [fn, fn_part1, fn_part2, fn_part3, fn_part4, andi_at, IntOp.andi_eq_one] at e
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := e
  exact ⟨real_of_all_finite _ _ _ _ _ _ h0,
    real_of_all_finite _ _ _ _ _ _ h1,
    real_of_all_finite _ _ _ _ _ _ h2,
    real_of_all_finite _ _ _ _ _ _ h3,
    real_of_all_finite _ _ _ _ _ _ h4,
    real_of_all_finite _ _ _ _ _ _ h5,
    real_of_all_finite _ _ _ _ _ _ h6,
    real_of_all_finite _ _ _ _ _ _ h7,
    real_of_all_finite _ _ _ _ _ _ h8,
    real_of_all_finite _ _ _ _ _ _ h9,
    real_of_all_finite _ _ _ _ _ _ h10,
    real_of_all_finite _ _ _ _ _ _ h11,
    real_of_all_finite _ _ _ _ _ _ h12,
    real_of_all_finite _ _ _ _ _ _ h13,
    real_of_all_finite _ _ _ _ _ _ h14⟩

end Cert.FiniteDecode

end
-- ==== Proof.FiniteInputs.lean ====
/-
  Under the kernel program's precondition every entry of every argument array is a real.

  The precondition says, on every device, that the finiteness test of the fifteen argument arrays is 1; reading the
  test back gives real entries array by array.
-/
import proofs.«107829_j6700148982619_2_alg».proof.Defs
import proofs.«107829_j6700148982619_2_alg».proof.Proof.FiniteDecode

noncomputable section

namespace Cert.FiniteInputs

open Idealize.ShloMosaic Idealize.SL.Sem

variable [Cert.Pre_finite_inputs.Facts]

/-- Every entry of each of the fifteen argument arrays of the kernel program, in a memory satisfying the program's
    precondition, is a real. -/
theorem real_entries (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, m ((c.tc : Thread Cert.KernelIdeal.nD Cert.KernelIdeal.τ).loc Cert.KernelIdeal.main_arg0) i = (v : EReal))
      ∧ (∀ i, ∃ v : ℝ, m ((c.tc : Thread Cert.KernelIdeal.nD Cert.KernelIdeal.τ).loc Cert.KernelIdeal.main_arg1) i = (v : EReal))
      ∧ (∀ i, ∃ v : ℝ, m ((c.tc : Thread Cert.KernelIdeal.nD Cert.KernelIdeal.τ).loc Cert.KernelIdeal.main_arg2) i = (v : EReal))
      ∧ (∀ i, ∃ v : ℝ, m ((c.tc : Thread Cert.KernelIdeal.nD Cert.KernelIdeal.τ).loc Cert.KernelIdeal.main_arg3) i = (v : EReal))
      ∧ (∀ i, ∃ v : ℝ, m ((c.tc : Thread Cert.KernelIdeal.nD Cert.KernelIdeal.τ).loc Cert.KernelIdeal.main_arg4) i = (v : EReal))
      ∧ (∀ i, ∃ v : ℝ, m ((c.tc : Thread Cert.KernelIdeal.nD Cert.KernelIdeal.τ).loc Cert.KernelIdeal.main_arg5) i = (v : EReal))
      ∧ (∀ i, ∃ v : ℝ, m ((c.tc : Thread Cert.KernelIdeal.nD Cert.KernelIdeal.τ).loc Cert.KernelIdeal.main_arg6) i = (v : EReal))
      ∧ (∀ i, ∃ v : ℝ, m ((c.tc : Thread Cert.KernelIdeal.nD Cert.KernelIdeal.τ).loc Cert.KernelIdeal.main_arg7) i = (v : EReal))
      ∧ (∀ i, ∃ v : ℝ, m ((c.tc : Thread Cert.KernelIdeal.nD Cert.KernelIdeal.τ).loc Cert.KernelIdeal.main_arg8) i = (v : EReal))
      ∧ (∀ i, ∃ v : ℝ, m ((c.tc : Thread Cert.KernelIdeal.nD Cert.KernelIdeal.τ).loc Cert.KernelIdeal.main_arg9) i = (v : EReal))
      ∧ (∀ i, ∃ v : ℝ, m ((c.tc : Thread Cert.KernelIdeal.nD Cert.KernelIdeal.τ).loc Cert.KernelIdeal.main_arg10) i = (v : EReal))
      ∧ (∀ i, ∃ v : ℝ, m ((c.tc : Thread Cert.KernelIdeal.nD Cert.KernelIdeal.τ).loc Cert.KernelIdeal.main_arg11) i = (v : EReal))
      ∧ (∀ i, ∃ v : ℝ, m ((c.tc : Thread Cert.KernelIdeal.nD Cert.KernelIdeal.τ).loc Cert.KernelIdeal.main_arg12) i = (v : EReal))
      ∧ (∀ i, ∃ v : ℝ, m ((c.tc : Thread Cert.KernelIdeal.nD Cert.KernelIdeal.τ).loc Cert.KernelIdeal.main_arg13) i = (v : EReal))
      ∧ (∀ i, ∃ v : ℝ, m ((c.tc : Thread Cert.KernelIdeal.nD Cert.KernelIdeal.τ).loc Cert.KernelIdeal.main_arg14) i = (v : EReal)) :=
  Cert.FiniteDecode.real_of_finite_inputs _ _ _ _ _ _ _ _ _ _ _ _ _ _ _ (h c)

end Cert.FiniteInputs

end
-- ==== Proof.LibPlainMatmul.lean ====
/-
  A plain M × K by K × N kernel matrix product into the zero accumulator, read at one entry, for operands of any float
  formats (a kernel rounds its operands to bf16 on the way in; at the exact values a change of format is the identity):
  entry (p, q) is the sum over k of L(p, k) · R(k, q).
-/
import proofs.«107829_j6700148982619_2_alg».proof.Proof.LibPlainDot

noncomputable section

namespace Idealize.ShloMosaic.ValueIdx

/-- A kernel's matrix product into the zero accumulator, operands of any formats, for any dimension record that is the
    plain one. -/
theorem matmul_plain_zero_apply_fmt {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

end Idealize.ShloMosaic.ValueIdx

end
-- ==== Proof.LibColReduce.lean ====
/-
  A sum down the rows of a matrix, read at one column.

  A kernel's reduction of an n × m vector over its first axis is, at column q and at the exact values, the sum over
  the n rows of the entry in that column; the host's reduction over the first axis is the same sum added to the
  initial value. A vector of length m laid as a 1 × m row and a sum over n·b rows taken block by block are read
  here too: a sum over Fin (a·b) is the sum over the a blocks of the sums over the b rows of each block.
-/
import Idealize.ShloMosaic.PureOps.Ideal.Laws
import Idealize.ShloMosaic.Lib.Pipeline.Value
import Idealize.ShloMosaic.Lib.ValueIdx

noncomputable section

namespace Idealize.ShloMosaic.ValueIdx

open Idealize.ShloMosaic

variable {φ : FTy}

/-- Inserting row k into the reduced index q of an n × m matrix reduced over its rows gives the entry (k, q). -/
theorem lift_col {n m : ℕ} (h : Shape.Reduces ⟨2, ![n, m]⟩ [(0 : Fin 2)] ⟨1, ![m]⟩) (q : Fin m) (k : Fin n) :
    h.lift (ix1 q) k = ix2 k q :=
  funext fun c => Fin.ext (by
    match c with
    | ⟨0, _⟩ => rfl
    | ⟨1, _⟩ => rfl)

/-- A kernel's sum over the rows, at column q, is the sum over the rows of the column's entries. -/
theorem multiReduction_add_col {n m : ℕ} (src : FVec Ideal ⟨2, ![n, m]⟩ φ) (acc : BitVec φ.bits)
    (h : Shape.Reduces ⟨2, ![n, m]⟩ [(0 : Fin 2)] ⟨1, ![m]⟩) (hφ : FKind.Formats φ) (hacc : acc = FKind.add.neutral φ hφ)
    (q : Fin m) :
    multiReduction .add [(0 : Fin 2)] ⟨1, ![m]⟩ src acc h hφ hacc (ix1 q) = ∑ k : Fin n, src (ix2 k q) :=
  (Ideal.multiReduction_add_single src acc h hφ hacc (ix1 q)).trans
    (Finset.sum_congr rfl fun k _ => congrArg src (lift_col h q k))

/-- The host's sum over the rows, at column q, is the initial value plus the sum over the rows of the column's entries. -/
theorem hostReduceAdd_col {n m : ℕ} (x : FVec Ideal ⟨2, ![n, m]⟩ φ) (init : (⟨0, ![]⟩ : Shape).Idx → Ideal φ)
    (h' : Shape.ReducesTo ⟨2, ![n, m]⟩ [(0 : Fin 2)] ⟨1, ![m]⟩) (h : Shape.Reduces ⟨2, ![n, m]⟩ [(0 : Fin 2)] ⟨1, ![m]⟩)
    (hu : 0 < (⟨0, ![]⟩ : Shape).numel) (q : Fin m) :
    Host.reduceAdd x init h' hu (ix1 q) = init ix0 + ∑ k : Fin n, x (ix2 k q) := by
  have e0 : Shape.Idx.first hu = ix0 := funext fun a => a.elim0
  show Ideal.hostReduceAdd h' x (init (Shape.Idx.first hu)) (ix1 q) = _
  rw [e0]
  exact (Ideal.hostReduceAdd_single h' h x (init ix0) (ix1 q)).trans
    (congrArg (init ix0 + ·) (Finset.sum_congr rfl fun k _ => congrArg x (lift_col h q k)))

/-- Row i of block t, among a blocks of b rows each: row t·b + i of the whole. -/
def blockRow {a b : ℕ} (t : Fin a) (i : Fin b) : Fin (a * b) :=
  ⟨t.val * b + i.val, by
    have h1 := t.isLt; have h2 := i.isLt
    calc t.val * b + i.val < t.val * b + b := by omega
      _ = (t.val + 1) * b := by ring
      _ ≤ a * b := Nat.mul_le_mul_right b h1⟩

theorem blockRow_val {a b : ℕ} (t : Fin a) (i : Fin b) : (blockRow t i).val = t.val * b + i.val := rfl

/-- A sum over a·b rows is the sum over the a blocks of the sums over each block's b rows. Addition in any commutative
    monoid: nothing about finiteness. -/
theorem sum_blocks {M : Type*} [AddCommMonoid M] (a b : ℕ) (f : Fin (a * b) → M) :
    ∑ r : Fin (a * b), f r = ∑ t : Fin a, ∑ i : Fin b, f (blockRow t i) := by
  refine Eq.trans ?_ (Fintype.sum_prod_type' (fun (t : Fin a) (i : Fin b) => f (blockRow t i)))
  refine Fintype.sum_equiv finProdFinEquiv.symm _ _ fun r => congrArg f (Fin.ext ?_)
  have h1 : ((finProdFinEquiv.symm r).1 : Fin a).val = r.val / b := rfl
  have h2 : ((finProdFinEquiv.symm r).2 : Fin b).val = r.val % b := rfl
  rw [blockRow_val, h1, h2]
  exact (Nat.div_add_mod' r.val b).symm

end Idealize.ShloMosaic.ValueIdx

end
-- ==== Proof.PayStats.lean ====
/-
  The kernels' accumulated statistics and the first layer's product, read at one entry at the exact values.

  The first kernel's block of 1024 rows is the product of the block of x with the transposed sign matrix plus the bias
  row; each kernel's running column sum after a point is the sum it held before plus the sum over the block's rows of
  the block's column, and its running sum of squares likewise over the squared entries.
-/
import proofs.«107829_j6700148982619_2_alg».proof.Proof.Gen.KernelIdeal.Skeleton
import proofs.«107829_j6700148982619_2_alg».proof.Proof.LibPlainMatmul
import proofs.«107829_j6700148982619_2_alg».proof.Proof.LibColReduce
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- Entry (p, q) of the first layer's block: row p of the x block against column q of the weights, plus the bias. -/
theorem pay01_apply (v0 : Vec Ideal S1024x784 .f32) (v1 : Vec Ideal S784x512 .f32) (v4 : Vec Ideal S1x512 .f32)
    (p : Fin 1024) (q : Fin 512) :
    k0_pay1 (F := Ideal) v0 v1 v4 (ix2 p q) = (∑ k : Fin 784, v0 (ix2 p k) * v1 (ix2 k q)) + v4 (ix2 (0 : Fin 1) q) := by
  unfold k0_pay1
  rw [shapeCast_self, shapeCast_self]
  refine (addf_apply _ _ _).trans ?_
  exact congrArg₂ (· + ·) (matmul_plain_zero_apply _ rfl _ v0 v1 p q) (broadcastTo_1b_ab_apply v4 _ p q)

/-- The first kernel's running column sum: what it held plus the block's column sum. -/
theorem pay04_apply (v0 : Vec Ideal S1024x784 .f32) (v1 : Vec Ideal S784x512 .f32) (v4 v17 : Vec Ideal S1x512 .f32)
    (q : Fin 512) :
    k0_pay4 (F := Ideal) v0 v1 v4 v17 (ix2 (0 : Fin 1) q)
      = v17 (ix2 (0 : Fin 1) q) + ∑ i : Fin 1024, k0_pay1 (F := Ideal) v0 v1 v4 (ix2 i q) := by
  unfold k0_pay4
  rw [shapeCast_self]
  refine (addf_apply _ _ _).trans (congrArg (v17 (ix2 (0 : Fin 1) q) + ·) ?_)
  refine (shapeCast_a_1a_apply _ _ 0 q).trans ?_
  exact multiReduction_add_col (k0_pay1 (F := Ideal) v0 v1 v4) _ _ _ _ q

/-- The first kernel's running sum of squares: what it held plus the block's column sum of squares. -/
theorem pay05_apply (v0 : Vec Ideal S1024x784 .f32) (v1 : Vec Ideal S784x512 .f32) (v4 v21 : Vec Ideal S1x512 .f32)
    (q : Fin 512) :
    k0_pay5 (F := Ideal) v0 v1 v4 v21 (ix2 (0 : Fin 1) q)
      = v21 (ix2 (0 : Fin 1) q)
        + ∑ i : Fin 1024, k0_pay1 (F := Ideal) v0 v1 v4 (ix2 i q) * k0_pay1 (F := Ideal) v0 v1 v4 (ix2 i q) := by
  unfold k0_pay5
  rw [shapeCast_self]
  refine (addf_apply _ _ _).trans (congrArg (v21 (ix2 (0 : Fin 1) q) + ·) ?_)
  refine (shapeCast_a_1a_apply _ _ 0 q).trans ?_
  exact multiReduction_add_col (mulf (k0_pay1 (F := Ideal) v0 v1 v4) (k0_pay1 (F := Ideal) v0 v1 v4)) _ _ _ _ q

/-- The zero row a kernel resets its running sums to. -/
theorem pay02_apply (q : Fin 512) : k0_pay2 (F := Ideal) (ix2 (0 : Fin 1) q) = 0 := Ideal.ofBits_zero_f32
theorem pay03_apply (q : Fin 512) : k0_pay3 (F := Ideal) (ix2 (0 : Fin 1) q) = 0 := Ideal.ofBits_zero_f32
theorem pay11_apply (q : Fin 512) : k1_pay1 (F := Ideal) (ix2 (0 : Fin 1) q) = 0 := Ideal.ofBits_zero_f32
theorem pay12_apply (q : Fin 512) : k1_pay2 (F := Ideal) (ix2 (0 : Fin 1) q) = 0 := Ideal.ofBits_zero_f32
theorem pay21_apply (q : Fin 512) : k2_pay1 (F := Ideal) (ix2 (0 : Fin 1) q) = 0 := Ideal.ofBits_zero_f32
theorem pay22_apply (q : Fin 512) : k2_pay2 (F := Ideal) (ix2 (0 : Fin 1) q) = 0 := Ideal.ofBits_zero_f32

/-- The second kernel's running column sum over a block of 2048 rows. -/
theorem pay13_apply (v38 : FVec Ideal S2048x512 .f32) (v48 : Vec Ideal S1x512 .f32) (q : Fin 512) :
    k1_pay3 (F := Ideal) v38 v48 (ix2 (0 : Fin 1) q) = v48 (ix2 (0 : Fin 1) q) + ∑ i : Fin 2048, v38 (ix2 i q) := by
  unfold k1_pay3
  rw [shapeCast_self]
  refine (addf_apply _ _ _).trans (congrArg (v48 (ix2 (0 : Fin 1) q) + ·) ?_)
  refine (shapeCast_a_1a_apply _ _ 0 q).trans ?_
  exact multiReduction_add_col v38 _ _ _ _ q

/-- The second kernel's running sum of squares over a block of 2048 rows. -/
theorem pay14_apply (v38 : FVec Ideal S2048x512 .f32) (v52 : Vec Ideal S1x512 .f32) (q : Fin 512) :
    k1_pay4 (F := Ideal) v38 v52 (ix2 (0 : Fin 1) q)
      = v52 (ix2 (0 : Fin 1) q) + ∑ i : Fin 2048, v38 (ix2 i q) * v38 (ix2 i q) := by
  unfold k1_pay4
  rw [shapeCast_self]
  refine (addf_apply _ _ _).trans (congrArg (v52 (ix2 (0 : Fin 1) q) + ·) ?_)
  refine (shapeCast_a_1a_apply _ _ 0 q).trans ?_
  exact multiReduction_add_col (mulf v38 v38) _ _ _ _ q

/-- The third kernel's running column sum. -/
theorem pay23_apply (v38 : FVec Ideal S2048x512 .f32) (v48 : Vec Ideal S1x512 .f32) (q : Fin 512) :
    k2_pay3 (F := Ideal) v38 v48 (ix2 (0 : Fin 1) q) = v48 (ix2 (0 : Fin 1) q) + ∑ i : Fin 2048, v38 (ix2 i q) := by
  unfold k2_pay3
  rw [shapeCast_self]
  refine (addf_apply _ _ _).trans (congrArg (v48 (ix2 (0 : Fin 1) q) + ·) ?_)
  refine (shapeCast_a_1a_apply _ _ 0 q).trans ?_
  exact multiReduction_add_col v38 _ _ _ _ q

/-- The third kernel's running sum of squares. -/
theorem pay24_apply (v38 : FVec Ideal S2048x512 .f32) (v52 : Vec Ideal S1x512 .f32) (q : Fin 512) :
    k2_pay4 (F := Ideal) v38 v52 (ix2 (0 : Fin 1) q)
      = v52 (ix2 (0 : Fin 1) q) + ∑ i : Fin 2048, v38 (ix2 i q) * v38 (ix2 i q) := by
  unfold k2_pay4
  rw [shapeCast_self]
  refine (addf_apply _ _ _).trans (congrArg (v52 (ix2 (0 : Fin 1) q) + ·) ?_)
  refine (shapeCast_a_1a_apply _ _ 0 q).trans ?_
  exact multiReduction_add_col (mulf v38 v38) _ _ _ _ q

end Cert.KernelIdeal.Pay

end
-- ==== Proof.Region0.lean ====
/-
  The first kernel launch read as values.

  The launch walks 64 blocks of 1024 rows of x. At each point its body writes the block's rows of
  h = x · sign(W)ᵀ + b into the first output's block, and adds the block's column sums of h and of h² into two
  one-row outputs whose block never moves; at the first point those two rows are first reset to zero. So after the
  launch the first output holds h row by row, and the two rows hold the column sums of h and of h² over all 65536
  rows: the running sums are an ordered chain over the points, and on the extended reals an ordered chain of
  additions is the sum.
-/
import proofs.«107829_j6700148982619_2_alg».proof.Proof.Gen.KernelIdeal.Frame
import proofs.«107829_j6700148982619_2_alg».proof.Proof.PayStats
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

theorem hz : (![0, 0] : Fin 2 → Nat) = fun _ => 0 := funext fun a => by fin_cases a <;> rfl

/-! ## What each case of the body leaves in each output's buffer -/

section Pieces
variable {F : FTy → Type} [FloatOps F]

/-- The block of h, at the first point. -/
theorem out_A_3 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond0_0 i) (x0 : Vec F S1024x784 .f32) (x1 : Vec F S784x512 .f32) (x2 : Vec F S1x512 .f32) :
    out0_A_3 c i a1 h1 a2 h2 a3 h3 a4 h4 a5 h5 a6 h6 hc x0 x1 x2 = k0_pay1 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S1024x784) hz, View.ld_unit_zero (S := S784x512) hz, View.ld_unit_zero (S := S1x512) hz]

/-- The block of h, at a later point. -/
theorem out_B_3 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S1024x784 .f32) (x1 : Vec F S784x512 .f32) (x2 xo4 xo5 : Vec F S1x512 .f32) :
    out0_B_3 c i a1 h1 a2 h2 a3 h3 a4 h4 a5 h5 a6 h6 hc x0 x1 x2 xo4 xo5 = k0_pay1 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S1024x784) hz, View.ld_unit_zero (S := S784x512) hz, View.ld_unit_zero (S := S1x512) hz]

/-- The running column sum after the first point: the reset row plus the block's column sums. -/
theorem out_A_4 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond0_0 i) (x0 : Vec F S1024x784 .f32) (x1 : Vec F S784x512 .f32) (x2 : Vec F S1x512 .f32) :
    out0_A_4 c i a1 h1 a2 h2 a3 h3 a4 h4 a5 h5 a6 h6 hc x0 x1 x2 = k0_pay4 x0 x1 x2 k0_pay2 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, View.ld_unit_zero (S := S1024x784) hz, View.ld_unit_zero (S := S784x512) hz, View.ld_unit_zero (S := S1x512) hz]

/-- The running column sum after a later point: what the row held plus the block's column sums. -/
theorem out_B_4 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S1024x784 .f32) (x1 : Vec F S784x512 .f32) (x2 xo4 xo5 : Vec F S1x512 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S1024x784) hz, View.ld_unit_zero (S := S784x512) hz, View.ld_unit_zero (S := S1x512) hz]

/-- The running column sum of squares after the first point. -/
theorem out_A_5 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond0_0 i) (x0 : Vec F S1024x784 .f32) (x1 : Vec F S784x512 .f32) (x2 : Vec F S1x512 .f32) :
    out0_A_5 c i a1 h1 a2 h2 a3 h3 a4 h4 a5 h5 a6 h6 hc x0 x1 x2 = k0_pay5 x0 x1 x2 k0_pay3 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, View.ld_unit_zero (S := S1024x784) hz, View.ld_unit_zero (S := S784x512) hz, View.ld_unit_zero (S := S1x512) hz]

/-- The running column sum of squares after a later point. -/
theorem out_B_5 (c : Dev nD) (i : grid0.Coords) (a1 : Memref sig .tc .vmem S1024x784 .f32) (h1 : a1.IsWhole) (a2 : Memref sig .tc .vmem S784x512 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S1024x784 .f32) (x1 : Vec F S784x512 .f32) (x2 xo4 xo5 : Vec F S1x512 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S1024x784) hz, View.ld_unit_zero (S := S784x512) hz, View.ld_unit_zero (S := S1x512) hz]

end Pieces

/-! ## The windows' blocks, read at an entry -/

/-- The printed index maps over the grid: the row-blocked windows sit at block (t, 0), the others at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A grid point as a block number among the 64 blocks. -/
def blk (t : Fin cfg0.N) : Fin 64 := ⟨t.val, lt_of_lt_of_eq t.isLt N_0⟩

variable (V : (c : Dev nD) → (b : Ref sig .tc) → Buf (Elt Ideal) ((c : Thread nD τ).loc b))

/-- The arrays the launch reads, as it finds them. -/
abbrev X (c : Dev nD) : S65536x784.Idx → EReal := V c (Pipeline.arrRef spec0 0)
abbrev Wt (c : Dev nD) : S784x512.Idx → EReal := V c (Pipeline.arrRef spec0 1)
abbrev Bi (c : Dev nD) : S1x512.Idx → EReal := V c (Pipeline.arrRef spec0 2)

/-- Row i of the x block at point t is row t·1024 + i of x. -/
theorem iblk_x (c : Dev nD) (t : Fin cfg0.N) (i : Fin 1024) (k : Fin 784) :
    (iblk0 V c 0 t : Vec Ideal S1024x784 .f32) (ix2 i k) = X V c (ix2 (blockRow (blk t) i) k) := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 1024 + 1 * i.val = t.val * 1024 + i.val; rw [e0]; omega
  | ⟨1, _⟩ => show win0_0.index t (1 : Fin 2) * 784 + 1 * k.val = k.val; rw [e1]; omega

/-- The weights' block is the whole array at every point. -/
theorem iblk_w (c : Dev nD) (t : Fin cfg0.N) (k : Fin 784) (q : Fin 512) :
    (iblk0 V c 1 t : Vec Ideal S784x512 .f32) (ix2 k q) = Wt V c (ix2 k q) := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 784 + 1 * k.val = k.val; rw [e0]; omega
  | ⟨1, _⟩ => show win0_1.index t (1 : Fin 2) * 512 + 1 * q.val = q.val; rw [e1]; omega

/-- The bias row's block is the whole row at every point. -/
theorem iblk_b (c : Dev nD) (t : Fin cfg0.N) (u : Fin 1) (q : Fin 512) :
    (iblk0 V c 2 t : Vec Ideal S1x512 .f32) (ix2 u q) = Bi V c (ix2 u q) := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * u.val = u.val; rw [e0]; omega
  | ⟨1, _⟩ => show win0_2.index t (1 : Fin 2) * 512 + 1 * q.val = q.val; rw [e1]; omega

/-! ## h, and the body's payloads on a block -/

/-- The first layer's pre-activation at row r, column q. -/
def H (c : Dev nD) (r : Fin 65536) (q : Fin 512) : EReal :=
  (∑ k : Fin 784, X V c (ix2 r k) * Wt V c (ix2 k q)) + Bi V c (ix2 (0 : Fin 1) q)

/-- The block the body stores at point t is h on the block's rows. -/
theorem pay1_blk (c : Dev nD) (t : Fin cfg0.N) (i : Fin 1024) (q : Fin 512) :
    k0_pay1 (F := Ideal) (iblk0 V c 0 t) (iblk0 V c 1 t) (iblk0 V c 2 t) (ix2 i q) = H V c (blockRow (blk t) i) q := by
  refine (Pay.pay01_apply (iblk0 V c 0 t) (iblk0 V c 1 t) (iblk0 V c 2 t) i q).trans ?_
  unfold H
  refine congrArg₂ (· + ·) (Finset.sum_congr rfl fun k _ => ?_) (iblk_b V c t 0 q)
  exact congrArg₂ (· * ·) (iblk_x V c t i k) (iblk_w V c t k q)

/-- The column sums of h and of h² over the rows of block t (zero past the last block). -/
def bsum (c : Dev nD) (t : ℕ) (q : Fin 512) : EReal :=
  if h : t < 64 then ∑ i : Fin 1024, H V c (blockRow (⟨t, h⟩ : Fin 64) i) q else 0
def bsq (c : Dev nD) (t : ℕ) (q : Fin 512) : EReal :=
  if h : t < 64 then ∑ i : Fin 1024, H V c (blockRow (⟨t, h⟩ : Fin 64) i) q * H V c (blockRow (⟨t, h⟩ : Fin 64) i) q else 0

theorem bsum_pt (c : Dev nD) (t : Fin cfg0.N) (q : Fin 512) :
    bsum V c t.val q = ∑ i : Fin 1024, k0_pay1 (F := Ideal) (iblk0 V c 0 t) (iblk0 V c 1 t) (iblk0 V c 2 t) (ix2 i q) := by
  unfold bsum
  rw [dif_pos (lt_of_lt_of_eq t.isLt N_0)]
  exact Finset.sum_congr rfl fun i _ => (pay1_blk V c t i q).symm

theorem bsq_pt (c : Dev nD) (t : Fin cfg0.N) (q : Fin 512) :
    bsq V c t.val q = ∑ i : Fin 1024, k0_pay1 (F := Ideal) (iblk0 V c 0 t) (iblk0 V c 1 t) (iblk0 V c 2 t) (ix2 i q)
      * k0_pay1 (F := Ideal) (iblk0 V c 0 t) (iblk0 V c 1 t) (iblk0 V c 2 t) (ix2 i q) := by
  unfold bsq
  rw [dif_pos (lt_of_lt_of_eq t.isLt N_0)]
  exact Finset.sum_congr rfl fun i _ => (congrArg₂ (· * ·) (pay1_blk V c t i q) (pay1_blk V c t i q)).symm

/-! ## The outputs' buffers after each point -/

/-- After the first point: the block of h, and the two rows reset and then increased by the block's sums. -/
theorem outs_A (c : Dev nD) (t : Fin cfg0.N) (h0 : t.val % 64 = 0) :
    outsAt0 V c t.val t.isLt = (k0_pay1 (F := Ideal) (iblk0 V c 0 t) (iblk0 V c 1 t) (iblk0 V c 2 t),
      k0_pay4 (F := Ideal) (iblk0 V c 0 t) (iblk0 V c 1 t) (iblk0 V c 2 t) (k0_pay2 (F := Ideal)), k0_pay5 (F := Ideal) (iblk0 V c 0 t) (iblk0 V c 1 t) (iblk0 V c 2 t) (k0_pay3 (F := Ideal))) :=
  (outsAt0_A V c t h0).trans (congrArg₂ Prod.mk
    (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))))

/-- After a later point: the block of h, and the two rows as the point before left them, increased by the block's sums. -/
theorem outs_B (c : Dev nD) (t : Fin cfg0.N) (h0 : ¬t.val % 64 = 0) :
    outsAt0 V c t.val t.isLt = (k0_pay1 (F := Ideal) (iblk0 V c 0 t) (iblk0 V c 1 t) (iblk0 V c 2 t),
      k0_pay4 (F := Ideal) (iblk0 V c 0 t) (iblk0 V c 1 t) (iblk0 V c 2 t) (outsAt0 V c (t.val - 1) (Nat.lt_of_le_of_lt (Nat.sub_le _ _) t.isLt)).2.1,
      k0_pay5 (F := Ideal) (iblk0 V c 0 t) (iblk0 V c 1 t) (iblk0 V c 2 t) (outsAt0 V c (t.val - 1) (Nat.lt_of_le_of_lt (Nat.sub_le _ _) t.isLt)).2.2) :=
  (outsAt0_B V c t h0).trans (congrArg₂ Prod.mk
    (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2)
    (congrArg₂ Prod.mk
      (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
        (outsAt0 V c (t.val - 1) (Nat.lt_of_le_of_lt (Nat.sub_le _ _) t.isLt)).2.1
        (outsAt0 V c (t.val - 1) (Nat.lt_of_le_of_lt (Nat.sub_le _ _) t.isLt)).2.2)
      (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
        (outsAt0 V c (t.val - 1) (Nat.lt_of_le_of_lt (Nat.sub_le _ _) t.isLt)).2.1
        (outsAt0 V c (t.val - 1) (Nat.lt_of_le_of_lt (Nat.sub_le _ _) t.isLt)).2.2)))

/-- The block of h after any point. -/
theorem outs_h (c : Dev nD) (t : Fin cfg0.N) :
    (outsAt0 V c t.val t.isLt).1 = k0_pay1 (F := Ideal) (iblk0 V c 0 t) (iblk0 V c 1 t) (iblk0 V c 2 t) := by
  by_cases h0 : t.val % 64 = 0
  · rw [outs_A V c t h0]
  · rw [outs_B V c t h0]

/-- The running sums after point n are the sums of the blocks' sums up to n: by induction on the point. -/
theorem outs_sums (c : Dev nD) (q : Fin 512) : ∀ (n : ℕ) (hn : n < cfg0.N),
    (outsAt0 V c n hn).2.1 (ix2 (0 : Fin 1) q) = ∑ t ∈ Finset.range (n + 1), bsum V c t q
    ∧ (outsAt0 V c n hn).2.2 (ix2 (0 : Fin 1) q) = ∑ t ∈ Finset.range (n + 1), bsq V c t q
  | 0, hn => by
    have e := outs_A V c ⟨0, hn⟩ rfl
    dsimp only at e
    rw [e]
    dsimp only
    rw [Finset.sum_range_one, Finset.sum_range_one]
    constructor
    · refine (Pay.pay04_apply _ _ _ _ q).trans ?_
      rw [Pay.pay02_apply, zero_add]
      exact (bsum_pt V c ⟨0, hn⟩ q).symm
    · refine (Pay.pay05_apply _ _ _ _ q).trans ?_
      rw [Pay.pay03_apply, zero_add]
      exact (bsq_pt V c ⟨0, hn⟩ q).symm
  | n + 1, hn => by
    have hN : cfg0.N = 64 := N_0
    have hB : ¬(⟨n + 1, hn⟩ : Fin cfg0.N).val % 64 = 0 := by dsimp only; omega
    have e := outs_B V c ⟨n + 1, hn⟩ hB
    dsimp only at e
    obtain ⟨ih1, ih2⟩ := outs_sums c q n (Nat.lt_of_succ_lt hn)
    rw [e]
    dsimp only
    rw [Finset.sum_range_succ _ (n + 1), Finset.sum_range_succ _ (n + 1)]
    constructor
    · refine (Pay.pay04_apply _ _ _ _ q).trans ?_
      refine congrArg₂ (· + ·) ?_ (bsum_pt V c ⟨n + 1, hn⟩ q).symm
      exact ih1
    · refine (Pay.pay05_apply _ _ _ _ q).trans ?_
      refine congrArg₂ (· + ·) ?_ (bsq_pt V c ⟨n + 1, hn⟩ q).symm
      exact ih2

/-! ## The three arrays after the launch -/

/-- h as an array. -/
def Harr (c : Dev nD) : S65536x512.Idx → EReal := fun j => H V c (j 0) (j 1)
theorem Harr_apply (c : Dev nD) (r : Fin 65536) (q : Fin 512) : Harr V c (ix2 r q) = H V c r q := rfl

/-- What point t writes back into the first output is block t of h. -/
theorem flushed3_eq (c : Dev nD) (t : Fin cfg0.N) :
    (dat0 (F := Ideal) V c).flushed 3 t = ((cfg0.win 3).blk t).view.read (Elt Ideal) (Harr V c) := by
  obtain ⟨-, -, -, -, -, -, e0, e1, -⟩ := idx_facts t
  show (cfg0.win 3).cut (grid0.coords t) ((dat0 (F := Ideal) V c).after 3 t) = _
  rw [after0_3, outs_h]
  funext j
  obtain ⟨i, q, rfl⟩ : ∃ (i : Fin 1024) (q : Fin 512), j = ix2 i q := ⟨j 0, j 1, eq_ix2 j⟩
  rw [View.read_apply]
  refine (pay1_blk V c t i q).trans ?_
  show H V c _ _ = H V c _ _
  refine congrArg₂ (H V c) (Fin.ext ?_) (Fin.ext ?_)
  · show t.val * 1024 + i.val = win0_3.index t (0 : Fin 2) * 1024 + 1 * i.val
    rw [e0]; omega
  · show q.val = win0_3.index t (1 : Fin 2) * 512 + 1 * q.val
    rw [e1]; omega

/-- The first output ends holding h: row r lies in block r / 1024. -/
theorem arr3 (c : Dev nD) : (dat0 (F := Ideal) V c).arrAt 3 cfg0.N = Harr V c :=
  (dat0 (F := Ideal) V c).arrAt_eq_of_cover 3 (Harr V c) (fun t _ => flushed3_eq V c t) fun i => by
    have hi0 : (i 0).val < 65536 := (i 0).isLt
    have hi1 : (i 1).val < 512 := (i 1).isLt
    have hN : cfg0.N = 64 := N_0
    obtain ⟨t, ht⟩ : ∃ t : Fin cfg0.N, t.val = (i 0).val / 1024 := ⟨⟨(i 0).val / 1024, by rw [hN]; omega⟩, rfl⟩
    obtain ⟨-, -, -, -, -, -, e0, e1, -⟩ := idx_facts t
    refine ⟨t, flush0_3 t, ?_⟩
    show i ∈ ((View.whole main_v3_0).slice (win0_3.rect t)).set
    rw [View.set_slice_whole, Rect.mem_set_unit]
    intro a
    match a with
    | ⟨0, _⟩ =>
      show win0_3.index t (0 : Fin 2) * 1024 ≤ (i 0).val ∧ (i 0).val < win0_3.index t (0 : Fin 2) * 1024 + 1024
      rw [e0, ht]; omega
    | ⟨1, _⟩ =>
      show win0_3.index t (1 : Fin 2) * 512 ≤ (i 1).val ∧ (i 1).val < win0_3.index t (1 : Fin 2) * 512 + 512
      rw [e1]; omega

/-- The blocks' sums add up to the sums over all 65536 rows. -/
theorem sum_bsum (c : Dev nD) (q : Fin 512) : ∑ t ∈ Finset.range 64, bsum V c t q = ∑ r : Fin 65536, H V c r q := by
  rw [Finset.sum_range]
  refine Eq.trans (Finset.sum_congr rfl fun t _ => ?_) (sum_blocks 64 1024 (fun r => H V c r q)).symm
  unfold bsum
  rw [dif_pos t.isLt]
theorem sum_bsq (c : Dev nD) (q : Fin 512) :
    ∑ t ∈ Finset.range 64, bsq V c t q = ∑ r : Fin 65536, H V c r q * H V c r q := by
  rw [Finset.sum_range]
  refine Eq.trans (Finset.sum_congr rfl fun t _ => ?_) (sum_blocks 64 1024 (fun r => H V c r q * H V c r q)).symm
  unfold bsq
  rw [dif_pos t.isLt]

/-- The column sums of h and of h² as one-row arrays. -/
def S1arr (c : Dev nD) : S1x512.Idx → EReal := fun j => ∑ r : Fin 65536, H V c r (j 1)
def S2arr (c : Dev nD) : S1x512.Idx → EReal := fun j => ∑ r : Fin 65536, H V c r (j 1) * H V c r (j 1)
theorem S1arr_eq (c : Dev nD) (y : S1x512.Idx) : S1arr V c y = ∑ r : Fin 65536, H V c r (y 1) := rfl
theorem S2arr_eq (c : Dev nD) (y : S1x512.Idx) :
    S2arr V c y = ∑ r : Fin 65536, H V c r (y 1) * H V c r (y 1) := rfl
theorem S1arr_apply (c : Dev nD) (u : Fin 1) (q : Fin 512) : S1arr V c (ix2 u q) = ∑ r : Fin 65536, H V c r q := rfl
theorem S2arr_apply (c : Dev nD) (u : Fin 1) (q : Fin 512) :
    S2arr V c (ix2 u q) = ∑ r : Fin 65536, H V c r q * H V c r q := rfl

/-- The one write-back of the second output, at the last point, writes the column sums of h. -/
theorem flushed4_eq (c : Dev nD) (t : Fin cfg0.N) (hf : (cfg0.win 4).flush t = true) :
    (dat0 (F := Ideal) V c).flushed 4 t = ((cfg0.win 4).blk t).view.read (Elt Ideal) (S1arr V c) := by
  have hN : cfg0.N = 64 := N_0
  have h63 : t.val = 63 := by have := (flush0_4 t).mp hf; have := t.isLt; omega
  obtain ⟨-, -, -, -, -, -, -, -, e0, e1, -⟩ := idx_facts t
  show (cfg0.win 4).cut (grid0.coords t) ((dat0 (F := Ideal) V c).after 4 t) = _
  rw [after0_4]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).1).trans ?_
  have eq : (((cfg0.win 4).blk t).view.emb (ix2 (0 : Fin 1) q)) 1 = q := Fin.ext (by
    show win0_4.index t (1 : Fin 2) * 512 + 1 * q.val = q.val
    rw [e1]; omega)
  rw [h63, sum_bsum, S1arr_eq, eq]
  exact (cast_eq _ _).symm

theorem flushed5_eq (c : Dev nD) (t : Fin cfg0.N) (hf : (cfg0.win 5).flush t = true) :
    (dat0 (F := Ideal) V c).flushed 5 t = ((cfg0.win 5).blk t).view.read (Elt Ideal) (S2arr V c) := by
  have hN : cfg0.N = 64 := N_0
  have h63 : t.val = 63 := by have := (flush0_5 t).mp hf; have := t.isLt; omega
  obtain ⟨-, -, -, -, -, -, -, -, -, -, e0, e1⟩ := idx_facts t
  show (cfg0.win 5).cut (grid0.coords t) ((dat0 (F := Ideal) V c).after 5 t) = _
  rw [after0_5]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).2).trans ?_
  have eq : (((cfg0.win 5).blk t).view.emb (ix2 (0 : Fin 1) q)) 1 = q := Fin.ext (by
    show win0_5.index t (1 : Fin 2) * 512 + 1 * q.val = q.val
    rw [e1]; omega)
  rw [h63, sum_bsq, S2arr_eq, eq]
  exact (cast_eq _ _).symm

/-- The last point's block covers the whole one-row array. -/
theorem arr4 (c : Dev nD) : (dat0 (F := Ideal) V c).arrAt 4 cfg0.N = S1arr V c :=
  (dat0 (F := Ideal) V c).arrAt_eq_of_cover 4 (S1arr V c) (flushed4_eq V c) fun i => by
    have hi0 : (i 0).val < 1 := (i 0).isLt
    have hi1 : (i 1).val < 512 := (i 1).isLt
    have hN : cfg0.N = 64 := N_0
    obtain ⟨t, ht⟩ : ∃ t : Fin cfg0.N, t.val = 63 := ⟨⟨63, by rw [hN]; omega⟩, rfl⟩
    obtain ⟨-, -, -, -, -, -, -, -, e0, e1, -⟩ := idx_facts t
    refine ⟨t, (flush0_4 t).mpr (by rw [ht]), ?_⟩
    show i ∈ ((View.whole main_v3_1).slice (win0_4.rect t)).set
    rw [View.set_slice_whole, Rect.mem_set_unit]
    intro a
    match a with
    | ⟨0, _⟩ =>
      show win0_4.index t (0 : Fin 2) * 1 ≤ (i 0).val ∧ (i 0).val < win0_4.index t (0 : Fin 2) * 1 + 1
      rw [e0]; omega
    | ⟨1, _⟩ =>
      show win0_4.index t (1 : Fin 2) * 512 ≤ (i 1).val ∧ (i 1).val < win0_4.index t (1 : Fin 2) * 512 + 512
      rw [e1]; omega

theorem arr5 (c : Dev nD) : (dat0 (F := Ideal) V c).arrAt 5 cfg0.N = S2arr V c :=
  (dat0 (F := Ideal) V c).arrAt_eq_of_cover 5 (S2arr V c) (flushed5_eq V c) fun i => by
    have hi0 : (i 0).val < 1 := (i 0).isLt
    have hi1 : (i 1).val < 512 := (i 1).isLt
    have hN : cfg0.N = 64 := N_0
    obtain ⟨t, ht⟩ : ∃ t : Fin cfg0.N, t.val = 63 := ⟨⟨63, by rw [hN]; omega⟩, rfl⟩
    obtain ⟨-, -, -, -, -, -, -, -, -, -, e0, e1⟩ := idx_facts t
    refine ⟨t, (flush0_5 t).mpr (by rw [ht]), ?_⟩
    show i ∈ ((View.whole main_v3_2).slice (win0_5.rect t)).set
    rw [View.set_slice_whole, Rect.mem_set_unit]
    intro a
    match a with
    | ⟨0, _⟩ =>
      show win0_5.index t (0 : Fin 2) * 1 ≤ (i 0).val ∧ (i 0).val < win0_5.index t (0 : Fin 2) * 1 + 1
      rw [e0]; omega
    | ⟨1, _⟩ =>
      show win0_5.index t (1 : Fin 2) * 512 ≤ (i 1).val ∧ (i 1).val < win0_5.index t (1 : Fin 2) * 512 + 512
      rw [e1]; omega

end Cert.KernelIdeal.Reg0

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.PayBn.lean ====
/-
  The batch-normalised sign activation feeding a matrix product, and the log-softmax head, read at one entry at the
  exact values.

  A kernel of the second kind takes a block of the previous layer's pre-activations, the layer's column means and
  variances and its scale and shift rows, forms (h - μ)·(σ² + ε)^(-1/2)·g + be entry by entry, takes its sign (the
  printed select on the sign bit is the sign function, zero at zero), and multiplies the block of signs by the next
  layer's weights, adding the bias row. The last kernel does the same into ten logits per row and then subtracts the
  row's maximum and the logarithm of the row's sum of exponentials of the shifted logits.
-/
import proofs.«107829_j6700148982619_2_alg».proof.Proof.Gen.KernelIdeal.Skeleton
import proofs.«107829_j6700148982619_2_alg».proof.Proof.LibPlainMatmul
import proofs.«107829_j6700148982619_2_alg».proof.Proof.LibRowReduce
import proofs.«107829_j6700148982619_2_alg».proof.Proof.LibKeepdims
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- One batch-normalised entry from the pre-activation, the column's mean and variance, and the scale and shift. -/
def bnEntry (h mu var g be : EReal) : EReal :=
  (h - mu) * Ideal.rsqrt (var + Ideal.ofBits .f32 0x3727C5AC#32) * g + be

/-- Entry (p, q) of the second kernel's block: the signs of row p's normalised entries against column q of the
    weights, plus the bias. -/
theorem pay15_apply (v0 : Vec Ideal S2048x512 .f32) (v2 v4 v6 v8 : Vec Ideal S1x512 .f32) (v32 : Vec Ideal S512x512 .bf16)
    (v35 : Vec Ideal S1x512 .f32) (p : Fin 2048) (q : Fin 512) :
    k1_pay5 (F := Ideal) v0 v2 v4 v6 v8 v32 v35 (ix2 p q)
      = (∑ k : Fin 512, Ideal.sign (bnEntry (v0 (ix2 p k)) (v2 (ix2 (0 : Fin 1) k)) (v4 (ix2 (0 : Fin 1) k))
            (v6 (ix2 (0 : Fin 1) k)) (v8 (ix2 (0 : Fin 1) k))) * v32 (ix2 k q))
        + v35 (ix2 (0 : Fin 1) q) := by
  unfold k1_pay5
  rw [shapeCast_self, shapeCast_self, shapeCast_self, shapeCast_self, shapeCast_self, shapeCast_self, shapeCast_self]
  refine (addf_apply _ _ _).trans (congrArg₂ (· + ·) ?_ (broadcastTo_1b_ab_apply v35 _ p q))
  refine (matmul_plain_zero_apply_fmt (φ₁ := .bf16) (φ₂ := .bf16) _ rfl none _ v32 p q).trans (Finset.sum_congr rfl fun k _ => congrArg (· * v32 (ix2 k q)) ?_)
  refine (Ideal.jnp_sign_eq_sign_f32 _).trans (congrArg Ideal.sign ?_)
  show ((v0 (ix2 p k) - _) * _) * _ + _ = _
  rw [broadcastTo_1b_ab_apply v2 _ p k, broadcastTo_1b_ab_apply v6 _ p k, broadcastTo_1b_ab_apply v8 _ p k,
    broadcastTo_1b_ab_apply _ _ p k]
  rfl

/-- The same entry of the third kernel's block. -/
theorem pay25_apply (v0 : Vec Ideal S2048x512 .f32) (v2 v4 v6 v8 : Vec Ideal S1x512 .f32) (v32 : Vec Ideal S512x512 .bf16)
    (v35 : Vec Ideal S1x512 .f32) (p : Fin 2048) (q : Fin 512) :
    k2_pay5 (F := Ideal) v0 v2 v4 v6 v8 v32 v35 (ix2 p q)
      = (∑ k : Fin 512, Ideal.sign (bnEntry (v0 (ix2 p k)) (v2 (ix2 (0 : Fin 1) k)) (v4 (ix2 (0 : Fin 1) k))
            (v6 (ix2 (0 : Fin 1) k)) (v8 (ix2 (0 : Fin 1) k))) * v32 (ix2 k q))
        + v35 (ix2 (0 : Fin 1) q) := by
  unfold k2_pay5
  rw [shapeCast_self, shapeCast_self, shapeCast_self, shapeCast_self, shapeCast_self, shapeCast_self, shapeCast_self]
  refine (addf_apply _ _ _).trans (congrArg₂ (· + ·) ?_ (broadcastTo_1b_ab_apply v35 _ p q))
  refine (matmul_plain_zero_apply_fmt (φ₁ := .bf16) (φ₂ := .bf16) _ rfl none _ v32 p q).trans (Finset.sum_congr rfl fun k _ => congrArg (· * v32 (ix2 k q)) ?_)
  refine (Ideal.jnp_sign_eq_sign_f32 _).trans (congrArg Ideal.sign ?_)
  show ((v0 (ix2 p k) - _) * _) * _ + _ = _
  rw [broadcastTo_1b_ab_apply v2 _ p k, broadcastTo_1b_ab_apply v6 _ p k, broadcastTo_1b_ab_apply v8 _ p k,
    broadcastTo_1b_ab_apply _ _ p k]
  rfl

/-- Logit (p, q) of the last kernel's block. -/
theorem pay32_apply (v0 : Vec Ideal S2048x512 .f32) (v2 v4 v6 v8 : Vec Ideal S1x512 .f32) (v32 : Vec Ideal S512x10 .bf16)
    (v35 : Vec Ideal S1x10 .f32) (p : Fin 2048) (q : Fin 10) :
    k3_pay2 (F := Ideal) v0 v2 v4 v6 v8 v32 v35 (ix2 p q)
      = (∑ k : Fin 512, Ideal.sign (bnEntry (v0 (ix2 p k)) (v2 (ix2 (0 : Fin 1) k)) (v4 (ix2 (0 : Fin 1) k))
            (v6 (ix2 (0 : Fin 1) k)) (v8 (ix2 (0 : Fin 1) k))) * v32 (ix2 k q))
        + v35 (ix2 (0 : Fin 1) q) := by
  unfold k3_pay2
  rw [shapeCast_self, shapeCast_self, shapeCast_self, shapeCast_self, shapeCast_self, shapeCast_self, shapeCast_self]
  refine (addf_apply _ _ _).trans (congrArg₂ (· + ·) ?_ (broadcastTo_1b_ab_apply v35 _ p q))
  refine (matmul_plain_zero_apply_fmt (φ₁ := .bf16) (φ₂ := .bf16) _ rfl none _ v32 p q).trans (Finset.sum_congr rfl fun k _ => congrArg (· * v32 (ix2 k q)) ?_)
  refine (Ideal.jnp_sign_eq_sign_f32 _).trans (congrArg Ideal.sign ?_)
  show ((v0 (ix2 p k) - _) * _) * _ + _ = _
  rw [broadcastTo_1b_ab_apply v2 _ p k, broadcastTo_1b_ab_apply v6 _ p k, broadcastTo_1b_ab_apply v8 _ p k,
    broadcastTo_1b_ab_apply _ _ p k]
  rfl

/-- The row maximum of the last kernel's logits, repeated along the row: a fold of max from -∞'s pattern. -/
theorem pay33_apply (v0 : Vec Ideal S2048x512 .f32) (v2 v4 v6 v8 : Vec Ideal S1x512 .f32) (v32 : Vec Ideal S512x10 .bf16)
    (v35 : Vec Ideal S1x10 .f32) (p : Fin 2048) (q : Fin 10) :
    k3_pay3 (F := Ideal) v0 v2 v4 v6 v8 v32 v35 (ix2 p q)
      = (Finset.univ : Finset (Fin 10)).fold max (Ideal.ofBits .f32 0xFF800000#32)
          (fun k => k3_pay2 (F := Ideal) v0 v2 v4 v6 v8 v32 v35 (ix2 p k)) := by
  unfold k3_pay3
  refine (broadcastTo_a1_ab_apply _ _ p q).trans ?_
  refine (shapeCast_a_a1_apply _ _ p 0).trans ?_
  exact multiReduction_max_row (k3_pay2 (F := Ideal) v0 v2 v4 v6 v8 v32 v35) _ _ _ _ p

/-- The log-softmax entry from the logits l and the repeated row maximum mx. -/
theorem pay31_apply (l mx : FVec Ideal S2048x10 .f32) (p : Fin 2048) (q : Fin 10) :
    k3_pay1 (F := Ideal) l mx (ix2 p q)
      = (l (ix2 p q) - mx (ix2 p q)) - Ideal.log (∑ k : Fin 10, Ideal.exp (l (ix2 p k) - mx (ix2 p k))) := by
  unfold k3_pay1
  refine (subf_apply _ _ _).trans (congrArg ((l (ix2 p q) - mx (ix2 p q)) - ·) ?_)
  refine (broadcastTo_a1_ab_apply _ _ p q).trans ?_
  show Ideal.log (shapeCast S2048x1 _ _ (ix2 p (0 : Fin 1))) = _
  refine congrArg Ideal.log ?_
  refine (shapeCast_a_a1_apply _ _ p 0).trans ?_
  exact multiReduction_add_row (exp (subf l mx)) _ _ _ _ p

end Cert.KernelIdeal.Pay

end
-- ==== Proof.ChainStep.lean ====
/-
  One stage of the kernel's pipeline in the interface's terms.

  Between two launches the host divides the two accumulated rows by the number of rows and subtracts the squared mean
  from the mean of squares; the next launch normalises with those two rows. If the arrays a launch finds are, entry by
  entry, a pre-activation h, its column mean and its variance from the squares, a scale, a shift, the signs of the next
  weights laid transposed and the next bias, then the pre-activation the launch writes is the next linear layer applied
  to the sign activation of the batch-normalised h; with the weights themselves in place of their signs, it is the
  logits of the head.
-/
import proofs.«107829_j6700148982619_2_alg».proof.Proof.PayBn
import proofs.«107829_j6700148982619_2_alg».proof.Proof.Network
import proofs.«107829_j6700148982619_2_alg».proof.Proof.LibBroadcastInDim

noncomputable section

open Idealize.ShloMosaic Idealize.ShloMosaic.ValueIdx

namespace Cert.KernelIdeal.Chain

/-- The literals both programs use for the number of rows and for the small constant under the square root. -/
abbrev CNT : EReal := Ideal.ofBits .f32 0x47800000#32
abbrev EPS : EReal := Ideal.ofBits .f32 0x3727C5AC#32

variable {M : ℕ}

/-- The new pre-activation from entry arrays that are h, its mean and variance, scale, shift, weights and bias. -/
theorem hidden_step (Hin : (⟨2, ![65536, 512]⟩ : Shape).Idx → EReal) (Mu Va Ga Be : (⟨2, ![1, 512]⟩ : Shape).Idx → EReal)
    (Wt : (⟨2, ![512, M]⟩ : Shape).Idx → EReal) (Bi : (⟨2, ![1, M]⟩ : Shape).Idx → EReal)
    (h : Fin 65536 → Fin 512 → EReal) (g be : Fin 512 → EReal) (w : Fin M → Fin 512 → EReal) (b : Fin M → EReal)
    (hH : ∀ r k, Hin (ix2 r k) = h r k)
    (hMu : ∀ k, Mu (ix2 (0 : Fin 1) k) = Network.mean CNT h k)
    (hVa : ∀ k, Va (ix2 (0 : Fin 1) k) = Network.varOfSquares CNT h k)
    (hG : ∀ k, Ga (ix2 (0 : Fin 1) k) = g k) (hBe : ∀ k, Be (ix2 (0 : Fin 1) k) = be k)
    (hW : ∀ k q, Wt (ix2 k q) = w q k) (hB : ∀ q, Bi (ix2 (0 : Fin 1) q) = b q)
    (r : Fin 65536) (q : Fin M) :
    (∑ k : Fin 512, Ideal.sign (Pay.bnEntry (Hin (ix2 r k)) (Mu (ix2 (0 : Fin 1) k)) (Va (ix2 (0 : Fin 1) k))
        (Ga (ix2 (0 : Fin 1) k)) (Be (ix2 (0 : Fin 1) k))) * Wt (ix2 k q)) + Bi (ix2 (0 : Fin 1) q)
      = Network.lin (Network.hiddenA CNT EPS h g be) w b r q := by
  unfold Network.lin Network.hiddenA Network.actSign Network.normed Pay.bnEntry
  rw [hB]
  refine congrArg (· + b q) (Finset.sum_congr rfl fun k _ => ?_)
  rw [hH, hMu, hVa, hG, hBe, hW]

end Cert.KernelIdeal.Chain

end
-- ==== Proof.Chain0.lean ====
/-
  The first layer's pre-activation as the first kernel launch computes it, in terms of the program's arguments.

  Before the first launch the host takes the signs of the first weight matrix, transposes them, and lays the first
  bias as a row. The launch reads x unchanged. So the h it writes is x · sign(W1)ᵀ + b1, entry by entry.
-/
import proofs.«107829_j6700148982619_2_alg».proof.Proof.Region0
import proofs.«107829_j6700148982619_2_alg».proof.Proof.Network
import proofs.«107829_j6700148982619_2_alg».proof.Proof.ChainStep
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- The fifteen argument arrays at launch, by plain coordinates. -/
def x (c : Dev nD) (r : Fin 65536) (k : Fin 784) : EReal := m ((c : Thread nD τ).loc main_arg0) (ix2 r k)
def w1 (c : Dev nD) (j : Fin 512) (k : Fin 784) : EReal := m ((c : Thread nD τ).loc main_arg1) (ix2 j k)
def b1 (c : Dev nD) (j : Fin 512) : EReal := m ((c : Thread nD τ).loc main_arg2) (ix1 j)
def g1 (c : Dev nD) (j : Fin 512) : EReal := m ((c : Thread nD τ).loc main_arg3) (ix1 j)
def be1 (c : Dev nD) (j : Fin 512) : EReal := m ((c : Thread nD τ).loc main_arg4) (ix1 j)
def w2 (c : Dev nD) (j : Fin 512) (k : Fin 512) : EReal := m ((c : Thread nD τ).loc main_arg5) (ix2 j k)
def b2 (c : Dev nD) (j : Fin 512) : EReal := m ((c : Thread nD τ).loc main_arg6) (ix1 j)
def g2 (c : Dev nD) (j : Fin 512) : EReal := m ((c : Thread nD τ).loc main_arg7) (ix1 j)
def be2 (c : Dev nD) (j : Fin 512) : EReal := m ((c : Thread nD τ).loc main_arg8) (ix1 j)
def w3 (c : Dev nD) (j : Fin 512) (k : Fin 512) : EReal := m ((c : Thread nD τ).loc main_arg9) (ix2 j k)
def b3 (c : Dev nD) (j : Fin 512) : EReal := m ((c : Thread nD τ).loc main_arg10) (ix1 j)
def g3 (c : Dev nD) (j : Fin 512) : EReal := m ((c : Thread nD τ).loc main_arg11) (ix1 j)
def be3 (c : Dev nD) (j : Fin 512) : EReal := m ((c : Thread nD τ).loc main_arg12) (ix1 j)
def w4 (c : Dev nD) (j : Fin 10) (k : Fin 512) : EReal := m ((c : Thread nD τ).loc main_arg13) (ix2 j k)
def b4 (c : Dev nD) (j : Fin 10) : EReal := m ((c : Thread nD τ).loc main_arg14) (ix1 j)

/-- The first layer's pre-activation. -/
def h1 (c : Dev nD) : Fin 65536 → Fin 512 → EReal := Network.lin (x m c) (Network.sgn (w1 m c)) (b1 m c)

theorem V1_arg0 (c : Dev nD) : V1 m ρ c main_arg0 = m ((c : Thread nD τ).loc main_arg0) := by
  show StableHlo.after hostOps0 (W0 m ρ c) (Proc.devRef .tc main_arg0) = _
  after_results

theorem V1_v1 (c : Dev nD) : (V1 m ρ c main_v1 : S784x512.Idx → EReal)
    = transpose (α := EReal) S784x512 [1, 0]
        (Host.sign (F := Ideal) (s := S512x784) (φ := .f32) (m ((c : Thread nD τ).loc main_arg1)))
        transposes_S512x784_S784x512_1_0 := by
  show StableHlo.after hostOps0 (W0 m ρ c) (Proc.devRef .tc main_v1) = _
  after_results
  try rfl

theorem V1_v2 (c : Dev nD) : (V1 m ρ c main_v2 : S1x512.Idx → EReal)
    = shapeCast (α := EReal) (s := S512) S1x512 (m ((c : Thread nD τ).loc main_arg2)) shapeCasts_S512_S1x512 := by
  show StableHlo.after hostOps0 (W0 m ρ c) (Proc.devRef .tc main_v2) = _
  after_results
  try rfl

/-- The h of the first launch is x · sign(W1)ᵀ + b1. -/
theorem h1_eq (c : Dev nD) (r : Fin 65536) (q : Fin 512) :
    Reg0.H (V1 m ρ) c r q = h1 m c r q := by
  unfold Reg0.H h1 Network.lin Network.sgn x w1 b1
  refine congrArg₂ (· + ·) (Finset.sum_congr rfl fun k _ => congrArg₂ (· * ·) ?_ ?_) ?_
  · show V1 m ρ c main_arg0 (ix2 r k) = _
    rw [V1_arg0]
  · show V1 m ρ c main_v1 (ix2 k q) = _
    rw [V1_v1]
    exact transpose_ix2_apply _ _ k q
  · show V1 m ρ c main_v2 (ix2 (0 : Fin 1) q) = _
    rw [V1_v2]
    exact shapeCast_a_1a_apply _ _ 0 q

end Cert.KernelIdeal.Chain

end
-- ==== Proof.Region1.lean ====
/-
  A batch-normalising kernel launch read as values.

  The launch walks 32 blocks of 2048 rows of the previous layer's pre-activations h. At each point its body forms
  sign((h - μ)·(σ² + ε)^(-1/2)·g + be) on the block, multiplies by the next layer's weights and adds the bias row into
  the first output's block, and adds the block's column sums of the new pre-activations and of their squares into two
  one-row outputs whose block never moves; at the first point those two rows are first reset to zero. So after the
  launch the first output holds the new pre-activations row by row, and the two rows hold their column sums and
  column sums of squares over all 65536 rows.
-/
import proofs.«107829_j6700148982619_2_alg».proof.Proof.Gen.KernelIdeal.Frame
import proofs.«107829_j6700148982619_2_alg».proof.Proof.PayStats
import proofs.«107829_j6700148982619_2_alg».proof.Proof.PayBn
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

theorem hz : (![0, 0] : Fin 2 → Nat) = fun _ => 0 := funext fun a => by fin_cases a <;> rfl

/-! ## What each case of the body leaves in each output's buffer -/

section Pieces
variable {F : FTy → Type} [FloatOps F]

/-- The block of new pre-activations, at the first point. -/
theorem out_A_7 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond1_0 i) (x0 : Vec F S2048x512 .f32) (x1 x2 x3 x4 : Vec F S1x512 .f32) (x5 : Vec F S512x512 .bf16) (x6 : Vec F S1x512 .f32) :
    out1_A_7 c i a1 h1 a2 h2 a3 h3 a4 h4 a5 h5 a6 h6 a7 h7 a8 h8 a9 h9 a10 h10 hc x0 x1 x2 x3 x4 x5 x6 = k1_pay5 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The block of new pre-activations, at a later point. -/
theorem out_B_7 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond1_0 i) (x0 : Vec F S2048x512 .f32) (x1 x2 x3 x4 : Vec F S1x512 .f32) (x5 : Vec F S512x512 .bf16) (x6 : Vec F S1x512 .f32) (xo8 xo9 : Vec F S1x512 .f32) :
    out1_B_7 c i a1 h1 a2 h2 a3 h3 a4 h4 a5 h5 a6 h6 a7 h7 a8 h8 a9 h9 a10 h10 hc x0 x1 x2 x3 x4 x5 x6 xo8 xo9 = k1_pay5 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

/-- The running column sum after the first point: the reset row plus the block's column sums. -/
theorem out_A_8 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond1_0 i) (x0 : Vec F S2048x512 .f32) (x1 x2 x3 x4 : Vec F S1x512 .f32) (x5 : Vec F S512x512 .bf16) (x6 : Vec F S1x512 .f32) :
    out1_A_8 c i a1 h1 a2 h2 a3 h3 a4 h4 a5 h5 a6 h6 a7 h7 a8 h8 a9 h9 a10 h10 hc x0 x1 x2 x3 x4 x5 x6 = k1_pay3 (k1_pay5 x0 x1 x2 x3 x4 x5 x6) k1_pay1 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The running column sum after a later point. -/
theorem out_B_8 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond1_0 i) (x0 : Vec F S2048x512 .f32) (x1 x2 x3 x4 : Vec F S1x512 .f32) (x5 : Vec F S512x512 .bf16) (x6 : Vec F S1x512 .f32) (xo8 xo9 : Vec F S1x512 .f32) :
    out1_B_8 c i a1 h1 a2 h2 a3 h3 a4 h4 a5 h5 a6 h6 a7 h7 a8 h8 a9 h9 a10 h10 hc x0 x1 x2 x3 x4 x5 x6 xo8 xo9 = k1_pay3 (k1_pay5 x0 x1 x2 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

/-- The running column sum of squares after the first point. -/
theorem out_A_9 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond1_0 i) (x0 : Vec F S2048x512 .f32) (x1 x2 x3 x4 : Vec F S1x512 .f32) (x5 : Vec F S512x512 .bf16) (x6 : Vec F S1x512 .f32) :
    out1_A_9 c i a1 h1 a2 h2 a3 h3 a4 h4 a5 h5 a6 h6 a7 h7 a8 h8 a9 h9 a10 h10 hc x0 x1 x2 x3 x4 x5 x6 = k1_pay4 (k1_pay5 x0 x1 x2 x3 x4 x5 x6) k1_pay2 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The running column sum of squares after a later point. -/
theorem out_B_9 (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond1_0 i) (x0 : Vec F S2048x512 .f32) (x1 x2 x3 x4 : Vec F S1x512 .f32) (x5 : Vec F S512x512 .bf16) (x6 : Vec F S1x512 .f32) (xo8 xo9 : Vec F S1x512 .f32) :
    out1_B_9 c i a1 h1 a2 h2 a3 h3 a4 h4 a5 h5 a6 h6 a7 h7 a8 h8 a9 h9 a10 h10 hc x0 x1 x2 x3 x4 x5 x6 xo8 xo9 = k1_pay4 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

end Pieces

/-! ## The windows' blocks, read at an entry -/

/-- The printed index maps over the grid: the row-blocked windows sit at block (t, 0), the others at (0, 0). -/
theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = 0 ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w7 : ∀ t : Fin cfg1.N, win1_7.index t (0 : Fin 2) = t.val ∧ win1_7.index t (1 : Fin 2) = 0 :=
  (by decide +kernel : ∀ t : Fin grid1.N, _)
theorem idx_w8 : ∀ t : Fin cfg1.N, win1_8.index t (0 : Fin 2) = 0 ∧ win1_8.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)

/-- A grid point as a block number among the 32 blocks. -/
def blk (t : Fin cfg1.N) : Fin 32 := ⟨t.val, lt_of_lt_of_eq t.isLt N_1⟩

variable (V : (c : Dev nD) → (b : Ref sig .tc) → Buf (Elt Ideal) ((c : Thread nD τ).loc b))

/-- The arrays the launch reads, as it finds them. -/
abbrev Hin (c : Dev nD) : S65536x512.Idx → EReal := V c (Pipeline.arrRef spec1 0)
abbrev Mu (c : Dev nD) : S1x512.Idx → EReal := V c (Pipeline.arrRef spec1 1)
abbrev Va (c : Dev nD) : S1x512.Idx → EReal := V c (Pipeline.arrRef spec1 2)
abbrev Ga (c : Dev nD) : S1x512.Idx → EReal := V c (Pipeline.arrRef spec1 3)
abbrev Be (c : Dev nD) : S1x512.Idx → EReal := V c (Pipeline.arrRef spec1 4)
abbrev Wt (c : Dev nD) : S512x512.Idx → EReal := V c (Pipeline.arrRef spec1 5)
abbrev Bi (c : Dev nD) : S1x512.Idx → EReal := V c (Pipeline.arrRef spec1 6)

/-- Row i of the h block at point t is row t·2048 + i of h. -/
theorem iblk_h (c : Dev nD) (t : Fin cfg1.N) (i : Fin 2048) (k : Fin 512) :
    (iblk1 V c 0 t : Vec Ideal S2048x512 .f32) (ix2 i k) = Hin V c (ix2 (blockRow (blk t) i) k) := by
  obtain ⟨e0, e1⟩ := idx_w0 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 2048 + 1 * i.val = t.val * 2048 + i.val; rw [e0]; omega
  | ⟨1, _⟩ => show win1_0.index t (1 : Fin 2) * 512 + 1 * k.val = k.val; rw [e1]; omega

/-- The mean row's block is the whole row at every point. -/
theorem iblk_r1 (c : Dev nD) (t : Fin cfg1.N) (u : Fin 1) (q : Fin 512) :
    (iblk1 V c 1 t : Vec Ideal S1x512 .f32) (ix2 u q) = Mu V c (ix2 u q) := by
  obtain ⟨e0, e1⟩ := idx_w1 t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1 + 1 * u.val = u.val; rw [e0]; omega
  | ⟨1, _⟩ => show win1_1.index t (1 : Fin 2) * 512 + 1 * q.val = q.val; rw [e1]; omega

/-- The variance row's block is the whole row at every point. -/
theorem iblk_r2 (c : Dev nD) (t : Fin cfg1.N) (u : Fin 1) (q : Fin 512) :
    (iblk1 V c 2 t : Vec Ideal S1x512 .f32) (ix2 u q) = Va V c (ix2 u q) := by
  obtain ⟨e0, e1⟩ := idx_w2 t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * u.val = u.val; rw [e0]; omega
  | ⟨1, _⟩ => show win1_2.index t (1 : Fin 2) * 512 + 1 * q.val = q.val; rw [e1]; omega

/-- The scale row's block is the whole row at every point. -/
theorem iblk_r3 (c : Dev nD) (t : Fin cfg1.N) (u : Fin 1) (q : Fin 512) :
    (iblk1 V c 3 t : Vec Ideal S1x512 .f32) (ix2 u q) = Ga V c (ix2 u q) := by
  obtain ⟨e0, e1⟩ := idx_w3 t
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * u.val = u.val; rw [e0]; omega
  | ⟨1, _⟩ => show win1_3.index t (1 : Fin 2) * 512 + 1 * q.val = q.val; rw [e1]; omega

/-- The shift row's block is the whole row at every point. -/
theorem iblk_r4 (c : Dev nD) (t : Fin cfg1.N) (u : Fin 1) (q : Fin 512) :
    (iblk1 V c 4 t : Vec Ideal S1x512 .f32) (ix2 u q) = Be V c (ix2 u q) := by
  obtain ⟨e0, e1⟩ := idx_w4 t
  unfold iblk1
  rw [View.read_apply]
  show V c (Pipeline.arrRef spec1 4) _ = V c (Pipeline.arrRef spec1 4) _
  refine congrArg _ (funext fun a => Fin.ext ?_)
  match a with
  | ⟨0, _⟩ => show win1_4.index t (0 : Fin 2) * 1 + 1 * u.val = u.val; rw [e0]; omega
  | ⟨1, _⟩ => show win1_4.index t (1 : Fin 2) * 512 + 1 * q.val = q.val; rw [e1]; omega

/-- The bias row's block is the whole row at every point. -/
theorem iblk_r6 (c : Dev nD) (t : Fin cfg1.N) (u : Fin 1) (q : Fin 512) :
    (iblk1 V c 6 t : Vec Ideal S1x512 .f32) (ix2 u q) = Bi V c (ix2 u q) := by
  obtain ⟨e0, e1⟩ := idx_w6 t
  unfold iblk1
  rw [View.read_apply]
  show V c (Pipeline.arrRef spec1 6) _ = V c (Pipeline.arrRef spec1 6) _
  refine congrArg _ (funext fun a => Fin.ext ?_)
  match a with
  | ⟨0, _⟩ => show win1_6.index t (0 : Fin 2) * 1 + 1 * u.val = u.val; rw [e0]; omega
  | ⟨1, _⟩ => show win1_6.index t (1 : Fin 2) * 512 + 1 * q.val = q.val; rw [e1]; omega

/-- The weights' block is the whole array at every point. -/
theorem iblk_w (c : Dev nD) (t : Fin cfg1.N) (k : Fin 512) (q : Fin 512) :
    (iblk1 V c 5 t : Vec Ideal S512x512 .bf16) (ix2 k q) = Wt V c (ix2 k q) := by
  obtain ⟨e0, e1⟩ := idx_w5 t
  unfold iblk1
  rw [View.read_apply]
  show V c (Pipeline.arrRef spec1 5) _ = V c (Pipeline.arrRef spec1 5) _
  refine congrArg _ (funext fun a => Fin.ext ?_)
  match a with
  | ⟨0, _⟩ => show win1_5.index t (0 : Fin 2) * 512 + 1 * k.val = k.val; rw [e0]; omega
  | ⟨1, _⟩ => show win1_5.index t (1 : Fin 2) * 512 + 1 * q.val = q.val; rw [e1]; omega

/-! ## The new pre-activation, and the body's payloads on a block -/

/-- The new pre-activation at row r, column q. -/
def H (c : Dev nD) (r : Fin 65536) (q : Fin 512) : EReal :=
  (∑ k : Fin 512, Ideal.sign (Pay.bnEntry (Hin V c (ix2 r k)) (Mu V c (ix2 (0 : Fin 1) k)) (Va V c (ix2 (0 : Fin 1) k))
      (Ga V c (ix2 (0 : Fin 1) k)) (Be V c (ix2 (0 : Fin 1) k))) * Wt V c (ix2 k q))
    + Bi V c (ix2 (0 : Fin 1) q)

/-- The block the body stores at point t is the new pre-activation on the block's rows. -/
theorem pay5_blk (c : Dev nD) (t : Fin cfg1.N) (i : Fin 2048) (q : Fin 512) :
    k1_pay5 (F := Ideal) (iblk1 V c 0 t) (iblk1 V c 1 t) (iblk1 V c 2 t) (iblk1 V c 3 t) (iblk1 V c 4 t) (iblk1 V c 5 t) (iblk1 V c 6 t) (ix2 i q) = H V c (blockRow (blk t) i) q := by
  refine (Pay.pay15_apply (iblk1 V c 0 t) (iblk1 V c 1 t) (iblk1 V c 2 t) (iblk1 V c 3 t) (iblk1 V c 4 t) (iblk1 V c 5 t) (iblk1 V c 6 t) i q).trans ?_
  unfold H
  refine congrArg₂ (· + ·) (Finset.sum_congr rfl fun k _ => ?_) (iblk_r6 V c t 0 q)
  refine congrArg₂ (· * ·) (congrArg Ideal.sign ?_) (iblk_w V c t k q)
  rw [iblk_h V c t i k, iblk_r1 V c t 0 k, iblk_r2 V c t 0 k, iblk_r3 V c t 0 k, iblk_r4 V c t 0 k]

/-- The column sums of the new pre-activations and of their squares over the rows of block t (zero past the last block). -/
def bsum (c : Dev nD) (t : ℕ) (q : Fin 512) : EReal :=
  if h : t < 32 then ∑ i : Fin 2048, H V c (blockRow (⟨t, h⟩ : Fin 32) i) q else 0
def bsq (c : Dev nD) (t : ℕ) (q : Fin 512) : EReal :=
  if h : t < 32 then ∑ i : Fin 2048, H V c (blockRow (⟨t, h⟩ : Fin 32) i) q * H V c (blockRow (⟨t, h⟩ : Fin 32) i) q else 0

theorem bsum_pt (c : Dev nD) (t : Fin cfg1.N) (q : Fin 512) :
    bsum V c t.val q = ∑ i : Fin 2048, k1_pay5 (F := Ideal) (iblk1 V c 0 t) (iblk1 V c 1 t) (iblk1 V c 2 t) (iblk1 V c 3 t) (iblk1 V c 4 t) (iblk1 V c 5 t) (iblk1 V c 6 t) (ix2 i q) := by
  unfold bsum
  rw [dif_pos (lt_of_lt_of_eq t.isLt N_1)]
  exact Finset.sum_congr rfl fun i _ => (pay5_blk V c t i q).symm

theorem bsq_pt (c : Dev nD) (t : Fin cfg1.N) (q : Fin 512) :
    bsq V c t.val q = ∑ i : Fin 2048, k1_pay5 (F := Ideal) (iblk1 V c 0 t) (iblk1 V c 1 t) (iblk1 V c 2 t) (iblk1 V c 3 t) (iblk1 V c 4 t) (iblk1 V c 5 t) (iblk1 V c 6 t) (ix2 i q)
      * k1_pay5 (F := Ideal) (iblk1 V c 0 t) (iblk1 V c 1 t) (iblk1 V c 2 t) (iblk1 V c 3 t) (iblk1 V c 4 t) (iblk1 V c 5 t) (iblk1 V c 6 t) (ix2 i q) := by
  unfold bsq
  rw [dif_pos (lt_of_lt_of_eq t.isLt N_1)]
  exact Finset.sum_congr rfl fun i _ => (congrArg₂ (· * ·) (pay5_blk V c t i q) (pay5_blk V c t i q)).symm

/-! ## The outputs' buffers after each point -/

/-- After the first point. -/
theorem outs_A (c : Dev nD) (t : Fin cfg1.N) (h0 : t.val % 32 = 0) :
    outsAt1 V c t.val t.isLt = (k1_pay5 (F := Ideal) (iblk1 V c 0 t) (iblk1 V c 1 t) (iblk1 V c 2 t) (iblk1 V c 3 t) (iblk1 V c 4 t) (iblk1 V c 5 t) (iblk1 V c 6 t),
      k1_pay3 (F := Ideal) (k1_pay5 (F := Ideal) (iblk1 V c 0 t) (iblk1 V c 1 t) (iblk1 V c 2 t) (iblk1 V c 3 t) (iblk1 V c 4 t) (iblk1 V c 5 t) (iblk1 V c 6 t)) (k1_pay1 (F := Ideal)),
      k1_pay4 (F := Ideal) (k1_pay5 (F := Ideal) (iblk1 V c 0 t) (iblk1 V c 1 t) (iblk1 V c 2 t) (iblk1 V c 3 t) (iblk1 V c 4 t) (iblk1 V c 5 t) (iblk1 V c 6 t)) (k1_pay2 (F := Ideal))) :=
  (outsAt1_A V c t h0).trans (congrArg₂ Prod.mk
    (out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
    (congrArg₂ Prod.mk
      (out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
      (out_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))))

/-- After a later point. -/
theorem outs_B (c : Dev nD) (t : Fin cfg1.N) (h0 : ¬t.val % 32 = 0) :
    outsAt1 V c t.val t.isLt = (k1_pay5 (F := Ideal) (iblk1 V c 0 t) (iblk1 V c 1 t) (iblk1 V c 2 t) (iblk1 V c 3 t) (iblk1 V c 4 t) (iblk1 V c 5 t) (iblk1 V c 6 t),
      k1_pay3 (F := Ideal) (k1_pay5 (F := Ideal) (iblk1 V c 0 t) (iblk1 V c 1 t) (iblk1 V c 2 t) (iblk1 V c 3 t) (iblk1 V c 4 t) (iblk1 V c 5 t) (iblk1 V c 6 t)) (outsAt1 V c (t.val - 1) (Nat.lt_of_le_of_lt (Nat.sub_le _ _) t.isLt)).2.1,
      k1_pay4 (F := Ideal) (k1_pay5 (F := Ideal) (iblk1 V c 0 t) (iblk1 V c 1 t) (iblk1 V c 2 t) (iblk1 V c 3 t) (iblk1 V c 4 t) (iblk1 V c 5 t) (iblk1 V c 6 t)) (outsAt1 V c (t.val - 1) (Nat.lt_of_le_of_lt (Nat.sub_le _ _) t.isLt)).2.2) :=
  (outsAt1_B V c t h0).trans (congrArg₂ Prod.mk
    (out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
      (out_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)))

/-- The block of new pre-activations after any point. -/
theorem outs_h (c : Dev nD) (t : Fin cfg1.N) :
    (outsAt1 V c t.val t.isLt).1 = k1_pay5 (F := Ideal) (iblk1 V c 0 t) (iblk1 V c 1 t) (iblk1 V c 2 t) (iblk1 V c 3 t) (iblk1 V c 4 t) (iblk1 V c 5 t) (iblk1 V c 6 t) := by
  by_cases h0 : t.val % 32 = 0
  · rw [outs_A V c t h0]
  · rw [outs_B V c t h0]

/-- The running sums after point n are the sums of the blocks' sums up to n: by induction on the point. -/
theorem outs_sums (c : Dev nD) (q : Fin 512) : ∀ (n : ℕ) (hn : n < cfg1.N),
    (outsAt1 V c n hn).2.1 (ix2 (0 : Fin 1) q) = ∑ t ∈ Finset.range (n + 1), bsum V c t q
    ∧ (outsAt1 V c n hn).2.2 (ix2 (0 : Fin 1) q) = ∑ t ∈ Finset.range (n + 1), bsq V c t q
  | 0, hn => by
    have e := outs_A V c ⟨0, hn⟩ rfl
    dsimp only at e
    rw [e]
    dsimp only
    rw [Finset.sum_range_one, Finset.sum_range_one]
    constructor
    · refine (Pay.pay13_apply _ _ q).trans ?_
      rw [Pay.pay11_apply, zero_add]
      exact (bsum_pt V c ⟨0, hn⟩ q).symm
    · refine (Pay.pay14_apply _ _ q).trans ?_
      rw [Pay.pay12_apply, zero_add]
      exact (bsq_pt V c ⟨0, hn⟩ q).symm
  | n + 1, hn => by
    have hN : cfg1.N = 32 := N_1
    have hB : ¬(⟨n + 1, hn⟩ : Fin cfg1.N).val % 32 = 0 := by dsimp only; omega
    have e := outs_B V c ⟨n + 1, hn⟩ hB
    dsimp only at e
    obtain ⟨ih1, ih2⟩ := outs_sums c q n (Nat.lt_of_succ_lt hn)
    rw [e]
    dsimp only
    rw [Finset.sum_range_succ _ (n + 1), Finset.sum_range_succ _ (n + 1)]
    constructor
    · refine (Pay.pay13_apply _ _ q).trans ?_
      refine congrArg₂ (· + ·) ?_ (bsum_pt V c ⟨n + 1, hn⟩ q).symm
      exact ih1
    · refine (Pay.pay14_apply _ _ q).trans ?_
      refine congrArg₂ (· + ·) ?_ (bsq_pt V c ⟨n + 1, hn⟩ q).symm
      exact ih2

/-! ## The three arrays after the launch -/

/-- The new pre-activations as an array. -/
def Harr (c : Dev nD) : S65536x512.Idx → EReal := fun j => H V c (j 0) (j 1)
theorem Harr_apply (c : Dev nD) (r : Fin 65536) (q : Fin 512) : Harr V c (ix2 r q) = H V c r q := rfl

/-- What point t writes back into the first output is block t of the new pre-activations. -/
theorem flushed7_eq (c : Dev nD) (t : Fin cfg1.N) :
    (dat1 (F := Ideal) V c).flushed 7 t = ((cfg1.win 7).blk t).view.read (Elt Ideal) (Harr V c) := by
  obtain ⟨e0, e1⟩ := idx_w7 t
  show (cfg1.win 7).cut (grid1.coords t) ((dat1 (F := Ideal) V c).after 7 t) = _
  rw [after1_7, outs_h]
  funext j
  obtain ⟨i, q, rfl⟩ : ∃ (i : Fin 2048) (q : Fin 512), j = ix2 i q := ⟨j 0, j 1, eq_ix2 j⟩
  rw [View.read_apply]
  refine (pay5_blk V c t i q).trans ?_
  show H V c _ _ = H V c _ _
  refine congrArg₂ (H V c) (Fin.ext ?_) (Fin.ext ?_)
  · show t.val * 2048 + i.val = win1_7.index t (0 : Fin 2) * 2048 + 1 * i.val
    rw [e0]; omega
  · show q.val = win1_7.index t (1 : Fin 2) * 512 + 1 * q.val
    rw [e1]; omega

/-- The first output ends holding the new pre-activations: row r lies in block r / 2048. -/
theorem arr7 (c : Dev nD) : (dat1 (F := Ideal) V c).arrAt 7 cfg1.N = Harr V c :=
  (dat1 (F := Ideal) V c).arrAt_eq_of_cover 7 (Harr V c) (fun t _ => flushed7_eq V c t) fun i => by
    have hi0 : (i 0).val < 65536 := (i 0).isLt
    have hi1 : (i 1).val < 512 := (i 1).isLt
    have hN : cfg1.N = 32 := N_1
    obtain ⟨t, ht⟩ : ∃ t : Fin cfg1.N, t.val = (i 0).val / 2048 := ⟨⟨(i 0).val / 2048, by rw [hN]; omega⟩, rfl⟩
    obtain ⟨e0, e1⟩ := idx_w7 t
    refine ⟨t, flush1_7 t, ?_⟩
    show i ∈ ((View.whole main_v16_0).slice (win1_7.rect t)).set
    rw [View.set_slice_whole, Rect.mem_set_unit]
    intro a
    match a with
    | ⟨0, _⟩ =>
      show win1_7.index t (0 : Fin 2) * 2048 ≤ (i 0).val ∧ (i 0).val < win1_7.index t (0 : Fin 2) * 2048 + 2048
      rw [e0, ht]; omega
    | ⟨1, _⟩ =>
      show win1_7.index t (1 : Fin 2) * 512 ≤ (i 1).val ∧ (i 1).val < win1_7.index t (1 : Fin 2) * 512 + 512
      rw [e1]; omega

/-- The blocks' sums add up to the sums over all 65536 rows. -/
theorem sum_bsum (c : Dev nD) (q : Fin 512) : ∑ t ∈ Finset.range 32, bsum V c t q = ∑ r : Fin 65536, H V c r q := by
  rw [Finset.sum_range]
  refine Eq.trans (Finset.sum_congr rfl fun t _ => ?_) (sum_blocks 32 2048 (fun r => H V c r q)).symm
  unfold bsum
  rw [dif_pos t.isLt]
theorem sum_bsq (c : Dev nD) (q : Fin 512) :
    ∑ t ∈ Finset.range 32, bsq V c t q = ∑ r : Fin 65536, H V c r q * H V c r q := by
  rw [Finset.sum_range]
  refine Eq.trans (Finset.sum_congr rfl fun t _ => ?_) (sum_blocks 32 2048 (fun r => H V c r q * H V c r q)).symm
  unfold bsq
  rw [dif_pos t.isLt]

/-- The column sums of the new pre-activations and of their squares as one-row arrays. -/
def S1arr (c : Dev nD) : S1x512.Idx → EReal := fun j => ∑ r : Fin 65536, H V c r (j 1)
def S2arr (c : Dev nD) : S1x512.Idx → EReal := fun j => ∑ r : Fin 65536, H V c r (j 1) * H V c r (j 1)
theorem S1arr_eq (c : Dev nD) (y : S1x512.Idx) : S1arr V c y = ∑ r : Fin 65536, H V c r (y 1) := rfl
theorem S2arr_eq (c : Dev nD) (y : S1x512.Idx) :
    S2arr V c y = ∑ r : Fin 65536, H V c r (y 1) * H V c r (y 1) := rfl
theorem S1arr_apply (c : Dev nD) (u : Fin 1) (q : Fin 512) : S1arr V c (ix2 u q) = ∑ r : Fin 65536, H V c r q := rfl
theorem S2arr_apply (c : Dev nD) (u : Fin 1) (q : Fin 512) :
    S2arr V c (ix2 u q) = ∑ r : Fin 65536, H V c r q * H V c r q := rfl

theorem flushed8_eq (c : Dev nD) (t : Fin cfg1.N) (hf : (cfg1.win 8).flush t = true) :
    (dat1 (F := Ideal) V c).flushed 8 t = ((cfg1.win 8).blk t).view.read (Elt Ideal) (S1arr V c) := by
  have hN : cfg1.N = 32 := N_1
  have h31 : t.val = 31 := by have := (flush1_8 t).mp hf; have := t.isLt; omega
  obtain ⟨e0, e1⟩ := idx_w8 t
  show (cfg1.win 8).cut (grid1.coords t) ((dat1 (F := Ideal) V c).after 8 t) = _
  rw [after1_8]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).1).trans ?_
  have eq : (((cfg1.win 8).blk t).view.emb (ix2 (0 : Fin 1) q)) 1 = q := Fin.ext (by
    show win1_8.index t (1 : Fin 2) * 512 + 1 * q.val = q.val
    rw [e1]; omega)
  rw [h31, sum_bsum, S1arr_eq, eq]
  exact (cast_eq _ _).symm

theorem flushed9_eq (c : Dev nD) (t : Fin cfg1.N) (hf : (cfg1.win 9).flush t = true) :
    (dat1 (F := Ideal) V c).flushed 9 t = ((cfg1.win 9).blk t).view.read (Elt Ideal) (S2arr V c) := by
  have hN : cfg1.N = 32 := N_1
  have h31 : t.val = 31 := by have := (flush1_9 t).mp hf; have := t.isLt; omega
  obtain ⟨e0, e1⟩ := idx_w9 t
  show (cfg1.win 9).cut (grid1.coords t) ((dat1 (F := Ideal) V c).after 9 t) = _
  rw [after1_9]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).2).trans ?_
  have eq : (((cfg1.win 9).blk t).view.emb (ix2 (0 : Fin 1) q)) 1 = q := Fin.ext (by
    show win1_9.index t (1 : Fin 2) * 512 + 1 * q.val = q.val
    rw [e1]; omega)
  rw [h31, sum_bsq, S2arr_eq, eq]
  exact (cast_eq _ _).symm

/-- The last point's block covers the whole one-row array. -/
theorem arr8 (c : Dev nD) : (dat1 (F := Ideal) V c).arrAt 8 cfg1.N = S1arr V c :=
  (dat1 (F := Ideal) V c).arrAt_eq_of_cover 8 (S1arr V c) (flushed8_eq V c) fun i => by
    have hi0 : (i 0).val < 1 := (i 0).isLt
    have hi1 : (i 1).val < 512 := (i 1).isLt
    have hN : cfg1.N = 32 := N_1
    obtain ⟨t, ht⟩ : ∃ t : Fin cfg1.N, t.val = 31 := ⟨⟨31, by rw [hN]; omega⟩, rfl⟩
    obtain ⟨e0, e1⟩ := idx_w8 t
    refine ⟨t, (flush1_8 t).mpr (by rw [ht]), ?_⟩
    show i ∈ ((View.whole main_v16_1).slice (win1_8.rect t)).set
    rw [View.set_slice_whole, Rect.mem_set_unit]
    intro a
    match a with
    | ⟨0, _⟩ =>
      show win1_8.index t (0 : Fin 2) * 1 ≤ (i 0).val ∧ (i 0).val < win1_8.index t (0 : Fin 2) * 1 + 1
      rw [e0]; omega
    | ⟨1, _⟩ =>
      show win1_8.index t (1 : Fin 2) * 512 ≤ (i 1).val ∧ (i 1).val < win1_8.index t (1 : Fin 2) * 512 + 512
      rw [e1]; omega

theorem arr9 (c : Dev nD) : (dat1 (F := Ideal) V c).arrAt 9 cfg1.N = S2arr V c :=
  (dat1 (F := Ideal) V c).arrAt_eq_of_cover 9 (S2arr V c) (flushed9_eq V c) fun i => by
    have hi0 : (i 0).val < 1 := (i 0).isLt
    have hi1 : (i 1).val < 512 := (i 1).isLt
    have hN : cfg1.N = 32 := N_1
    obtain ⟨t, ht⟩ : ∃ t : Fin cfg1.N, t.val = 31 := ⟨⟨31, by rw [hN]; omega⟩, rfl⟩
    obtain ⟨e0, e1⟩ := idx_w9 t
    refine ⟨t, (flush1_9 t).mpr (by rw [ht]), ?_⟩
    show i ∈ ((View.whole main_v16_2).slice (win1_9.rect t)).set
    rw [View.set_slice_whole, Rect.mem_set_unit]
    intro a
    match a with
    | ⟨0, _⟩ =>
      show win1_9.index t (0 : Fin 2) * 1 ≤ (i 0).val ∧ (i 0).val < win1_9.index t (0 : Fin 2) * 1 + 1
      rw [e0]; omega
    | ⟨1, _⟩ =>
      show win1_9.index t (1 : Fin 2) * 512 ≤ (i 1).val ∧ (i 1).val < win1_9.index t (1 : Fin 2) * 512 + 512
      rw [e1]; omega

end Cert.KernelIdeal.Reg1

end
-- ==== Proof.Chain1.lean ====
/-
  What launch 1 finds in its input arrays, in terms of the program's arguments, and what it therefore writes.

  After the previous launch the host divides the two accumulated rows by the number of rows to get the column mean and
  the mean of squares, subtracts the squared mean to get the variance, lays the scale, shift and bias as rows, and
  takes the signs of the next weights and transposes them. The previous launch left the previous pre-activation row by row. So the
  launch reads exactly the arrays of one batch-normalised hidden layer of the network.
-/
import proofs.«107829_j6700148982619_2_alg».proof.Proof.Chain0
import proofs.«107829_j6700148982619_2_alg».proof.Proof.Region1

noncomputable section

open Idealize.ShloMosaic Idealize.ShloMosaic.TcCoe Idealize.SL.Sem Idealize.ShloMosaic.ValueIdx
open Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- The next layer's pre-activation. -/
def h2 (c : Dev nD) : Fin 65536 → Fin 512 → EReal :=
  Network.lin (Network.hiddenA CNT EPS (h1 m c) (g1 m c) (be1 m c)) (Network.sgn (w2 m c)) (b2 m c)

namespace Stage1

/-! ## The arguments reach the stage unchanged -/

theorem s1_W2_arg5 (c : Dev nD) : W2 m ρ c (Proc.devRef .tc main_arg5) = m ((c : Thread nD τ).loc main_arg5) :=
  (W2_of_ne m ρ c main_arg5 (by decide)).trans (by show StableHlo.after hostOps0 (W0 m ρ c) (Proc.devRef .tc main_arg5) = m ((c : Thread nD τ).loc main_arg5); after_results)
theorem s1_W2_arg3 (c : Dev nD) : W2 m ρ c (Proc.devRef .tc main_arg3) = m ((c : Thread nD τ).loc main_arg3) :=
  (W2_of_ne m ρ c main_arg3 (by decide)).trans (by show StableHlo.after hostOps0 (W0 m ρ c) (Proc.devRef .tc main_arg3) = m ((c : Thread nD τ).loc main_arg3); after_results)
theorem s1_W2_arg4 (c : Dev nD) : W2 m ρ c (Proc.devRef .tc main_arg4) = m ((c : Thread nD τ).loc main_arg4) :=
  (W2_of_ne m ρ c main_arg4 (by decide)).trans (by show StableHlo.after hostOps0 (W0 m ρ c) (Proc.devRef .tc main_arg4) = m ((c : Thread nD τ).loc main_arg4); after_results)
theorem s1_W2_arg6 (c : Dev nD) : W2 m ρ c (Proc.devRef .tc main_arg6) = m ((c : Thread nD τ).loc main_arg6) :=
  (W2_of_ne m ρ c main_arg6 (by decide)).trans (by show StableHlo.after hostOps0 (W0 m ρ c) (Proc.devRef .tc main_arg6) = m ((c : Thread nD τ).loc main_arg6); after_results)

/-! ## What the previous launch left -/

theorem Wp_h (c : Dev nD) : (W2 m ρ c (Proc.devRef .tc main_v3_0) : S65536x512.Idx → EReal) = Reg0.Harr (V1 m ρ) c :=
  (W2_arr m ρ c 3).trans (Reg0.arr3 (V1 m ρ) c)
theorem Wp_s1 (c : Dev nD) : (W2 m ρ c (Proc.devRef .tc main_v3_1) : S1x512.Idx → EReal) = Reg0.S1arr (V1 m ρ) c :=
  (W2_arr m ρ c 4).trans (Reg0.arr4 (V1 m ρ) c)
theorem Wp_s2 (c : Dev nD) : (W2 m ρ c (Proc.devRef .tc main_v3_2) : S1x512.Idx → EReal) = Reg0.S2arr (V1 m ρ) c :=
  (W2_arr m ρ c 5).trans (Reg0.arr5 (V1 m ρ) c)

/-! ## The launch's input arrays -/

theorem e_h (c : Dev nD) : (V3 m ρ c main_v3_0 : S65536x512.Idx → EReal) = Reg0.Harr (V1 m ρ) c := by
  show StableHlo.after hostOps1 (W2 m ρ c) (Proc.devRef .tc main_v3_0) = _
  after_results
  exact Wp_h m ρ c

theorem e_mean (c : Dev nD) : (V3 m ρ c main_v5 : S1x512.Idx → EReal)
    = Host.divf (F := Ideal) (s := S1x512) (φ := .f32) (Reg0.S1arr (V1 m ρ) c)
        (broadcastInDim (α := EReal) S1x512 ![] bcast_S_S1x512 (constant (F := Ideal) S_ .f32 0x47800000#32)) := by
  show StableHlo.after hostOps1 (W2 m ρ c) (Proc.devRef .tc main_v5) = _
  after_results
  rw [Wp_s1]

theorem e_var (c : Dev nD) : (V3 m ρ c main_v9 : S1x512.Idx → EReal)
    = subf (F := Ideal) (s := S1x512) (φ := .f32)
        (Host.divf (F := Ideal) (s := S1x512) (φ := .f32) (Reg0.S2arr (V1 m ρ) c)
          (broadcastInDim (α := EReal) S1x512 ![] bcast_S_S1x512 (constant (F := Ideal) S_ .f32 0x47800000#32)))
        (mulf (F := Ideal) (s := S1x512) (φ := .f32) (Host.divf (F := Ideal) (s := S1x512) (φ := .f32) (Reg0.S1arr (V1 m ρ) c)
          (broadcastInDim (α := EReal) S1x512 ![] bcast_S_S1x512 (constant (F := Ideal) S_ .f32 0x47800000#32))) (Host.divf (F := Ideal) (s := S1x512) (φ := .f32) (Reg0.S1arr (V1 m ρ) c)
          (broadcastInDim (α := EReal) S1x512 ![] bcast_S_S1x512 (constant (F := Ideal) S_ .f32 0x47800000#32)))) := by
  show StableHlo.after hostOps1 (W2 m ρ c) (Proc.devRef .tc main_v9) = _
  after_results
  rw [Wp_s1, Wp_s2]

theorem e_g (c : Dev nD) : (V3 m ρ c main_v13 : S1x512.Idx → EReal)
    = shapeCast (α := EReal) (s := S512) S1x512 (m ((c : Thread nD τ).loc main_arg3)) shapeCasts_S512_S1x512 := by
  show StableHlo.after hostOps1 (W2 m ρ c) (Proc.devRef .tc main_v13) = _
  after_results
  rw [s1_W2_arg3]
  rfl

theorem e_be (c : Dev nD) : (V3 m ρ c main_v14 : S1x512.Idx → EReal)
    = shapeCast (α := EReal) (s := S512) S1x512 (m ((c : Thread nD τ).loc main_arg4)) shapeCasts_S512_S1x512 := by
  show StableHlo.after hostOps1 (W2 m ρ c) (Proc.devRef .tc main_v14) = _
  after_results
  rw [s1_W2_arg4]
  rfl

theorem e_b (c : Dev nD) : (V3 m ρ c main_v15 : S1x512.Idx → EReal)
    = shapeCast (α := EReal) (s := S512) S1x512 (m ((c : Thread nD τ).loc main_arg6)) shapeCasts_S512_S1x512 := by
  show StableHlo.after hostOps1 (W2 m ρ c) (Proc.devRef .tc main_v15) = _
  after_results
  rw [s1_W2_arg6]
  rfl

theorem e_w (c : Dev nD) : (V3 m ρ c main_v12 : S512x512.Idx → EReal)
    = truncf (F := Ideal) (s := S512x512) (φ := .f32) .bf16 (transpose (α := EReal) S512x512 [1, 0] (Host.sign (F := Ideal) (s := S512x512) (φ := .f32) (m ((c : Thread nD τ).loc main_arg5))) transposes_S512x512_S512x512_1_0) bitsLt_bf16_f32 := by
  show StableHlo.after hostOps1 (W2 m ρ c) (Proc.devRef .tc main_v12) = _
  after_results
  rw [s1_W2_arg5]
  try rfl

/-! ## The same arrays entry by entry -/

theorem V_h (c : Dev nD) (r : Fin 65536) (k : Fin 512) :
    (V3 m ρ c (Pipeline.arrRef spec1 0) : S65536x512.Idx → EReal) (ix2 r k) = h1 m c r k := by
  show (V3 m ρ c main_v3_0 : S65536x512.Idx → EReal) (ix2 r k) = _
  rw [e_h, Reg0.Harr_apply]
  exact h1_eq m ρ c r k

theorem V_mean (c : Dev nD) (k : Fin 512) :
    (V3 m ρ c (Pipeline.arrRef spec1 1) : S1x512.Idx → EReal) (ix2 (0 : Fin 1) k) = Network.mean CNT (h1 m c) k := by
  show (V3 m ρ c main_v5 : S1x512.Idx → EReal) (ix2 (0 : Fin 1) k) = _
  rw [e_mean]
  show Ideal.div (Reg0.S1arr (V1 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg0.S1arr_apply]
  unfold Network.mean Network.colSum
  exact congrArg (Ideal.div · CNT) (Finset.sum_congr rfl fun r _ => h1_eq m ρ c r k)

theorem V_var (c : Dev nD) (k : Fin 512) :
    (V3 m ρ c (Pipeline.arrRef spec1 2) : S1x512.Idx → EReal) (ix2 (0 : Fin 1) k) = Network.varOfSquares CNT (h1 m c) k := by
  show (V3 m ρ c main_v9 : S1x512.Idx → EReal) (ix2 (0 : Fin 1) k) = _
  rw [e_var]
  show Ideal.div (Reg0.S2arr (V1 m ρ) c (ix2 (0 : Fin 1) k)) (broadcastInDim (α := EReal) S1x512 ![] bcast_S_S1x512 (constant (F := Ideal) S_ .f32 0x47800000#32) (ix2 (0 : Fin 1) k))
      - Ideal.div (Reg0.S1arr (V1 m ρ) c (ix2 (0 : Fin 1) k)) (broadcastInDim (α := EReal) S1x512 ![] bcast_S_S1x512 (constant (F := Ideal) S_ .f32 0x47800000#32) (ix2 (0 : Fin 1) k))
        * Ideal.div (Reg0.S1arr (V1 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg0.S2arr_apply, Reg0.S1arr_apply]
  rw [show (∑ r : Fin 65536, Reg0.H (V1 m ρ) c r k) = ∑ r : Fin 65536, h1 m c r k from
        Finset.sum_congr rfl fun r _ => h1_eq m ρ c r k,
      show (∑ r : Fin 65536, Reg0.H (V1 m ρ) c r k * Reg0.H (V1 m ρ) c r k) = ∑ r : Fin 65536, h1 m c r k * h1 m c r k from
        Finset.sum_congr rfl fun r _ => by rw [h1_eq m ρ c r k]]
  rfl

theorem V_g (c : Dev nD) (k : Fin 512) :
    (V3 m ρ c (Pipeline.arrRef spec1 3) : S1x512.Idx → EReal) (ix2 (0 : Fin 1) k) = g1 m c k := by
  show (V3 m ρ c main_v13 : S1x512.Idx → EReal) (ix2 (0 : Fin 1) k) = _
  rw [e_g]
  exact shapeCast_a_1a_apply _ _ 0 k

theorem V_be (c : Dev nD) (k : Fin 512) :
    (V3 m ρ c (Pipeline.arrRef spec1 4) : S1x512.Idx → EReal) (ix2 (0 : Fin 1) k) = be1 m c k := by
  show (V3 m ρ c main_v14 : S1x512.Idx → EReal) (ix2 (0 : Fin 1) k) = _
  rw [e_be]
  exact shapeCast_a_1a_apply _ _ 0 k

theorem V_w (c : Dev nD) (k : Fin 512) (q : Fin 512) :
    (V3 m ρ c (Pipeline.arrRef spec1 5) : S512x512.Idx → EReal) (ix2 k q) = Network.sgn (w2 m c) q k := by
  show (V3 m ρ c main_v12 : S512x512.Idx → EReal) (ix2 k q) = _
  rw [e_w]
  refine (truncf_apply (s := S512x512) (φ := .f32) (ψ := .bf16) _ bitsLt_bf16_f32 (ix2 k q)).trans ?_
  refine (transpose_ix2_apply _ _ k q).trans ?_
  rfl

theorem V_b (c : Dev nD) (q : Fin 512) :
    (V3 m ρ c (Pipeline.arrRef spec1 6) : S1x512.Idx → EReal) (ix2 (0 : Fin 1) q) = b2 m c q := by
  show (V3 m ρ c main_v15 : S1x512.Idx → EReal) (ix2 (0 : Fin 1) q) = _
  rw [e_b]
  exact shapeCast_a_1a_apply _ _ 0 q

end Stage1

open Stage1

/-- The pre-activation the launch writes is the next layer's. -/
theorem h2_eq (c : Dev nD) (r : Fin 65536) (q : Fin 512) : Reg1.H (V3 m ρ) c r q = h2 m c r q := by
  unfold Reg1.H h2
  exact hidden_step (M := 512) _ _ _ _ _ _ _ (h1 m c) (g1 m c) (be1 m c) (Network.sgn (w2 m c)) (b2 m c)
    (V_h m ρ c) (V_mean m ρ c) (V_var m ρ c) (V_g m ρ c) (V_be m ρ c) (V_w m ρ c) (V_b m ρ c) r q

end Cert.KernelIdeal.Chain

end
-- ==== Proof.Region2.lean ====
/-
  A batch-normalising kernel launch read as values.

  The launch walks 32 blocks of 2048 rows of the previous layer's pre-activations h. At each point its body forms
  sign((h - μ)·(σ² + ε)^(-1/2)·g + be) on the block, multiplies by the next layer's weights and adds the bias row into
  the first output's block, and adds the block's column sums of the new pre-activations and of their squares into two
  one-row outputs whose block never moves; at the first point those two rows are first reset to zero. So after the
  launch the first output holds the new pre-activations row by row, and the two rows hold their column sums and
  column sums of squares over all 65536 rows.
-/
import proofs.«107829_j6700148982619_2_alg».proof.Proof.Gen.KernelIdeal.Frame
import proofs.«107829_j6700148982619_2_alg».proof.Proof.PayStats
import proofs.«107829_j6700148982619_2_alg».proof.Proof.PayBn
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

theorem hz : (![0, 0] : Fin 2 → Nat) = fun _ => 0 := funext fun a => by fin_cases a <;> rfl

/-! ## What each case of the body leaves in each output's buffer -/

section Pieces
variable {F : FTy → Type} [FloatOps F]

/-- The block of new pre-activations, at the first point. -/
theorem out_A_7 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond2_0 i) (x0 : Vec F S2048x512 .f32) (x1 x2 x3 x4 : Vec F S1x512 .f32) (x5 : Vec F S512x512 .bf16) (x6 : Vec F S1x512 .f32) :
    out2_A_7 c i a1 h1 a2 h2 a3 h3 a4 h4 a5 h5 a6 h6 a7 h7 a8 h8 a9 h9 a10 h10 hc x0 x1 x2 x3 x4 x5 x6 = k2_pay5 x0 x1 x2 x3 x4 x5 x6 := by
  unfold out2_A_7
  rw [View.read_writes_eq_canon _ _ _ (cover2_A_7 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The block of new pre-activations, at a later point. -/
theorem out_B_7 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond2_0 i) (x0 : Vec F S2048x512 .f32) (x1 x2 x3 x4 : Vec F S1x512 .f32) (x5 : Vec F S512x512 .bf16) (x6 : Vec F S1x512 .f32) (xo8 xo9 : Vec F S1x512 .f32) :
    out2_B_7 c i a1 h1 a2 h2 a3 h3 a4 h4 a5 h5 a6 h6 a7 h7 a8 h8 a9 h9 a10 h10 hc x0 x1 x2 x3 x4 x5 x6 xo8 xo9 = k2_pay5 x0 x1 x2 x3 x4 x5 x6 := by
  unfold out2_B_7
  rw [View.read_writes_eq_canon _ _ _ (cover2_B_7 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

/-- The running column sum after the first point: the reset row plus the block's column sums. -/
theorem out_A_8 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond2_0 i) (x0 : Vec F S2048x512 .f32) (x1 x2 x3 x4 : Vec F S1x512 .f32) (x5 : Vec F S512x512 .bf16) (x6 : Vec F S1x512 .f32) :
    out2_A_8 c i a1 h1 a2 h2 a3 h3 a4 h4 a5 h5 a6 h6 a7 h7 a8 h8 a9 h9 a10 h10 hc x0 x1 x2 x3 x4 x5 x6 = k2_pay3 (k2_pay5 x0 x1 x2 x3 x4 x5 x6) k2_pay1 := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The running column sum after a later point. -/
theorem out_B_8 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond2_0 i) (x0 : Vec F S2048x512 .f32) (x1 x2 x3 x4 : Vec F S1x512 .f32) (x5 : Vec F S512x512 .bf16) (x6 : Vec F S1x512 .f32) (xo8 xo9 : Vec F S1x512 .f32) :
    out2_B_8 c i a1 h1 a2 h2 a3 h3 a4 h4 a5 h5 a6 h6 a7 h7 a8 h8 a9 h9 a10 h10 hc x0 x1 x2 x3 x4 x5 x6 xo8 xo9 = k2_pay3 (k2_pay5 x0 x1 x2 x3 x4 x5 x6) xo8 := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

/-- The running column sum of squares after the first point. -/
theorem out_A_9 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : cond2_0 i) (x0 : Vec F S2048x512 .f32) (x1 x2 x3 x4 : Vec F S1x512 .f32) (x5 : Vec F S512x512 .bf16) (x6 : Vec F S1x512 .f32) :
    out2_A_9 c i a1 h1 a2 h2 a3 h3 a4 h4 a5 h5 a6 h6 a7 h7 a8 h8 a9 h9 a10 h10 hc x0 x1 x2 x3 x4 x5 x6 = k2_pay4 (k2_pay5 x0 x1 x2 x3 x4 x5 x6) k2_pay2 := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread, h6.read_unread, h7.read_unread, View.ld_unit_zero (S := S2048x512) hz, View.ld_unit_zero (S := S512x512) hz, View.ld_unit_zero (S := S1x512) hz]

/-- The running column sum of squares after a later point. -/
theorem out_B_9 (c : Dev nD) (i : grid2.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S2048x512 .f32) (h8 : a8.IsWhole) (a9 : Memref sig .tc .vmem S1x512 .f32) (h9 : a9.IsWhole) (a10 : Memref sig .tc .vmem S1x512 .f32) (h10 : a10.IsWhole) (hc : ¬cond2_0 i) (x0 : Vec F S2048x512 .f32) (x1 x2 x3 x4 : Vec F S1x512 .f32) (x5 : Vec F S512x512 .bf16) (x6 : Vec F S1x512 .f32) (xo8 xo9 : Vec F S1x512 .f32) :
    out2_B_9 c i a1 h1 a2 h2 a3 h3 a4 h4 a5 h5 a6 h6 a7 h7 a8 h8 a9 h9 a10 h10 hc x0 x1 x2 x3 x4 x5 x6 xo8 xo9 = k2_pay4 (k2_pay5 x0 x1 x2 x3 x4 x5 x6) xo9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2048x512) hz, View.ld_unit_zero (S := S512x512) hz, View.ld_unit_zero (S := S1x512) hz]

end Pieces

/-! ## The windows' blocks, read at an entry -/

/-- The printed index maps over the grid: the row-blocked windows sit at block (t, 0), the others at (0, 0). -/
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = 0 ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 2) = t.val ∧ win2_7.index t (1 : Fin 2) = 0 :=
  (by decide +kernel : ∀ t : Fin grid2.N, _)
theorem idx_w8 : ∀ t : Fin cfg2.N, win2_8.index t (0 : Fin 2) = 0 ∧ win2_8.index t (1 : Fin 2) = 0 :=
  (by decide +kernel : ∀ t : Fin grid2.N, _)
theorem idx_w9 : ∀ t : Fin cfg2.N, win2_9.index t (0 : Fin 2) = 0 ∧ win2_9.index t (1 : Fin 2) = 0 :=
  (by decide +kernel : ∀ t : Fin grid2.N, _)

/-- A grid point as a block number among the 32 blocks. -/
def blk (t : Fin cfg2.N) : Fin 32 := ⟨t.val, lt_of_lt_of_eq t.isLt N_2⟩

variable (V : (c : Dev nD) → (b : Ref sig .tc) → Buf (Elt Ideal) ((c : Thread nD τ).loc b))

/-- The arrays the launch reads, as it finds them. -/
abbrev Hin (c : Dev nD) : S65536x512.Idx → EReal := V c (Pipeline.arrRef spec2 0)
abbrev Mu (c : Dev nD) : S1x512.Idx → EReal := V c (Pipeline.arrRef spec2 1)
abbrev Va (c : Dev nD) : S1x512.Idx → EReal := V c (Pipeline.arrRef spec2 2)
abbrev Ga (c : Dev nD) : S1x512.Idx → EReal := V c (Pipeline.arrRef spec2 3)
abbrev Be (c : Dev nD) : S1x512.Idx → EReal := V c (Pipeline.arrRef spec2 4)
abbrev Wt (c : Dev nD) : S512x512.Idx → EReal := V c (Pipeline.arrRef spec2 5)
abbrev Bi (c : Dev nD) : S1x512.Idx → EReal := V c (Pipeline.arrRef spec2 6)

/-- Row i of the h block at point t is row t·2048 + i of h. -/
theorem iblk_h (c : Dev nD) (t : Fin cfg2.N) (i : Fin 2048) (k : Fin 512) :
    (iblk2 V c 0 t : Vec Ideal S2048x512 .f32) (ix2 i k) = Hin V c (ix2 (blockRow (blk t) i) k) := by
  obtain ⟨e0, e1⟩ := idx_w0 t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2048 + 1 * i.val = t.val * 2048 + i.val; rw [e0]; omega
  | ⟨1, _⟩ => show win2_0.index t (1 : Fin 2) * 512 + 1 * k.val = k.val; rw [e1]; omega

/-- The mean row's block is the whole row at every point. -/
theorem iblk_r1 (c : Dev nD) (t : Fin cfg2.N) (u : Fin 1) (q : Fin 512) :
    (iblk2 V c 1 t : Vec Ideal S1x512 .f32) (ix2 u q) = Mu V c (ix2 u q) := by
  obtain ⟨e0, e1⟩ := idx_w1 t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 1 + 1 * u.val = u.val; rw [e0]; omega
  | ⟨1, _⟩ => show win2_1.index t (1 : Fin 2) * 512 + 1 * q.val = q.val; rw [e1]; omega

/-- The variance row's block is the whole row at every point. -/
theorem iblk_r2 (c : Dev nD) (t : Fin cfg2.N) (u : Fin 1) (q : Fin 512) :
    (iblk2 V c 2 t : Vec Ideal S1x512 .f32) (ix2 u q) = Va V c (ix2 u q) := by
  obtain ⟨e0, e1⟩ := idx_w2 t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * u.val = u.val; rw [e0]; omega
  | ⟨1, _⟩ => show win2_2.index t (1 : Fin 2) * 512 + 1 * q.val = q.val; rw [e1]; omega

/-- The scale row's block is the whole row at every point. -/
theorem iblk_r3 (c : Dev nD) (t : Fin cfg2.N) (u : Fin 1) (q : Fin 512) :
    (iblk2 V c 3 t : Vec Ideal S1x512 .f32) (ix2 u q) = Ga V c (ix2 u q) := by
  obtain ⟨e0, e1⟩ := idx_w3 t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1 + 1 * u.val = u.val; rw [e0]; omega
  | ⟨1, _⟩ => show win2_3.index t (1 : Fin 2) * 512 + 1 * q.val = q.val; rw [e1]; omega

/-- The shift row's block is the whole row at every point. -/
theorem iblk_r4 (c : Dev nD) (t : Fin cfg2.N) (u : Fin 1) (q : Fin 512) :
    (iblk2 V c 4 t : Vec Ideal S1x512 .f32) (ix2 u q) = Be V c (ix2 u q) := by
  obtain ⟨e0, e1⟩ := idx_w4 t
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1 + 1 * u.val = u.val; rw [e0]; omega
  | ⟨1, _⟩ => show win2_4.index t (1 : Fin 2) * 512 + 1 * q.val = q.val; rw [e1]; omega

/-- The bias row's block is the whole row at every point. -/
theorem iblk_r6 (c : Dev nD) (t : Fin cfg2.N) (u : Fin 1) (q : Fin 512) :
    (iblk2 V c 6 t : Vec Ideal S1x512 .f32) (ix2 u q) = Bi V c (ix2 u q) := by
  obtain ⟨e0, e1⟩ := idx_w6 t
  unfold iblk2
  rw [View.read_apply]
  show V c (Pipeline.arrRef spec2 6) _ = V c (Pipeline.arrRef spec2 6) _
  refine congrArg _ (funext fun a => Fin.ext ?_)
  match a with
  | ⟨0, _⟩ => show win2_6.index t (0 : Fin 2) * 1 + 1 * u.val = u.val; rw [e0]; omega
  | ⟨1, _⟩ => show win2_6.index t (1 : Fin 2) * 512 + 1 * q.val = q.val; rw [e1]; omega

/-- The weights' block is the whole array at every point. -/
theorem iblk_w (c : Dev nD) (t : Fin cfg2.N) (k : Fin 512) (q : Fin 512) :
    (iblk2 V c 5 t : Vec Ideal S512x512 .bf16) (ix2 k q) = Wt V c (ix2 k q) := by
  obtain ⟨e0, e1⟩ := idx_w5 t
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 512 + 1 * k.val = k.val; rw [e0]; omega
  | ⟨1, _⟩ => show win2_5.index t (1 : Fin 2) * 512 + 1 * q.val = q.val; rw [e1]; omega

/-! ## The new pre-activation, and the body's payloads on a block -/

/-- The new pre-activation at row r, column q. -/
def H (c : Dev nD) (r : Fin 65536) (q : Fin 512) : EReal :=
  (∑ k : Fin 512, Ideal.sign (Pay.bnEntry (Hin V c (ix2 r k)) (Mu V c (ix2 (0 : Fin 1) k)) (Va V c (ix2 (0 : Fin 1) k))
      (Ga V c (ix2 (0 : Fin 1) k)) (Be V c (ix2 (0 : Fin 1) k))) * Wt V c (ix2 k q))
    + Bi V c (ix2 (0 : Fin 1) q)

/-- The block the body stores at point t is the new pre-activation on the block's rows. -/
theorem pay5_blk (c : Dev nD) (t : Fin cfg2.N) (i : Fin 2048) (q : Fin 512) :
    k2_pay5 (F := Ideal) (iblk2 V c 0 t) (iblk2 V c 1 t) (iblk2 V c 2 t) (iblk2 V c 3 t) (iblk2 V c 4 t) (iblk2 V c 5 t) (iblk2 V c 6 t) (ix2 i q) = H V c (blockRow (blk t) i) q := by
  refine (Pay.pay25_apply (iblk2 V c 0 t) (iblk2 V c 1 t) (iblk2 V c 2 t) (iblk2 V c 3 t) (iblk2 V c 4 t) (iblk2 V c 5 t) (iblk2 V c 6 t) i q).trans ?_
  unfold H
  refine congrArg₂ (· + ·) (Finset.sum_congr rfl fun k _ => ?_) (iblk_r6 V c t 0 q)
  refine congrArg₂ (· * ·) (congrArg Ideal.sign ?_) (iblk_w V c t k q)
  rw [iblk_h V c t i k, iblk_r1 V c t 0 k, iblk_r2 V c t 0 k, iblk_r3 V c t 0 k, iblk_r4 V c t 0 k]

/-- The column sums of the new pre-activations and of their squares over the rows of block t (zero past the last block). -/
def bsum (c : Dev nD) (t : ℕ) (q : Fin 512) : EReal :=
  if h : t < 32 then ∑ i : Fin 2048, H V c (blockRow (⟨t, h⟩ : Fin 32) i) q else 0
def bsq (c : Dev nD) (t : ℕ) (q : Fin 512) : EReal :=
  if h : t < 32 then ∑ i : Fin 2048, H V c (blockRow (⟨t, h⟩ : Fin 32) i) q * H V c (blockRow (⟨t, h⟩ : Fin 32) i) q else 0

theorem bsum_pt (c : Dev nD) (t : Fin cfg2.N) (q : Fin 512) :
    bsum V c t.val q = ∑ i : Fin 2048, k2_pay5 (F := Ideal) (iblk2 V c 0 t) (iblk2 V c 1 t) (iblk2 V c 2 t) (iblk2 V c 3 t) (iblk2 V c 4 t) (iblk2 V c 5 t) (iblk2 V c 6 t) (ix2 i q) := by
  unfold bsum
  rw [dif_pos (lt_of_lt_of_eq t.isLt N_2)]
  exact Finset.sum_congr rfl fun i _ => (pay5_blk V c t i q).symm

theorem bsq_pt (c : Dev nD) (t : Fin cfg2.N) (q : Fin 512) :
    bsq V c t.val q = ∑ i : Fin 2048, k2_pay5 (F := Ideal) (iblk2 V c 0 t) (iblk2 V c 1 t) (iblk2 V c 2 t) (iblk2 V c 3 t) (iblk2 V c 4 t) (iblk2 V c 5 t) (iblk2 V c 6 t) (ix2 i q)
      * k2_pay5 (F := Ideal) (iblk2 V c 0 t) (iblk2 V c 1 t) (iblk2 V c 2 t) (iblk2 V c 3 t) (iblk2 V c 4 t) (iblk2 V c 5 t) (iblk2 V c 6 t) (ix2 i q) := by
  unfold bsq
  rw [dif_pos (lt_of_lt_of_eq t.isLt N_2)]
  exact Finset.sum_congr rfl fun i _ => (congrArg₂ (· * ·) (pay5_blk V c t i q) (pay5_blk V c t i q)).symm

/-! ## The outputs' buffers after each point -/

/-- After the first point. -/
theorem outs_A (c : Dev nD) (t : Fin cfg2.N) (h0 : t.val % 32 = 0) :
    outsAt2 V c t.val t.isLt = (k2_pay5 (F := Ideal) (iblk2 V c 0 t) (iblk2 V c 1 t) (iblk2 V c 2 t) (iblk2 V c 3 t) (iblk2 V c 4 t) (iblk2 V c 5 t) (iblk2 V c 6 t),
      k2_pay3 (F := Ideal) (k2_pay5 (F := Ideal) (iblk2 V c 0 t) (iblk2 V c 1 t) (iblk2 V c 2 t) (iblk2 V c 3 t) (iblk2 V c 4 t) (iblk2 V c 5 t) (iblk2 V c 6 t)) (k2_pay1 (F := Ideal)),
      k2_pay4 (F := Ideal) (k2_pay5 (F := Ideal) (iblk2 V c 0 t) (iblk2 V c 1 t) (iblk2 V c 2 t) (iblk2 V c 3 t) (iblk2 V c 4 t) (iblk2 V c 5 t) (iblk2 V c 6 t)) (k2_pay2 (F := Ideal))) :=
  (outsAt2_A V c t h0).trans (congrArg₂ Prod.mk
    (out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t))
    (congrArg₂ Prod.mk
      (out_A_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t))
      (out_A_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t))))

/-- After a later point. -/
theorem outs_B (c : Dev nD) (t : Fin cfg2.N) (h0 : ¬t.val % 32 = 0) :
    outsAt2 V c t.val t.isLt = (k2_pay5 (F := Ideal) (iblk2 V c 0 t) (iblk2 V c 1 t) (iblk2 V c 2 t) (iblk2 V c 3 t) (iblk2 V c 4 t) (iblk2 V c 5 t) (iblk2 V c 6 t),
      k2_pay3 (F := Ideal) (k2_pay5 (F := Ideal) (iblk2 V c 0 t) (iblk2 V c 1 t) (iblk2 V c 2 t) (iblk2 V c 3 t) (iblk2 V c 4 t) (iblk2 V c 5 t) (iblk2 V c 6 t)) (outsAt2 V c (t.val - 1) (Nat.lt_of_le_of_lt (Nat.sub_le _ _) t.isLt)).2.1,
      k2_pay4 (F := Ideal) (k2_pay5 (F := Ideal) (iblk2 V c 0 t) (iblk2 V c 1 t) (iblk2 V c 2 t) (iblk2 V c 3 t) (iblk2 V c 4 t) (iblk2 V c 5 t) (iblk2 V c 6 t)) (outsAt2 V c (t.val - 1) (Nat.lt_of_le_of_lt (Nat.sub_le _ _) t.isLt)).2.2) :=
  (outsAt2_B V c t h0).trans (congrArg₂ Prod.mk
    (out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out_B_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2)
      (out_B_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2)))

/-- The block of new pre-activations after any point. -/
theorem outs_h (c : Dev nD) (t : Fin cfg2.N) :
    (outsAt2 V c t.val t.isLt).1 = k2_pay5 (F := Ideal) (iblk2 V c 0 t) (iblk2 V c 1 t) (iblk2 V c 2 t) (iblk2 V c 3 t) (iblk2 V c 4 t) (iblk2 V c 5 t) (iblk2 V c 6 t) := by
  by_cases h0 : t.val % 32 = 0
  · rw [outs_A V c t h0]
  · rw [outs_B V c t h0]

/-- The running sums after point n are the sums of the blocks' sums up to n: by induction on the point. -/
theorem outs_sums (c : Dev nD) (q : Fin 512) : ∀ (n : ℕ) (hn : n < cfg2.N),
    (outsAt2 V c n hn).2.1 (ix2 (0 : Fin 1) q) = ∑ t ∈ Finset.range (n + 1), bsum V c t q
    ∧ (outsAt2 V c n hn).2.2 (ix2 (0 : Fin 1) q) = ∑ t ∈ Finset.range (n + 1), bsq V c t q
  | 0, hn => by
    have e := outs_A V c ⟨0, hn⟩ rfl
    dsimp only at e
    rw [e]
    dsimp only
    rw [Finset.sum_range_one, Finset.sum_range_one]
    constructor
    · refine (Pay.pay23_apply _ _ q).trans ?_
      rw [Pay.pay21_apply, zero_add]
      exact (bsum_pt V c ⟨0, hn⟩ q).symm
    · refine (Pay.pay24_apply _ _ q).trans ?_
      rw [Pay.pay22_apply, zero_add]
      exact (bsq_pt V c ⟨0, hn⟩ q).symm
  | n + 1, hn => by
    have hN : cfg2.N = 32 := N_2
    have hB : ¬(⟨n + 1, hn⟩ : Fin cfg2.N).val % 32 = 0 := by dsimp only; omega
    have e := outs_B V c ⟨n + 1, hn⟩ hB
    dsimp only at e
    obtain ⟨ih1, ih2⟩ := outs_sums c q n (Nat.lt_of_succ_lt hn)
    rw [e]
    dsimp only
    rw [Finset.sum_range_succ _ (n + 1), Finset.sum_range_succ _ (n + 1)]
    constructor
    · refine (Pay.pay23_apply _ _ q).trans ?_
      refine congrArg₂ (· + ·) ?_ (bsum_pt V c ⟨n + 1, hn⟩ q).symm
      exact ih1
    · refine (Pay.pay24_apply _ _ q).trans ?_
      refine congrArg₂ (· + ·) ?_ (bsq_pt V c ⟨n + 1, hn⟩ q).symm
      exact ih2

/-! ## The three arrays after the launch -/

/-- The new pre-activations as an array. -/
def Harr (c : Dev nD) : S65536x512.Idx → EReal := fun j => H V c (j 0) (j 1)
theorem Harr_apply (c : Dev nD) (r : Fin 65536) (q : Fin 512) : Harr V c (ix2 r q) = H V c r q := rfl

/-- What point t writes back into the first output is block t of the new pre-activations. -/
theorem flushed7_eq (c : Dev nD) (t : Fin cfg2.N) :
    (dat2 (F := Ideal) V c).flushed 7 t = ((cfg2.win 7).blk t).view.read (Elt Ideal) (Harr V c) := by
  obtain ⟨e0, e1⟩ := idx_w7 t
  show (cfg2.win 7).cut (grid2.coords t) ((dat2 (F := Ideal) V c).after 7 t) = _
  rw [after2_7, outs_h]
  funext j
  obtain ⟨i, q, rfl⟩ : ∃ (i : Fin 2048) (q : Fin 512), j = ix2 i q := ⟨j 0, j 1, eq_ix2 j⟩
  rw [View.read_apply]
  refine (pay5_blk V c t i q).trans ?_
  show H V c _ _ = H V c _ _
  refine congrArg₂ (H V c) (Fin.ext ?_) (Fin.ext ?_)
  · show t.val * 2048 + i.val = win2_7.index t (0 : Fin 2) * 2048 + 1 * i.val
    rw [e0]; omega
  · show q.val = win2_7.index t (1 : Fin 2) * 512 + 1 * q.val
    rw [e1]; omega

/-- The first output ends holding the new pre-activations: row r lies in block r / 2048. -/
theorem arr7 (c : Dev nD) : (dat2 (F := Ideal) V c).arrAt 7 cfg2.N = Harr V c :=
  (dat2 (F := Ideal) V c).arrAt_eq_of_cover 7 (Harr V c) (fun t _ => flushed7_eq V c t) fun i => by
    have hi0 : (i 0).val < 65536 := (i 0).isLt
    have hi1 : (i 1).val < 512 := (i 1).isLt
    have hN : cfg2.N = 32 := N_2
    obtain ⟨t, ht⟩ : ∃ t : Fin cfg2.N, t.val = (i 0).val / 2048 := ⟨⟨(i 0).val / 2048, by rw [hN]; omega⟩, rfl⟩
    obtain ⟨e0, e1⟩ := idx_w7 t
    refine ⟨t, flush2_7 t, ?_⟩
    show i ∈ ((View.whole main_v29_0).slice (win2_7.rect t)).set
    rw [View.set_slice_whole, Rect.mem_set_unit]
    intro a
    match a with
    | ⟨0, _⟩ =>
      show win2_7.index t (0 : Fin 2) * 2048 ≤ (i 0).val ∧ (i 0).val < win2_7.index t (0 : Fin 2) * 2048 + 2048
      rw [e0, ht]; omega
    | ⟨1, _⟩ =>
      show win2_7.index t (1 : Fin 2) * 512 ≤ (i 1).val ∧ (i 1).val < win2_7.index t (1 : Fin 2) * 512 + 512
      rw [e1]; omega

/-- The blocks' sums add up to the sums over all 65536 rows. -/
theorem sum_bsum (c : Dev nD) (q : Fin 512) : ∑ t ∈ Finset.range 32, bsum V c t q = ∑ r : Fin 65536, H V c r q := by
  rw [Finset.sum_range]
  refine Eq.trans (Finset.sum_congr rfl fun t _ => ?_) (sum_blocks 32 2048 (fun r => H V c r q)).symm
  unfold bsum
  rw [dif_pos t.isLt]
theorem sum_bsq (c : Dev nD) (q : Fin 512) :
    ∑ t ∈ Finset.range 32, bsq V c t q = ∑ r : Fin 65536, H V c r q * H V c r q := by
  rw [Finset.sum_range]
  refine Eq.trans (Finset.sum_congr rfl fun t _ => ?_) (sum_blocks 32 2048 (fun r => H V c r q * H V c r q)).symm
  unfold bsq
  rw [dif_pos t.isLt]

/-- The column sums of the new pre-activations and of their squares as one-row arrays. -/
def S1arr (c : Dev nD) : S1x512.Idx → EReal := fun j => ∑ r : Fin 65536, H V c r (j 1)
def S2arr (c : Dev nD) : S1x512.Idx → EReal := fun j => ∑ r : Fin 65536, H V c r (j 1) * H V c r (j 1)
theorem S1arr_eq (c : Dev nD) (y : S1x512.Idx) : S1arr V c y = ∑ r : Fin 65536, H V c r (y 1) := rfl
theorem S2arr_eq (c : Dev nD) (y : S1x512.Idx) :
    S2arr V c y = ∑ r : Fin 65536, H V c r (y 1) * H V c r (y 1) := rfl
theorem S1arr_apply (c : Dev nD) (u : Fin 1) (q : Fin 512) : S1arr V c (ix2 u q) = ∑ r : Fin 65536, H V c r q := rfl
theorem S2arr_apply (c : Dev nD) (u : Fin 1) (q : Fin 512) :
    S2arr V c (ix2 u q) = ∑ r : Fin 65536, H V c r q * H V c r q := rfl

theorem flushed8_eq (c : Dev nD) (t : Fin cfg2.N) (hf : (cfg2.win 8).flush t = true) :
    (dat2 (F := Ideal) V c).flushed 8 t = ((cfg2.win 8).blk t).view.read (Elt Ideal) (S1arr V c) := by
  have hN : cfg2.N = 32 := N_2
  have h31 : t.val = 31 := by have := (flush2_8 t).mp hf; have := t.isLt; omega
  obtain ⟨e0, e1⟩ := idx_w8 t
  show (cfg2.win 8).cut (grid2.coords t) ((dat2 (F := Ideal) V c).after 8 t) = _
  rw [after2_8]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).1).trans ?_
  have eq : (((cfg2.win 8).blk t).view.emb (ix2 (0 : Fin 1) q)) 1 = q := Fin.ext (by
    show win2_8.index t (1 : Fin 2) * 512 + 1 * q.val = q.val
    rw [e1]; omega)
  rw [h31, sum_bsum, S1arr_eq, eq]
  exact (cast_eq _ _).symm

theorem flushed9_eq (c : Dev nD) (t : Fin cfg2.N) (hf : (cfg2.win 9).flush t = true) :
    (dat2 (F := Ideal) V c).flushed 9 t = ((cfg2.win 9).blk t).view.read (Elt Ideal) (S2arr V c) := by
  have hN : cfg2.N = 32 := N_2
  have h31 : t.val = 31 := by have := (flush2_9 t).mp hf; have := t.isLt; omega
  obtain ⟨e0, e1⟩ := idx_w9 t
  show (cfg2.win 9).cut (grid2.coords t) ((dat2 (F := Ideal) V c).after 9 t) = _
  rw [after2_9]
  funext j
  obtain ⟨u, q, rfl⟩ : ∃ (u : Fin 1) (q : Fin 512), j = ix2 u q := ⟨j 0, j 1, eq_ix2 j⟩
  obtain rfl : u = 0 := Subsingleton.elim _ _
  rw [View.read_apply]
  refine ((outs_sums V c q t.val t.isLt).2).trans ?_
  have eq : (((cfg2.win 9).blk t).view.emb (ix2 (0 : Fin 1) q)) 1 = q := Fin.ext (by
    show win2_9.index t (1 : Fin 2) * 512 + 1 * q.val = q.val
    rw [e1]; omega)
  rw [h31, sum_bsq, S2arr_eq, eq]
  exact (cast_eq _ _).symm

/-- The last point's block covers the whole one-row array. -/
theorem arr8 (c : Dev nD) : (dat2 (F := Ideal) V c).arrAt 8 cfg2.N = S1arr V c :=
  (dat2 (F := Ideal) V c).arrAt_eq_of_cover 8 (S1arr V c) (flushed8_eq V c) fun i => by
    have hi0 : (i 0).val < 1 := (i 0).isLt
    have hi1 : (i 1).val < 512 := (i 1).isLt
    have hN : cfg2.N = 32 := N_2
    obtain ⟨t, ht⟩ : ∃ t : Fin cfg2.N, t.val = 31 := ⟨⟨31, by rw [hN]; omega⟩, rfl⟩
    obtain ⟨e0, e1⟩ := idx_w8 t
    refine ⟨t, (flush2_8 t).mpr (by rw [ht]), ?_⟩
    show i ∈ ((View.whole main_v29_1).slice (win2_8.rect t)).set
    rw [View.set_slice_whole, Rect.mem_set_unit]
    intro a
    match a with
    | ⟨0, _⟩ =>
      show win2_8.index t (0 : Fin 2) * 1 ≤ (i 0).val ∧ (i 0).val < win2_8.index t (0 : Fin 2) * 1 + 1
      rw [e0]; omega
    | ⟨1, _⟩ =>
      show win2_8.index t (1 : Fin 2) * 512 ≤ (i 1).val ∧ (i 1).val < win2_8.index t (1 : Fin 2) * 512 + 512
      rw [e1]; omega

theorem arr9 (c : Dev nD) : (dat2 (F := Ideal) V c).arrAt 9 cfg2.N = S2arr V c :=
  (dat2 (F := Ideal) V c).arrAt_eq_of_cover 9 (S2arr V c) (flushed9_eq V c) fun i => by
    have hi0 : (i 0).val < 1 := (i 0).isLt
    have hi1 : (i 1).val < 512 := (i 1).isLt
    have hN : cfg2.N = 32 := N_2
    obtain ⟨t, ht⟩ : ∃ t : Fin cfg2.N, t.val = 31 := ⟨⟨31, by rw [hN]; omega⟩, rfl⟩
    obtain ⟨e0, e1⟩ := idx_w9 t
    refine ⟨t, (flush2_9 t).mpr (by rw [ht]), ?_⟩
    show i ∈ ((View.whole main_v29_2).slice (win2_9.rect t)).set
    rw [View.set_slice_whole, Rect.mem_set_unit]
    intro a
    match a with
    | ⟨0, _⟩ =>
      show win2_9.index t (0 : Fin 2) * 1 ≤ (i 0).val ∧ (i 0).val < win2_9.index t (0 : Fin 2) * 1 + 1
      rw [e0]; omega
    | ⟨1, _⟩ =>
      show win2_9.index t (1 : Fin 2) * 512 ≤ (i 1).val ∧ (i 1).val < win2_9.index t (1 : Fin 2) * 512 + 512
      rw [e1]; omega

end Cert.KernelIdeal.Reg2

end
-- ==== Proof.Chain2.lean ====
/-
  What launch 2 finds in its input arrays, in terms of the program's arguments, and what it therefore writes.

  After the previous launch the host divides the two accumulated rows by the number of rows to get the column mean and
  the mean of squares, subtracts the squared mean to get the variance, lays the scale, shift and bias as rows, and
  takes the signs of the next weights and transposes them. The previous launch left the previous pre-activation row by row. So the
  launch reads exactly the arrays of one batch-normalised hidden layer of the network.
-/
import proofs.«107829_j6700148982619_2_alg».proof.Proof.Chain1
import proofs.«107829_j6700148982619_2_alg».proof.Proof.Region2

noncomputable section

open Idealize.ShloMosaic Idealize.ShloMosaic.TcCoe Idealize.SL.Sem Idealize.ShloMosaic.ValueIdx
open Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- The next layer's pre-activation. -/
def h3 (c : Dev nD) : Fin 65536 → Fin 512 → EReal :=
  Network.lin (Network.hiddenA CNT EPS (h2 m c) (g2 m c) (be2 m c)) (Network.sgn (w3 m c)) (b3 m c)

namespace Stage2

/-! ## The arguments reach the stage unchanged -/

theorem s2_W2_arg9 (c : Dev nD) : W2 m ρ c (Proc.devRef .tc main_arg9) = m ((c : Thread nD τ).loc main_arg9) :=
  (W2_of_ne m ρ c main_arg9 (by decide)).trans (by show StableHlo.after hostOps0 (W0 m ρ c) (Proc.devRef .tc main_arg9) = m ((c : Thread nD τ).loc main_arg9); after_results)
theorem s2_W4_arg9 (c : Dev nD) : W4 m ρ c (Proc.devRef .tc main_arg9) = m ((c : Thread nD τ).loc main_arg9) :=
  (W4_of_ne m ρ c main_arg9 (by decide)).trans ((show StableHlo.after hostOps1 (W2 m ρ c) (Proc.devRef .tc main_arg9) = W2 m ρ c (Proc.devRef .tc main_arg9) from by after_results).trans (s2_W2_arg9 m ρ c))
theorem s2_W2_arg7 (c : Dev nD) : W2 m ρ c (Proc.devRef .tc main_arg7) = m ((c : Thread nD τ).loc main_arg7) :=
  (W2_of_ne m ρ c main_arg7 (by decide)).trans (by show StableHlo.after hostOps0 (W0 m ρ c) (Proc.devRef .tc main_arg7) = m ((c : Thread nD τ).loc main_arg7); after_results)
theorem s2_W4_arg7 (c : Dev nD) : W4 m ρ c (Proc.devRef .tc main_arg7) = m ((c : Thread nD τ).loc main_arg7) :=
  (W4_of_ne m ρ c main_arg7 (by decide)).trans ((show StableHlo.after hostOps1 (W2 m ρ c) (Proc.devRef .tc main_arg7) = W2 m ρ c (Proc.devRef .tc main_arg7) from by after_results).trans (s2_W2_arg7 m ρ c))
theorem s2_W2_arg8 (c : Dev nD) : W2 m ρ c (Proc.devRef .tc main_arg8) = m ((c : Thread nD τ).loc main_arg8) :=
  (W2_of_ne m ρ c main_arg8 (by decide)).trans (by show StableHlo.after hostOps0 (W0 m ρ c) (Proc.devRef .tc main_arg8) = m ((c : Thread nD τ).loc main_arg8); after_results)
theorem s2_W4_arg8 (c : Dev nD) : W4 m ρ c (Proc.devRef .tc main_arg8) = m ((c : Thread nD τ).loc main_arg8) :=
  (W4_of_ne m ρ c main_arg8 (by decide)).trans ((show StableHlo.after hostOps1 (W2 m ρ c) (Proc.devRef .tc main_arg8) = W2 m ρ c (Proc.devRef .tc main_arg8) from by after_results).trans (s2_W2_arg8 m ρ c))
theorem s2_W2_arg10 (c : Dev nD) : W2 m ρ c (Proc.devRef .tc main_arg10) = m ((c : Thread nD τ).loc main_arg10) :=
  (W2_of_ne m ρ c main_arg10 (by decide)).trans (by show StableHlo.after hostOps0 (W0 m ρ c) (Proc.devRef .tc main_arg10) = m ((c : Thread nD τ).loc main_arg10); after_results)
theorem s2_W4_arg10 (c : Dev nD) : W4 m ρ c (Proc.devRef .tc main_arg10) = m ((c : Thread nD τ).loc main_arg10) :=
  (W4_of_ne m ρ c main_arg10 (by decide)).trans ((show StableHlo.after hostOps1 (W2 m ρ c) (Proc.devRef .tc main_arg10) = W2 m ρ c (Proc.devRef .tc main_arg10) from by after_results).trans (s2_W2_arg10 m ρ c))

/-! ## What the previous launch left -/

theorem Wp_h (c : Dev nD) : (W4 m ρ c (Proc.devRef .tc main_v16_0) : S65536x512.Idx → EReal) = Reg1.Harr (V3 m ρ) c :=
  (W4_arr m ρ c 7).trans (Reg1.arr7 (V3 m ρ) c)
theorem Wp_s1 (c : Dev nD) : (W4 m ρ c (Proc.devRef .tc main_v16_1) : S1x512.Idx → EReal) = Reg1.S1arr (V3 m ρ) c :=
  (W4_arr m ρ c 8).trans (Reg1.arr8 (V3 m ρ) c)
theorem Wp_s2 (c : Dev nD) : (W4 m ρ c (Proc.devRef .tc main_v16_2) : S1x512.Idx → EReal) = Reg1.S2arr (V3 m ρ) c :=
  (W4_arr m ρ c 9).trans (Reg1.arr9 (V3 m ρ) c)

/-! ## The launch's input arrays -/

theorem e_h (c : Dev nD) : (V5 m ρ c main_v16_0 : S65536x512.Idx → EReal) = Reg1.Harr (V3 m ρ) c := by
  show StableHlo.after hostOps2 (W4 m ρ c) (Proc.devRef .tc main_v16_0) = _
  after_results
  exact Wp_h m ρ c

theorem e_mean (c : Dev nD) : (V5 m ρ c main_v18 : S1x512.Idx → EReal)
    = Host.divf (F := Ideal) (s := S1x512) (φ := .f32) (Reg1.S1arr (V3 m ρ) c)
        (broadcastInDim (α := EReal) S1x512 ![] bcast_S_S1x512 (constant (F := Ideal) S_ .f32 0x47800000#32)) := by
  show StableHlo.after hostOps2 (W4 m ρ c) (Proc.devRef .tc main_v18) = _
  after_results
  rw [Wp_s1]

theorem e_var (c : Dev nD) : (V5 m ρ c main_v22 : S1x512.Idx → EReal)
    = subf (F := Ideal) (s := S1x512) (φ := .f32)
        (Host.divf (F := Ideal) (s := S1x512) (φ := .f32) (Reg1.S2arr (V3 m ρ) c)
          (broadcastInDim (α := EReal) S1x512 ![] bcast_S_S1x512 (constant (F := Ideal) S_ .f32 0x47800000#32)))
        (mulf (F := Ideal) (s := S1x512) (φ := .f32) (Host.divf (F := Ideal) (s := S1x512) (φ := .f32) (Reg1.S1arr (V3 m ρ) c)
          (broadcastInDim (α := EReal) S1x512 ![] bcast_S_S1x512 (constant (F := Ideal) S_ .f32 0x47800000#32))) (Host.divf (F := Ideal) (s := S1x512) (φ := .f32) (Reg1.S1arr (V3 m ρ) c)
          (broadcastInDim (α := EReal) S1x512 ![] bcast_S_S1x512 (constant (F := Ideal) S_ .f32 0x47800000#32)))) := by
  show StableHlo.after hostOps2 (W4 m ρ c) (Proc.devRef .tc main_v22) = _
  after_results
  rw [Wp_s1, Wp_s2]

theorem e_g (c : Dev nD) : (V5 m ρ c main_v26 : S1x512.Idx → EReal)
    = shapeCast (α := EReal) (s := S512) S1x512 (m ((c : Thread nD τ).loc main_arg7)) shapeCasts_S512_S1x512 := by
  show StableHlo.after hostOps2 (W4 m ρ c) (Proc.devRef .tc main_v26) = _
  after_results
  rw [s2_W4_arg7]
  rfl

theorem e_be (c : Dev nD) : (V5 m ρ c main_v27 : S1x512.Idx → EReal)
    = shapeCast (α := EReal) (s := S512) S1x512 (m ((c : Thread nD τ).loc main_arg8)) shapeCasts_S512_S1x512 := by
  show StableHlo.after hostOps2 (W4 m ρ c) (Proc.devRef .tc main_v27) = _
  after_results
  rw [s2_W4_arg8]
  rfl

theorem e_b (c : Dev nD) : (V5 m ρ c main_v28 : S1x512.Idx → EReal)
    = shapeCast (α := EReal) (s := S512) S1x512 (m ((c : Thread nD τ).loc main_arg10)) shapeCasts_S512_S1x512 := by
  show StableHlo.after hostOps2 (W4 m ρ c) (Proc.devRef .tc main_v28) = _
  after_results
  rw [s2_W4_arg10]
  rfl

theorem e_w (c : Dev nD) : (V5 m ρ c main_v25 : S512x512.Idx → EReal)
    = truncf (F := Ideal) (s := S512x512) (φ := .f32) .bf16 (transpose (α := EReal) S512x512 [1, 0] (Host.sign (F := Ideal) (s := S512x512) (φ := .f32) (m ((c : Thread nD τ).loc main_arg9))) transposes_S512x512_S512x512_1_0) bitsLt_bf16_f32 := by
  show StableHlo.after hostOps2 (W4 m ρ c) (Proc.devRef .tc main_v25) = _
  after_results
  rw [s2_W4_arg9]
  try rfl

/-! ## The same arrays entry by entry -/

theorem V_h (c : Dev nD) (r : Fin 65536) (k : Fin 512) :
    (V5 m ρ c (Pipeline.arrRef spec2 0) : S65536x512.Idx → EReal) (ix2 r k) = h2 m c r k := by
  show (V5 m ρ c main_v16_0 : S65536x512.Idx → EReal) (ix2 r k) = _
  rw [e_h, Reg1.Harr_apply]
  exact h2_eq m ρ c r k

theorem V_mean (c : Dev nD) (k : Fin 512) :
    (V5 m ρ c (Pipeline.arrRef spec2 1) : S1x512.Idx → EReal) (ix2 (0 : Fin 1) k) = Network.mean CNT (h2 m c) k := by
  show (V5 m ρ c main_v18 : S1x512.Idx → EReal) (ix2 (0 : Fin 1) k) = _
  rw [e_mean]
  show Ideal.div (Reg1.S1arr (V3 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg1.S1arr_apply]
  unfold Network.mean Network.colSum
  exact congrArg (Ideal.div · CNT) (Finset.sum_congr rfl fun r _ => h2_eq m ρ c r k)

theorem V_var (c : Dev nD) (k : Fin 512) :
    (V5 m ρ c (Pipeline.arrRef spec2 2) : S1x512.Idx → EReal) (ix2 (0 : Fin 1) k) = Network.varOfSquares CNT (h2 m c) k := by
  show (V5 m ρ c main_v22 : S1x512.Idx → EReal) (ix2 (0 : Fin 1) k) = _
  rw [e_var]
  show Ideal.div (Reg1.S2arr (V3 m ρ) c (ix2 (0 : Fin 1) k)) (broadcastInDim (α := EReal) S1x512 ![] bcast_S_S1x512 (constant (F := Ideal) S_ .f32 0x47800000#32) (ix2 (0 : Fin 1) k))
      - Ideal.div (Reg1.S1arr (V3 m ρ) c (ix2 (0 : Fin 1) k)) (broadcastInDim (α := EReal) S1x512 ![] bcast_S_S1x512 (constant (F := Ideal) S_ .f32 0x47800000#32) (ix2 (0 : Fin 1) k))
        * Ideal.div (Reg1.S1arr (V3 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg1.S2arr_apply, Reg1.S1arr_apply]
  rw [show (∑ r : Fin 65536, Reg1.H (V3 m ρ) c r k) = ∑ r : Fin 65536, h2 m c r k from
        Finset.sum_congr rfl fun r _ => h2_eq m ρ c r k,
      show (∑ r : Fin 65536, Reg1.H (V3 m ρ) c r k * Reg1.H (V3 m ρ) c r k) = ∑ r : Fin 65536, h2 m c r k * h2 m c r k from
        Finset.sum_congr rfl fun r _ => by rw [h2_eq m ρ c r k]]
  rfl

theorem V_g (c : Dev nD) (k : Fin 512) :
    (V5 m ρ c (Pipeline.arrRef spec2 3) : S1x512.Idx → EReal) (ix2 (0 : Fin 1) k) = g2 m c k := by
  show (V5 m ρ c main_v26 : S1x512.Idx → EReal) (ix2 (0 : Fin 1) k) = _
  rw [e_g]
  exact shapeCast_a_1a_apply _ _ 0 k

theorem V_be (c : Dev nD) (k : Fin 512) :
    (V5 m ρ c (Pipeline.arrRef spec2 4) : S1x512.Idx → EReal) (ix2 (0 : Fin 1) k) = be2 m c k := by
  show (V5 m ρ c main_v27 : S1x512.Idx → EReal) (ix2 (0 : Fin 1) k) = _
  rw [e_be]
  exact shapeCast_a_1a_apply _ _ 0 k

theorem V_w (c : Dev nD) (k : Fin 512) (q : Fin 512) :
    (V5 m ρ c (Pipeline.arrRef spec2 5) : S512x512.Idx → EReal) (ix2 k q) = Network.sgn (w3 m c) q k := by
  show (V5 m ρ c main_v25 : S512x512.Idx → EReal) (ix2 k q) = _
  rw [e_w]
  refine (truncf_apply (s := S512x512) (φ := .f32) (ψ := .bf16) _ bitsLt_bf16_f32 (ix2 k q)).trans ?_
  refine (transpose_ix2_apply _ _ k q).trans ?_
  rfl

theorem V_b (c : Dev nD) (q : Fin 512) :
    (V5 m ρ c (Pipeline.arrRef spec2 6) : S1x512.Idx → EReal) (ix2 (0 : Fin 1) q) = b3 m c q := by
  show (V5 m ρ c main_v28 : S1x512.Idx → EReal) (ix2 (0 : Fin 1) q) = _
  rw [e_b]
  exact shapeCast_a_1a_apply _ _ 0 q

end Stage2

open Stage2

/-- The pre-activation the launch writes is the next layer's. -/
theorem h3_eq (c : Dev nD) (r : Fin 65536) (q : Fin 512) : Reg2.H (V5 m ρ) c r q = h3 m c r q := by
  unfold Reg2.H h3
  exact hidden_step (M := 512) _ _ _ _ _ _ _ (h2 m c) (g2 m c) (be2 m c) (Network.sgn (w3 m c)) (b3 m c)
    (V_h m ρ c) (V_mean m ρ c) (V_var m ρ c) (V_g m ρ c) (V_be m ρ c) (V_w m ρ c) (V_b m ρ c) r q

end Cert.KernelIdeal.Chain

end
-- ==== Proof.Region3.lean ====
/-
  The last launch, read as one array: the log-softmax head over all 65536 rows.

  The launch walks 32 points; at point t it takes rows t·2048 … t·2048 + 2047 of the last hidden layer's
  pre-activations together with the whole of the layer's mean, variance, scale and shift rows, the head's weights and
  its bias, and writes rows t·2048 … t·2048 + 2047 of the output. Entry (p, q) of what it writes is the log-softmax at
  q of the ten logits of row p of the block, and a block's logit is the array's logit at row t·2048 + p, because each
  block read is the array read at the block's offset plus the coordinate inside the block. The 32 blocks of 2048 rows
  cover the 65536 rows (row r lies in block r / 2048), so the output array ends as the log-softmax of the logits,
  index by index.
-/
import proofs.«107829_j6700148982619_2_alg».proof.Proof.Gen.KernelIdeal.Frame
import proofs.«107829_j6700148982619_2_alg».proof.Proof.PayBn
import proofs.«107829_j6700148982619_2_alg».proof.Proof.Network
import proofs.«107829_j6700148982619_2_alg».proof.Proof.LibLiterals
import Idealize.ShloMosaic.Lib.Pipeline.Value
import Idealize.ShloMosaic.Lib.Tactic

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Logit (r, q) of the head from the arrays the last launch finds: the signs of row r's normalised entries against
    column q of the head's weights, plus the bias. -/
def logit (c : Dev nD) (r : Fin 65536) (q : Fin 10) : EReal :=
  (∑ k : Fin 512, Ideal.sign (Pay.bnEntry (V c (Pipeline.arrRef spec3 0) (ix2 r k)) (V c (Pipeline.arrRef spec3 1) (ix2 (0 : Fin 1) k))
      (V c (Pipeline.arrRef spec3 2) (ix2 (0 : Fin 1) k)) (V c (Pipeline.arrRef spec3 3) (ix2 (0 : Fin 1) k))
      (V c (Pipeline.arrRef spec3 4) (ix2 (0 : Fin 1) k))) * V c (Pipeline.arrRef spec3 5) (ix2 k q))
    + V c (Pipeline.arrRef spec3 6) (ix2 (0 : Fin 1) q)

/-- The whole output array: the log-softmax of the logits, index by index. -/
def G (c : Dev nD) : S65536x10.Idx → EReal := fun i => Cert.Network.logSoftmax (logit V c) (i 0) (i 1)

theorem hz : (![0, 0] : Fin 2 → Nat) = fun _ => 0 := funext fun a => by fin_cases a <;> rfl

/-- The windows' block indices over the grid: the pre-activations and the output move one block of rows per point,
    every other window stays on its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row p of point t's block of pre-activations is row t·2048 + p of the array. -/
theorem blk0_apply (c : Dev nD) (t : Fin cfg3.N) (p : Fin 2048) (k : Fin 512) (r : Fin 65536) (hr : r.val = t.val * 2048 + p.val) :
    (iblk3 (F := Ideal) V c 0 t : Vec Ideal S2048x512 .f32) (ix2 p k) = V c (Pipeline.arrRef spec3 0) (ix2 r k) := by
  have h := idx_facts t
  unfold iblk3
  rw [View.read_apply]
  show V c (Pipeline.arrRef spec3 0) _ = V c (Pipeline.arrRef spec3 0) _
  refine congrArg _ (funext fun a => Fin.ext ?_)
  match a with
  | ⟨0, _⟩ =>
    show win3_0.index t (0 : Fin 2) * 2048 + 1 * p.val = r.val
    omega
  | ⟨1, _⟩ =>
    show win3_0.index t (1 : Fin 2) * 512 + 1 * k.val = k.val
    omega

theorem blk1_apply (c : Dev nD) (t : Fin cfg3.N) (k : Fin 512) :
    (iblk3 (F := Ideal) V c 1 t : Vec Ideal S1x512 .f32) (ix2 (0 : Fin 1) k)
      = V c (Pipeline.arrRef spec3 1) (ix2 (0 : Fin 1) k) := by
  have h := idx_facts t
  unfold iblk3
  rw [View.read_apply]
  show V c (Pipeline.arrRef spec3 1) _ = V c (Pipeline.arrRef spec3 1) _
  refine congrArg _ (funext fun a => Fin.ext ?_)
  match a with
  | ⟨0, _⟩ =>
    show win3_1.index t (0 : Fin 2) * 1 + 1 * 0 = 0
    omega
  | ⟨1, _⟩ =>
    show win3_1.index t (1 : Fin 2) * 512 + 1 * k.val = k.val
    omega

theorem blk2_apply (c : Dev nD) (t : Fin cfg3.N) (k : Fin 512) :
    (iblk3 (F := Ideal) V c 2 t : Vec Ideal S1x512 .f32) (ix2 (0 : Fin 1) k)
      = V c (Pipeline.arrRef spec3 2) (ix2 (0 : Fin 1) k) := by
  have h := idx_facts t
  unfold iblk3
  rw [View.read_apply]
  show V c (Pipeline.arrRef spec3 2) _ = V c (Pipeline.arrRef spec3 2) _
  refine congrArg _ (funext fun a => Fin.ext ?_)
  match a with
  | ⟨0, _⟩ =>
    show win3_2.index t (0 : Fin 2) * 1 + 1 * 0 = 0
    omega
  | ⟨1, _⟩ =>
    show win3_2.index t (1 : Fin 2) * 512 + 1 * k.val = k.val
    omega

theorem blk3_apply (c : Dev nD) (t : Fin cfg3.N) (k : Fin 512) :
    (iblk3 (F := Ideal) V c 3 t : Vec Ideal S1x512 .f32) (ix2 (0 : Fin 1) k)
      = V c (Pipeline.arrRef spec3 3) (ix2 (0 : Fin 1) k) := by
  have h := idx_facts t
  unfold iblk3
  rw [View.read_apply]
  show V c (Pipeline.arrRef spec3 3) _ = V c (Pipeline.arrRef spec3 3) _
  refine congrArg _ (funext fun a => Fin.ext ?_)
  match a with
  | ⟨0, _⟩ =>
    show win3_3.index t (0 : Fin 2) * 1 + 1 * 0 = 0
    omega
  | ⟨1, _⟩ =>
    show win3_3.index t (1 : Fin 2) * 512 + 1 * k.val = k.val
    omega

theorem blk4_apply (c : Dev nD) (t : Fin cfg3.N) (k : Fin 512) :
    (iblk3 (F := Ideal) V c 4 t : Vec Ideal S1x512 .f32) (ix2 (0 : Fin 1) k)
      = V c (Pipeline.arrRef spec3 4) (ix2 (0 : Fin 1) k) := by
  have h := idx_facts t
  unfold iblk3
  rw [View.read_apply]
  show V c (Pipeline.arrRef spec3 4) _ = V c (Pipeline.arrRef spec3 4) _
  refine congrArg _ (funext fun a => Fin.ext ?_)
  match a with
  | ⟨0, _⟩ =>
    show win3_4.index t (0 : Fin 2) * 1 + 1 * 0 = 0
    omega
  | ⟨1, _⟩ =>
    show win3_4.index t (1 : Fin 2) * 512 + 1 * k.val = k.val
    omega

theorem blk5_apply (c : Dev nD) (t : Fin cfg3.N) (k : Fin 512) (q : Fin 10) :
    (iblk3 (F := Ideal) V c 5 t : Vec Ideal S512x10 .bf16) (ix2 k q)
      = V c (Pipeline.arrRef spec3 5) (ix2 k q) := by
  have h := idx_facts t
  unfold iblk3
  rw [View.read_apply]
  show V c (Pipeline.arrRef spec3 5) _ = V c (Pipeline.arrRef spec3 5) _
  refine congrArg _ (funext fun a => Fin.ext ?_)
  match a with
  | ⟨0, _⟩ =>
    show win3_5.index t (0 : Fin 2) * 512 + 1 * k.val = k.val
    omega
  | ⟨1, _⟩ =>
    show win3_5.index t (1 : Fin 2) * 10 + 1 * q.val = q.val
    omega

theorem blk6_apply (c : Dev nD) (t : Fin cfg3.N) (q : Fin 10) :
    (iblk3 (F := Ideal) V c 6 t : Vec Ideal S1x10 .f32) (ix2 (0 : Fin 1) q)
      = V c (Pipeline.arrRef spec3 6) (ix2 (0 : Fin 1) q) := by
  have h := idx_facts t
  unfold iblk3
  rw [View.read_apply]
  show V c (Pipeline.arrRef spec3 6) _ = V c (Pipeline.arrRef spec3 6) _
  refine congrArg _ (funext fun a => Fin.ext ?_)
  match a with
  | ⟨0, _⟩ =>
    show win3_6.index t (0 : Fin 2) * 1 + 1 * 0 = 0
    omega
  | ⟨1, _⟩ =>
    show win3_6.index t (1 : Fin 2) * 10 + 1 * q.val = q.val
    omega

/-- The logits of point t's block are the logits of the array's rows t·2048 + p. -/
theorem pay_eq_logit (c : Dev nD) (t : Fin cfg3.N) (p : Fin 2048) (q : Fin 10) (r : Fin 65536) (hr : r.val = t.val * 2048 + p.val) :
    k3_pay2 (F := Ideal) (iblk3 V c 0 t) (iblk3 V c 1 t) (iblk3 V c 2 t) (iblk3 V c 3 t) (iblk3 V c 4 t) (iblk3 V c 5 t) (iblk3 V c 6 t) (ix2 p q)
      = logit V c r q := by
  refine (Pay.pay32_apply (iblk3 V c 0 t) (iblk3 V c 1 t) (iblk3 V c 2 t) (iblk3 V c 3 t) (iblk3 V c 4 t) (iblk3 V c 5 t) (iblk3 V c 6 t) p q).trans ?_
  unfold logit
  rw [blk6_apply V c t q]
  refine congrArg (· + _) (Finset.sum_congr rfl fun k _ => ?_)
  rw [blk0_apply V c t p k r hr, blk1_apply V c t k, blk2_apply V c t k, blk3_apply V c t k, blk4_apply V c t k, blk5_apply V c t k q]

/-- The head at one entry, from the logits of its row: the entry minus the row's maximum, minus the logarithm of the
    sum over the row of the exponentials of the same differences. -/
theorem head_apply (l mx : FVec Ideal S2048x10 .f32) (p : Fin 2048) (f : Fin 10 → EReal) (hl : ∀ k, l (ix2 p k) = f k)
    (hmx : ∀ k, mx (ix2 p k) = (Finset.univ : Finset (Fin 10)).fold max ⊥ f) (q : Fin 10) :
    k3_pay1 (F := Ideal) l mx (ix2 p q)
      = (f q - (Finset.univ : Finset (Fin 10)).fold max ⊥ f)
        - Ideal.log (∑ k : Fin 10, Ideal.exp (f k - (Finset.univ : Finset (Fin 10)).fold max ⊥ f)) := by
  rw [Pay.pay31_apply]
  simp only [hl, hmx]

/-- What point t writes back is block t of the whole array. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S2048x512) hz, View.ld_unit_zero (S := S1x512) hz, View.ld_unit_zero (S := S512x10) hz,
    View.ld_unit_zero (S := S1x10) hz]
  funext j
  obtain ⟨p, q, rfl⟩ : ∃ (p : Fin 2048) (q : Fin 10), j = ix2 p q := ⟨j 0, j 1, eq_ix2 (n0 := 2048) (n1 := 10) j⟩
  have h := idx_facts t
  have hN : cfg3.N = 32 := N_3
  have hp : p.val < 2048 := p.isLt
  have ht : t.val < 32 := hN ▸ t.isLt
  let r : Fin 65536 := ⟨t.val * 2048 + p.val, by omega⟩
  have hr : r.val = t.val * 2048 + p.val := rfl
  have hemb : ((cfg3.win 7).blk t).view.emb (ix2 p q) = (ix2 r q : S65536x10.Idx) := by
    funext a; apply Fin.ext
    match a with
    | ⟨0, _⟩ =>
      show win3_7.index t (0 : Fin 2) * 2048 + 1 * p.val = t.val * 2048 + p.val
      omega
    | ⟨1, _⟩ =>
      show win3_7.index t (1 : Fin 2) * 10 + 1 * q.val = q.val
      omega
  rw [View.read_apply]
  show k3_pay1 (F := Ideal) _ _ (ix2 p q) = G V c (((cfg3.win 7).blk t).view.emb (ix2 p q))
  rw [hemb]
  refine head_apply _ _ p (logit V c r) (fun k => pay_eq_logit V c t p k r hr) (fun k => ?_) q
  refine (Pay.pay33_apply (iblk3 V c 0 t) (iblk3 V c 1 t) (iblk3 V c 2 t) (iblk3 V c 3 t) (iblk3 V c 4 t) (iblk3 V c 5 t) (iblk3 V c 6 t) p k).trans ?_
  rw [Cert.Literals.ofBits_neg_inf]
  exact congrArg (fun f : Fin 10 → EReal => (Finset.univ : Finset (Fin 10)).fold max ⊥ f) (funext fun k' => pay_eq_logit V c t p k' r hr)

/-- Every row of the array is in the block of the point numbered by the row divided by 2048. -/
theorem cover (c : Dev nD) (i : S65536x10.Idx) :
    ∃ t : Fin cfg3.N, (cfg3.win 7).flush t = true ∧ i ∈ ((cfg3.win 7).blk t).view.set := by
  have hN : cfg3.N = 32 := N_3
  have hi0 : (i 0).val < 65536 := (i 0).isLt
  have hi1 : (i 1).val < 10 := (i 1).isLt
  let t : Fin cfg3.N := ⟨(i 0).val / 2048, by rw [hN]; omega⟩
  have htv : t.val = (i 0).val / 2048 := rfl
  have h := idx_facts t
  refine ⟨t, flush3_7 t, ?_⟩
  show i ∈ ((View.whole main_v41).slice (win3_7.rect t)).set
  rw [View.set_slice_whole, Rect.mem_set_unit]
  intro a
  match a with
  | ⟨0, _⟩ =>
    show win3_7.index t (0 : Fin 2) * 2048 ≤ (i 0).val ∧ (i 0).val < win3_7.index t (0 : Fin 2) * 2048 + 2048
    omega
  | ⟨1, _⟩ =>
    show win3_7.index t (1 : Fin 2) * 10 ≤ (i 1).val ∧ (i 1).val < win3_7.index t (1 : Fin 2) * 10 + 10
    omega

/-- The output array after the last launch is the log-softmax of the logits. -/
theorem final (c : Dev nD) : (dat3 (F := Ideal) V c).arrAt 7 cfg3.N = G V c :=
  (dat3 V c).arrAt_eq_of_cover 7 (G V c) (fun t _ => flushed_eq V c t) (cover c)

/-- Entry (r, q) of the output array after the last launch: the log-softmax of row r's logits at q. -/
theorem arr7_apply (c : Dev nD) (r : Fin 65536) (q : Fin 10) :
    (dat3 (F := Ideal) V c).arrAt 7 cfg3.N (ix2 r q) = Cert.Network.logSoftmax (logit V c) r q := by
  rw [final V c]
  rfl

end Cert.KernelIdeal.Reg3

end
-- ==== Proof.Chain3.lean ====
/-
  What launch 3 finds in its input arrays, in terms of the program's arguments, and what it therefore writes.

  After the previous launch the host divides the two accumulated rows by the number of rows to get the column mean and
  the mean of squares, subtracts the squared mean to get the variance, lays the scale, shift and bias as rows, and
  transposes the head's weights. The previous launch left the previous pre-activation row by row. So the
  launch reads exactly the arrays of one batch-normalised head of the network.
-/
import proofs.«107829_j6700148982619_2_alg».proof.Proof.Chain2
import proofs.«107829_j6700148982619_2_alg».proof.Proof.Region3

noncomputable section

open Idealize.ShloMosaic Idealize.ShloMosaic.TcCoe Idealize.SL.Sem Idealize.ShloMosaic.ValueIdx
open Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- The logits of the head. -/
def logits (c : Dev nD) : Fin 65536 → Fin 10 → EReal :=
  Network.lin (Network.hiddenA CNT EPS (h3 m c) (g3 m c) (be3 m c)) (w4 m c) (b4 m c)

namespace Stage3

/-! ## The arguments reach the stage unchanged -/

theorem s3_W2_arg13 (c : Dev nD) : W2 m ρ c (Proc.devRef .tc main_arg13) = m ((c : Thread nD τ).loc main_arg13) :=
  (W2_of_ne m ρ c main_arg13 (by decide)).trans (by show StableHlo.after hostOps0 (W0 m ρ c) (Proc.devRef .tc main_arg13) = m ((c : Thread nD τ).loc main_arg13); after_results)
theorem s3_W4_arg13 (c : Dev nD) : W4 m ρ c (Proc.devRef .tc main_arg13) = m ((c : Thread nD τ).loc main_arg13) :=
  (W4_of_ne m ρ c main_arg13 (by decide)).trans ((show StableHlo.after hostOps1 (W2 m ρ c) (Proc.devRef .tc main_arg13) = W2 m ρ c (Proc.devRef .tc main_arg13) from by after_results).trans (s3_W2_arg13 m ρ c))
theorem s3_W6_arg13 (c : Dev nD) : W6 m ρ c (Proc.devRef .tc main_arg13) = m ((c : Thread nD τ).loc main_arg13) :=
  (W6_of_ne m ρ c main_arg13 (by decide)).trans ((show StableHlo.after hostOps2 (W4 m ρ c) (Proc.devRef .tc main_arg13) = W4 m ρ c (Proc.devRef .tc main_arg13) from by after_results).trans (s3_W4_arg13 m ρ c))
theorem s3_W2_arg11 (c : Dev nD) : W2 m ρ c (Proc.devRef .tc main_arg11) = m ((c : Thread nD τ).loc main_arg11) :=
  (W2_of_ne m ρ c main_arg11 (by decide)).trans (by show StableHlo.after hostOps0 (W0 m ρ c) (Proc.devRef .tc main_arg11) = m ((c : Thread nD τ).loc main_arg11); after_results)
theorem s3_W4_arg11 (c : Dev nD) : W4 m ρ c (Proc.devRef .tc main_arg11) = m ((c : Thread nD τ).loc main_arg11) :=
  (W4_of_ne m ρ c main_arg11 (by decide)).trans ((show StableHlo.after hostOps1 (W2 m ρ c) (Proc.devRef .tc main_arg11) = W2 m ρ c (Proc.devRef .tc main_arg11) from by after_results).trans (s3_W2_arg11 m ρ c))
theorem s3_W6_arg11 (c : Dev nD) : W6 m ρ c (Proc.devRef .tc main_arg11) = m ((c : Thread nD τ).loc main_arg11) :=
  (W6_of_ne m ρ c main_arg11 (by decide)).trans ((show StableHlo.after hostOps2 (W4 m ρ c) (Proc.devRef .tc main_arg11) = W4 m ρ c (Proc.devRef .tc main_arg11) from by after_results).trans (s3_W4_arg11 m ρ c))
theorem s3_W2_arg12 (c : Dev nD) : W2 m ρ c (Proc.devRef .tc main_arg12) = m ((c : Thread nD τ).loc main_arg12) :=
  (W2_of_ne m ρ c main_arg12 (by decide)).trans (by show StableHlo.after hostOps0 (W0 m ρ c) (Proc.devRef .tc main_arg12) = m ((c : Thread nD τ).loc main_arg12); after_results)
theorem s3_W4_arg12 (c : Dev nD) : W4 m ρ c (Proc.devRef .tc main_arg12) = m ((c : Thread nD τ).loc main_arg12) :=
  (W4_of_ne m ρ c main_arg12 (by decide)).trans ((show StableHlo.after hostOps1 (W2 m ρ c) (Proc.devRef .tc main_arg12) = W2 m ρ c (Proc.devRef .tc main_arg12) from by after_results).trans (s3_W2_arg12 m ρ c))
theorem s3_W6_arg12 (c : Dev nD) : W6 m ρ c (Proc.devRef .tc main_arg12) = m ((c : Thread nD τ).loc main_arg12) :=
  (W6_of_ne m ρ c main_arg12 (by decide)).trans ((show StableHlo.after hostOps2 (W4 m ρ c) (Proc.devRef .tc main_arg12) = W4 m ρ c (Proc.devRef .tc main_arg12) from by after_results).trans (s3_W4_arg12 m ρ c))
theorem s3_W2_arg14 (c : Dev nD) : W2 m ρ c (Proc.devRef .tc main_arg14) = m ((c : Thread nD τ).loc main_arg14) :=
  (W2_of_ne m ρ c main_arg14 (by decide)).trans (by show StableHlo.after hostOps0 (W0 m ρ c) (Proc.devRef .tc main_arg14) = m ((c : Thread nD τ).loc main_arg14); after_results)
theorem s3_W4_arg14 (c : Dev nD) : W4 m ρ c (Proc.devRef .tc main_arg14) = m ((c : Thread nD τ).loc main_arg14) :=
  (W4_of_ne m ρ c main_arg14 (by decide)).trans ((show StableHlo.after hostOps1 (W2 m ρ c) (Proc.devRef .tc main_arg14) = W2 m ρ c (Proc.devRef .tc main_arg14) from by after_results).trans (s3_W2_arg14 m ρ c))
theorem s3_W6_arg14 (c : Dev nD) : W6 m ρ c (Proc.devRef .tc main_arg14) = m ((c : Thread nD τ).loc main_arg14) :=
  (W6_of_ne m ρ c main_arg14 (by decide)).trans ((show StableHlo.after hostOps2 (W4 m ρ c) (Proc.devRef .tc main_arg14) = W4 m ρ c (Proc.devRef .tc main_arg14) from by after_results).trans (s3_W4_arg14 m ρ c))

/-! ## What the previous launch left -/

theorem Wp_h (c : Dev nD) : (W6 m ρ c (Proc.devRef .tc main_v29_0) : S65536x512.Idx → EReal) = Reg2.Harr (V5 m ρ) c :=
  (W6_arr m ρ c 7).trans (Reg2.arr7 (V5 m ρ) c)
theorem Wp_s1 (c : Dev nD) : (W6 m ρ c (Proc.devRef .tc main_v29_1) : S1x512.Idx → EReal) = Reg2.S1arr (V5 m ρ) c :=
  (W6_arr m ρ c 8).trans (Reg2.arr8 (V5 m ρ) c)
theorem Wp_s2 (c : Dev nD) : (W6 m ρ c (Proc.devRef .tc main_v29_2) : S1x512.Idx → EReal) = Reg2.S2arr (V5 m ρ) c :=
  (W6_arr m ρ c 9).trans (Reg2.arr9 (V5 m ρ) c)

/-! ## The launch's input arrays -/

theorem e_h (c : Dev nD) : (V7 m ρ c main_v29_0 : S65536x512.Idx → EReal) = Reg2.Harr (V5 m ρ) c := by
  show StableHlo.after hostOps3 (W6 m ρ c) (Proc.devRef .tc main_v29_0) = _
  after_results
  exact Wp_h m ρ c

theorem e_mean (c : Dev nD) : (V7 m ρ c main_v31 : S1x512.Idx → EReal)
    = Host.divf (F := Ideal) (s := S1x512) (φ := .f32) (Reg2.S1arr (V5 m ρ) c)
        (broadcastInDim (α := EReal) S1x512 ![] bcast_S_S1x512 (constant (F := Ideal) S_ .f32 0x47800000#32)) := by
  show StableHlo.after hostOps3 (W6 m ρ c) (Proc.devRef .tc main_v31) = _
  after_results
  rw [Wp_s1]

theorem e_var (c : Dev nD) : (V7 m ρ c main_v35 : S1x512.Idx → EReal)
    = subf (F := Ideal) (s := S1x512) (φ := .f32)
        (Host.divf (F := Ideal) (s := S1x512) (φ := .f32) (Reg2.S2arr (V5 m ρ) c)
          (broadcastInDim (α := EReal) S1x512 ![] bcast_S_S1x512 (constant (F := Ideal) S_ .f32 0x47800000#32)))
        (mulf (F := Ideal) (s := S1x512) (φ := .f32) (Host.divf (F := Ideal) (s := S1x512) (φ := .f32) (Reg2.S1arr (V5 m ρ) c)
          (broadcastInDim (α := EReal) S1x512 ![] bcast_S_S1x512 (constant (F := Ideal) S_ .f32 0x47800000#32))) (Host.divf (F := Ideal) (s := S1x512) (φ := .f32) (Reg2.S1arr (V5 m ρ) c)
          (broadcastInDim (α := EReal) S1x512 ![] bcast_S_S1x512 (constant (F := Ideal) S_ .f32 0x47800000#32)))) := by
  show StableHlo.after hostOps3 (W6 m ρ c) (Proc.devRef .tc main_v35) = _
  after_results
  rw [Wp_s1, Wp_s2]

theorem e_g (c : Dev nD) : (V7 m ρ c main_v38 : S1x512.Idx → EReal)
    = shapeCast (α := EReal) (s := S512) S1x512 (m ((c : Thread nD τ).loc main_arg11)) shapeCasts_S512_S1x512 := by
  show StableHlo.after hostOps3 (W6 m ρ c) (Proc.devRef .tc main_v38) = _
  after_results
  rw [s3_W6_arg11]
  rfl

theorem e_be (c : Dev nD) : (V7 m ρ c main_v39 : S1x512.Idx → EReal)
    = shapeCast (α := EReal) (s := S512) S1x512 (m ((c : Thread nD τ).loc main_arg12)) shapeCasts_S512_S1x512 := by
  show StableHlo.after hostOps3 (W6 m ρ c) (Proc.devRef .tc main_v39) = _
  after_results
  rw [s3_W6_arg12]
  rfl

theorem e_b (c : Dev nD) : (V7 m ρ c main_v40 : S1x10.Idx → EReal)
    = shapeCast (α := EReal) (s := S10) S1x10 (m ((c : Thread nD τ).loc main_arg14)) shapeCasts_S10_S1x10 := by
  show StableHlo.after hostOps3 (W6 m ρ c) (Proc.devRef .tc main_v40) = _
  after_results
  rw [s3_W6_arg14]
  rfl

theorem e_w (c : Dev nD) : (V7 m ρ c main_v37 : S512x10.Idx → EReal)
    = truncf (F := Ideal) (s := S512x10) (φ := .f32) .bf16 (transpose (α := EReal) S512x10 [1, 0] (m ((c : Thread nD τ).loc main_arg13)) transposes_S10x512_S512x10_1_0) bitsLt_bf16_f32 := by
  show StableHlo.after hostOps3 (W6 m ρ c) (Proc.devRef .tc main_v37) = _
  after_results
  rw [s3_W6_arg13]
  try rfl

/-! ## The same arrays entry by entry -/

theorem V_h (c : Dev nD) (r : Fin 65536) (k : Fin 512) :
    (V7 m ρ c (Pipeline.arrRef spec3 0) : S65536x512.Idx → EReal) (ix2 r k) = h3 m c r k := by
  show (V7 m ρ c main_v29_0 : S65536x512.Idx → EReal) (ix2 r k) = _
  rw [e_h, Reg2.Harr_apply]
  exact h3_eq m ρ c r k

theorem V_mean (c : Dev nD) (k : Fin 512) :
    (V7 m ρ c (Pipeline.arrRef spec3 1) : S1x512.Idx → EReal) (ix2 (0 : Fin 1) k) = Network.mean CNT (h3 m c) k := by
  show (V7 m ρ c main_v31 : S1x512.Idx → EReal) (ix2 (0 : Fin 1) k) = _
  rw [e_mean]
  show Ideal.div (Reg2.S1arr (V5 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg2.S1arr_apply]
  unfold Network.mean Network.colSum
  exact congrArg (Ideal.div · CNT) (Finset.sum_congr rfl fun r _ => h3_eq m ρ c r k)

theorem V_var (c : Dev nD) (k : Fin 512) :
    (V7 m ρ c (Pipeline.arrRef spec3 2) : S1x512.Idx → EReal) (ix2 (0 : Fin 1) k) = Network.varOfSquares CNT (h3 m c) k := by
  show (V7 m ρ c main_v35 : S1x512.Idx → EReal) (ix2 (0 : Fin 1) k) = _
  rw [e_var]
  show Ideal.div (Reg2.S2arr (V5 m ρ) c (ix2 (0 : Fin 1) k)) (broadcastInDim (α := EReal) S1x512 ![] bcast_S_S1x512 (constant (F := Ideal) S_ .f32 0x47800000#32) (ix2 (0 : Fin 1) k))
      - Ideal.div (Reg2.S1arr (V5 m ρ) c (ix2 (0 : Fin 1) k)) (broadcastInDim (α := EReal) S1x512 ![] bcast_S_S1x512 (constant (F := Ideal) S_ .f32 0x47800000#32) (ix2 (0 : Fin 1) k))
        * Ideal.div (Reg2.S1arr (V5 m ρ) c (ix2 (0 : Fin 1) k)) (broadcastInDim (α := EReal) S1x512 ![] bcast_S_S1x512 (constant (F := Ideal) S_ .f32 0x47800000#32) (ix2 (0 : Fin 1) k)) = _
  rw [broadcastInDim_scalar_apply, Reg2.S2arr_apply, Reg2.S1arr_apply]
  rw [show (∑ r : Fin 65536, Reg2.H (V5 m ρ) c r k) = ∑ r : Fin 65536, h3 m c r k from
        Finset.sum_congr rfl fun r _ => h3_eq m ρ c r k,
      show (∑ r : Fin 65536, Reg2.H (V5 m ρ) c r k * Reg2.H (V5 m ρ) c r k) = ∑ r : Fin 65536, h3 m c r k * h3 m c r k from
        Finset.sum_congr rfl fun r _ => by rw [h3_eq m ρ c r k]]
  rfl

theorem V_g (c : Dev nD) (k : Fin 512) :
    (V7 m ρ c (Pipeline.arrRef spec3 3) : S1x512.Idx → EReal) (ix2 (0 : Fin 1) k) = g3 m c k := by
  show (V7 m ρ c main_v38 : S1x512.Idx → EReal) (ix2 (0 : Fin 1) k) = _
  rw [e_g]
  exact shapeCast_a_1a_apply _ _ 0 k

theorem V_be (c : Dev nD) (k : Fin 512) :
    (V7 m ρ c (Pipeline.arrRef spec3 4) : S1x512.Idx → EReal) (ix2 (0 : Fin 1) k) = be3 m c k := by
  show (V7 m ρ c main_v39 : S1x512.Idx → EReal) (ix2 (0 : Fin 1) k) = _
  rw [e_be]
  exact shapeCast_a_1a_apply _ _ 0 k

theorem V_w (c : Dev nD) (k : Fin 512) (q : Fin 10) :
    (V7 m ρ c (Pipeline.arrRef spec3 5) : S512x10.Idx → EReal) (ix2 k q) = w4 m c q k := by
  show (V7 m ρ c main_v37 : S512x10.Idx → EReal) (ix2 k q) = _
  rw [e_w]
  refine (truncf_apply (s := S512x10) (φ := .f32) (ψ := .bf16) _ bitsLt_bf16_f32 (ix2 k q)).trans ?_
  refine (transpose_ix2_apply _ _ k q).trans ?_
  rfl

theorem V_b (c : Dev nD) (q : Fin 10) :
    (V7 m ρ c (Pipeline.arrRef spec3 6) : S1x10.Idx → EReal) (ix2 (0 : Fin 1) q) = b4 m c q := by
  show (V7 m ρ c main_v40 : S1x10.Idx → EReal) (ix2 (0 : Fin 1) q) = _
  rw [e_b]
  exact shapeCast_a_1a_apply _ _ 0 q

end Stage3

open Stage3

/-- The logits the last launch forms are the head's logits. -/
theorem logits_eq (c : Dev nD) (r : Fin 65536) (q : Fin 10) : Reg3.logit (V7 m ρ) c r q = logits m c r q := by
  unfold Reg3.logit logits
  exact hidden_step (M := 10) _ _ _ _ _ _ _ (h3 m c) (g3 m c) (be3 m c) (w4 m c) (b4 m c)
    (V_h m ρ c) (V_mean m ρ c) (V_var m ρ c) (V_g m ρ c) (V_be m ρ c) (V_w m ρ c) (V_b m ρ c) r q

/-- The result array after the whole run is the network in the first arrangement, entry by entry: the last launch
    writes the log-softmax of its logits, and the three earlier launches and the host operations between them have
    produced, layer by layer, the arrays those logits are formed from. -/
theorem result_apply (c : Dev nD) (r : Fin 65536) (q : Fin 10) :
    W8 m ρ c (Proc.devRef .tc main_v41) (ix2 r q)
      = Network.netA CNT EPS (x m c) (w1 m c) (b1 m c) (g1 m c) (be1 m c) (w2 m c) (b2 m c) (g2 m c) (be2 m c)
          (w3 m c) (b3 m c) (g3 m c) (be3 m c) (w4 m c) (b4 m c) r q := by
  have e : (W8 m ρ c (Proc.devRef .tc main_v41) : S65536x10.Idx → EReal) = (dat3 (F := Ideal) (V7 m ρ) c).arrAt 7 cfg3.N :=
    W8_arr m ρ c 7
  rw [e, Reg3.arr7_apply]
  have hl : Reg3.logit (V7 m ρ) c = logits m c := funext fun r => funext fun q => logits_eq m ρ c r q
  rw [hl]
  unfold Network.netA logits h3 h2 h1
  rfl

end Cert.KernelIdeal.Chain

end
-- ==== Proof.Assembly.lean ====
/-
  The five claims of the certificate, assembled.

  The two kernel programs and the reference run and leave their arguments unchanged. The exact-value kernel program
  differs from the printed one at three places, each the sign read through the sign bit. At the exact values the
  kernel's result is, entry by entry, the binarised perceptron in its first arrangement (variance as the mean of the
  squares minus the squared mean, the sign taken directly) and the reference's result the same network in its second
  arrangement (variance as the mean of the squared deviations, the sign as the identity plus a difference); under the
  precondition every argument entry is a real, the row count is the real 65536 and the constant added to the variance
  a positive real, and on such parameters the two arrangements are equal.
-/
import proofs.«107829_j6700148982619_2_alg».proof.Defs
import proofs.«107829_j6700148982619_2_alg».proof.Proof.Gen.Kernel
import proofs.«107829_j6700148982619_2_alg».proof.Proof.Gen.Kernel.Frame
import proofs.«107829_j6700148982619_2_alg».proof.Proof.Gen.KernelIdeal
import proofs.«107829_j6700148982619_2_alg».proof.Proof.Gen.KernelIdeal.Frame
import proofs.«107829_j6700148982619_2_alg».proof.Proof.Gen.ReferenceIdeal
import proofs.«107829_j6700148982619_2_alg».proof.Proof.Gen.Pre_finite_inputs
import proofs.«107829_j6700148982619_2_alg».proof.Proof.KernelRun
import proofs.«107829_j6700148982619_2_alg».proof.Proof.RefRun
import proofs.«107829_j6700148982619_2_alg».proof.Proof.RefRead
import proofs.«107829_j6700148982619_2_alg».proof.Proof.NetworkEq
import proofs.«107829_j6700148982619_2_alg».proof.Proof.LibLiterals
import proofs.«107829_j6700148982619_2_alg».proof.Proof.FiniteInputs
import proofs.«107829_j6700148982619_2_alg».proof.Proof.Chain3

noncomputable section

open Idealize.ShloMosaic Idealize.ShloMosaic.TcCoe Idealize.SL.Sem Idealize.ShloMosaic.ValueIdx

namespace Cert.Proof.Assembly

open Cert.KernelIdeal

/-- The kernel program as printed runs and leaves its arguments unchanged. -/
theorem frame_kernel : Cert.frame_Kernel := fun m ρ _ => Cert.Kernel.Gen.frame m ρ

/-- The kernel program at the exact values runs and leaves its arguments unchanged. -/
theorem frame_kernelIdeal : Cert.frame_KernelIdeal := fun m ρ _ => Cert.KernelIdeal.Gen.frame m ρ

/-- The reference program at the exact values runs and leaves its arguments unchanged. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The three places where the sign is read through the sign bit: at the exact values the window is the comparison
    with zero selecting -1 or 1, at the bit patterns it is 1.0 carrying the operand's sign bit. -/
theorem preserves : Cert.preserves_Kernel_KernelIdeal :=
  ⟨IdealRules.sign_bit.statement Cert.KernelIdeal.S2048x512 .f32,
    IdealRules.sign_bit.statement Cert.KernelIdeal.S2048x512 .f32,
    IdealRules.sign_bit.statement Cert.KernelIdeal.S2048x512 .f32⟩

/-- At the exact values, from memories that agree on the fifteen arguments, both programs run and end with the same
    result array. Entry by entry the kernel's result is the network in its first arrangement and the reference's the
    network in its second; the precondition makes every argument entry a real, the count is the real 65536 and the
    added constant a positive real, so the two arrangements agree. -/
theorem algebraic : Cert.algebraic_KernelIdeal_ReferenceIdeal := by
  intro m ρ m' ρ' hpre hagree
  refine ⟨fun c => Cert.KernelIdeal.Gen.W8 m ρ c (Proc.devRef .tc Cert.KernelIdeal.main_v41),
    Cert.KernelIdeal.RunValue.run_result (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]
  obtain ⟨e0, e1, e2, e3, e4, e5, e6, e7, e8, e9, e10, e11, e12, e13, e14⟩ := Cert.FiniteInputs.real_entries m hpre c
  funext i
  obtain ⟨r, q, rfl⟩ : ∃ (r : Fin 65536) (q : Fin 10), i = ix2 r q := ⟨i 0, i 1, eq_ix2 (n0 := 65536) (n1 := 10) i⟩
  rw [Cert.ReferenceIdeal.RefValue.refOut_eq]
  refine Eq.trans ?_ (Chain.result_apply m ρ c r q).symm
  exact (congrFun (congrFun (Cert.Network.netA_eq_netB (n := 65536) (K := 784) (M := 512) (Q := 10) (by norm_num)
        Chain.CNT Chain.EPS (by show Ideal.ofBits .f32 0x47800000#32 = _; rw [Cert.Literals.ofBits_65536, Nat.cast_ofNat]) Cert.Literals.ofBits_eps_pos
        (Chain.x m c) (Chain.w1 m c) (Chain.b1 m c) (Chain.g1 m c) (Chain.be1 m c) (Chain.w2 m c) (Chain.b2 m c) (Chain.g2 m c) (Chain.be2 m c) (Chain.w3 m c) (Chain.b3 m c) (Chain.g3 m c) (Chain.be3 m c) (Chain.w4 m c) (Chain.b4 m c)
        (fun r k => e0 (ix2 r k))
        (fun r k => e1 (ix2 r k))
        (fun j => e2 (ix1 j))
        (fun j => e3 (ix1 j))
        (fun j => e4 (ix1 j))
        (fun r k => e5 (ix2 r k))
        (fun j => e6 (ix1 j))
        (fun j => e7 (ix1 j))
        (fun j => e8 (ix1 j))
        (fun r k => e9 (ix2 r k))
        (fun j => e10 (ix1 j))
        (fun j => e11 (ix1 j))
        (fun j => e12 (ix1 j))
        (fun r k => e13 (ix2 r k))
        (fun j => e14 (ix1 j))) r) q).symm

end Cert.Proof.Assembly

end
-- ==== Proof.lean ====
/-
  A fused four-launch kernel for a binarised perceptron against its plain reference, at the exact values.

  The network has three hidden layers h ↦ sign(BN(h)) · sign(W)ᵀ + b, batch normalisation taken over the 65536 rows
  of the batch, and a log-softmax head. The kernel computes each layer's column sums of h and h² while it writes h,
  block by block, and takes the variance as the mean of the squares minus the squared mean; the reference takes it as
  the mean of the squared deviations, and writes the sign as the identity plus the difference between the sign and the
  identity. Read entry by entry, the kernel's result array is the network in the first arrangement (the launches'
  blocks cover each array, the running sums over the grid points are the sums over all rows, and the host operations
  between launches produce the mean and variance rows) and the reference's is the network in the second. Under the
  precondition every argument entry is a real number, and on real parameters the two arrangements are one function:
  the two variances agree, the variance plus the small positive constant is a positive real so its reciprocal square
  root is real, the normalised entries are real, and for a real v the sum v + (sign v - v) is sign v.

  The three frames are the programs' runs with the results dropped; the idealized kernel differs from the printed one
  at three reads of a sign through the sign bit.
-/
import proofs.«107829_j6700148982619_2_alg».proof.Defs
import proofs.«107829_j6700148982619_2_alg».proof.Proof.Assembly

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Assembly.frame_kernel, Cert.Proof.Assembly.frame_kernelIdeal, Cert.Proof.Assembly.frame_referenceIdeal,
    Cert.Proof.Assembly.preserves, Cert.Proof.Assembly.algebraic⟩

end Cert.Proof

end
